-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S4x2048x4096 .f32) (main_arg1 : FVec F S4096x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4x2048x4096 : Shape := ⟨3, ![4, 2048, 4096]⟩
abbrev S4096x4096 : Shape := ⟨2, ![4096, 4096]⟩
abbrev S8192x4096 : Shape := ⟨2, ![8192, 4096]⟩
abbrev S512x4096 : Shape := ⟨2, ![512, 4096]⟩
abbrev S512x128 : Shape := ⟨2, ![512, 128]⟩
abbrev S512 : Shape := ⟨1, ![512]⟩
abbrev S512x1 : Shape := ⟨2, ![512, 1]⟩
abbrev S512x2048 : Shape := ⟨2, ![512, 2048]⟩
abbrev S1024x2048 : Shape := ⟨2, ![1024, 2048]⟩
abbrev S512x1024 : Shape := ⟨2, ![512, 1024]⟩

abbrev nBuf : Space → Nat
  | .hbm => 7
  | .vmem => 15
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S8192x4096, .f32⟩
  | .hbm, ⟨3, _⟩ => ⟨S8192x4096, .bf16⟩
  | .hbm, ⟨4, _⟩ => ⟨S4096x4096, .bf16⟩
  | .hbm, ⟨5, _⟩ => ⟨S8192x4096, .f32⟩
  | .hbm, ⟨6, _⟩ => ⟨S4x2048x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .bf16⟩
  | .local _ .vmem, ⟨3, _⟩ => ⟨S512x4096, .bf16⟩
  | .local _ .vmem, ⟨4, _⟩ => ⟨S512x4096, .f32⟩
  | .local _ .vmem, ⟨5, _⟩ => ⟨S512x4096, .f32⟩
  | .local _ .vmem, ⟨6, _⟩ => ⟨S512x4096, .bf16⟩
  | .local _ .vmem, ⟨7, _⟩ => ⟨S512x4096, .bf16⟩
  | .local _ .vmem, ⟨8, _⟩ => ⟨S512x2048, .bf16⟩
  | .local _ .vmem, ⟨9, _⟩ => ⟨S512x2048, .bf16⟩
  | .local _ .vmem, ⟨10, _⟩ => ⟨S1024x2048, .bf16⟩
  | .local _ .vmem, ⟨11, _⟩ => ⟨S1024x2048, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc2_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13

abbrev nD : Nat := 1
abbrev τ : Topo := Topo.v7x

variable {F : FTy → Type} [FloatOps F]

abbrev grid0 : Pipeline.Grid := ⟨1, ![16], ![false]⟩

def k0_mult1 : BitVec 32 :=
  let c0_i32 : BitVec 32 := 0#32
  let c128_i32 : BitVec 32 := 128#32
  let v0 : BitVec 32 := Scalar.muli c0_i32 c128_i32
  v0
def k0_off1 (c0_i32 : BitVec 32) : Fin 2 → Nat :=
  let c0 : Index := 0#32
  let c128_i32 : BitVec 32 := 128#32
  let v0 : BitVec 32 := Scalar.muli c0_i32 c128_i32
  let v1 : BitVec 32 := v0
  let v2 : Index := Scalar.indexCast v1
  ![0, v2.toNat]
def k0_mult2 : BitVec 32 :=
  let c1_i32 : BitVec 32 := 1#32
  let c128_i32_4 : BitVec 32 := 128#32
  let v22 : BitVec 32 := Scalar.muli c1_i32 c128_i32_4
  v22
def k0_mult3 : BitVec 32 :=
  let c2_i32 : BitVec 32 := 2#32
  let c128_i32_11 : BitVec 32 := 128#32
  let v44 : BitVec 32 := Scalar.muli c2_i32 c128_i32_11
  v44
def k0_mult4 : BitVec 32 :=
  let c3_i32 : BitVec 32 := 3#32
  let c128_i32_18 : BitVec 32 := 128#32
  let v66 : BitVec 32 := Scalar.muli c3_i32 c128_i32_18
  v66
def k0_mult5 : BitVec 32 :=
  let c4_i32 : BitVec 32 := 4#32
  let c128_i32_25 : BitVec 32 := 128#32
  let v88 : BitVec 32 := Scalar.muli c4_i32 c128_i32_25
  v88
def k0_mult6 : BitVec 32 :=
  let c5_i32 : BitVec 32 := 5#32
  let c128_i32_32 : BitVec 32 := 128#32
  let v110 : BitVec 32 := Scalar.muli c5_i32 c128_i32_32
  v110
def k0_mult7 : BitVec 32 :=
  let c6_i32 : BitVec 32 := 6#32
  let c128_i32_39 : BitVec 32 := 128#32
  let v132 : BitVec 32 := Scalar.muli c6_i32 c128_i32_39
  v132
def k0_mult8 : BitVec 32 :=
  let c7_i32 : BitVec 32 := 7#32
  let c128_i32_46 : BitVec 32 := 128#32
  let v154 : BitVec 32 := Scalar.muli c7_i32 c128_i32_46
  v154
def k0_mult9 : BitVec 32 :=
  let c8_i32 : BitVec 32 := 8#32
  let c128_i32_53 : BitVec 32 := 128#32
  let v176 : BitVec 32 := Scalar.muli c8_i32 c128_i32_53
  v176
def k0_mult10 : BitVec 32 :=
  let c9_i32 : BitVec 32 := 9#32
  let c128_i32_60 : BitVec 32 := 128#32
  let v198 : BitVec 32 := Scalar.muli c9_i32 c128_i32_60
  v198
def k0_mult11 : BitVec 32 :=
  let c10_i32 : BitVec 32 := 10#32
  let c128_i32_67 : BitVec 32 := 128#32
  let v220 : BitVec 32 := Scalar.muli c10_i32 c128_i32_67
  v220
def k0_mult12 : BitVec 32 :=
  let c11_i32 : BitVec 32 := 11#32
  let c128_i32_74 : BitVec 32 := 128#32
  let v242 : BitVec 32 := Scalar.muli c11_i32 c128_i32_74
  v242
def k0_mult13 : BitVec 32 :=
  let c12_i32 : BitVec 32 := 12#32
  let c128_i32_81 : BitVec 32 := 128#32
  let v264 : BitVec 32 := Scalar.muli c12_i32 c128_i32_81
  v264
def k0_mult14 : BitVec 32 :=
  let c13_i32 : BitVec 32 := 13#32
  let c128_i32_88 : BitVec 32 := 128#32
  let v286 : BitVec 32 := Scalar.muli c13_i32 c128_i32_88
  v286
def k0_mult15 : BitVec 32 :=
  let c14_i32 : BitVec 32 := 14#32
  let c128_i32_95 : BitVec 32 := 128#32
  let v308 : BitVec 32 := Scalar.muli c14_i32 c128_i32_95
  v308
def k0_mult16 : BitVec 32 :=
  let c15_i32 : BitVec 32 := 15#32
  let c128_i32_102 : BitVec 32 := 128#32
  let v330 : BitVec 32 := Scalar.muli c15_i32 c128_i32_102
  v330
def k0_mult17 : BitVec 32 :=
  let c16_i32 : BitVec 32 := 16#32
  let c128_i32_109 : BitVec 32 := 128#32
  let v352 : BitVec 32 := Scalar.muli c16_i32 c128_i32_109
  v352
def k0_mult18 : BitVec 32 :=
  let c17_i32 : BitVec 32 := 17#32
  let c128_i32_116 : BitVec 32 := 128#32
  let v374 : BitVec 32 := Scalar.muli c17_i32 c128_i32_116
  v374
def k0_mult19 : BitVec 32 :=
  let c18_i32 : BitVec 32 := 18#32
  let c128_i32_123 : BitVec 32 := 128#32
  let v396 : BitVec 32 := Scalar.muli c18_i32 c128_i32_123
  v396
def k0_mult20 : BitVec 32 :=
  let c19_i32 : BitVec 32 := 19#32
  let c128_i32_130 : BitVec 32 := 128#32
  let v418 : BitVec 32 := Scalar.muli c19_i32 c128_i32_130
  v418
def k0_mult21 : BitVec 32 :=
  let c20_i32 : BitVec 32 := 20#32
  let c128_i32_137 : BitVec 32 := 128#32
  let v440 : BitVec 32 := Scalar.muli c20_i32 c128_i32_137
  v440
def k0_mult22 : BitVec 32 :=
  let c21_i32 : BitVec 32 := 21#32
  let c128_i32_144 : BitVec 32 := 128#32
  let v462 : BitVec 32 := Scalar.muli c21_i32 c128_i32_144
  v462
def k0_mult23 : BitVec 32 :=
  let c22_i32 : BitVec 32 := 22#32
  let c128_i32_151 : BitVec 32 := 128#32
  let v484 : BitVec 32 := Scalar.muli c22_i32 c128_i32_151
  v484
def k0_mult24 : BitVec 32 :=
  let c23_i32 : BitVec 32 := 23#32
  let c128_i32_158 : BitVec 32 := 128#32
  let v506 : BitVec 32 := Scalar.muli c23_i32 c128_i32_158
  v506
def k0_mult25 : BitVec 32 :=
  let c24_i32 : BitVec 32 := 24#32
  let c128_i32_165 : BitVec 32 := 128#32
  let v528 : BitVec 32 := Scalar.muli c24_i32 c128_i32_165
  v528
def k0_mult26 : BitVec 32 :=
  let c25_i32 : BitVec 32 := 25#32
  let c128_i32_172 : BitVec 32 := 128#32
  let v550 : BitVec 32 := Scalar.muli c25_i32 c128_i32_172
  v550
def k0_mult27 : BitVec 32 :=
  let c26_i32 : BitVec 32 := 26#32
  let c128_i32_179 : BitVec 32 := 128#32
  let v572 : BitVec 32 := Scalar.muli c26_i32 c128_i32_179
  v572
def k0_mult28 : BitVec 32 :=
  let c27_i32 : BitVec 32 := 27#32
  let c128_i32_186 : BitVec 32 := 128#32
  let v594 : BitVec 32 := Scalar.muli c27_i32 c128_i32_186
  v594
def k0_mult29 : BitVec 32 :=
  let c28_i32 : BitVec 32 := 28#32
  let c128_i32_193 : BitVec 32 := 128#32
  let v616 : BitVec 32 := Scalar.muli c28_i32 c128_i32_193
  v616
def k0_mult30 : BitVec 32 :=
  let c29_i32 : BitVec 32 := 29#32
  let c128_i32_200 : BitVec 32 := 128#32
  let v638 : BitVec 32 := Scalar.muli c29_i32 c128_i32_200
  v638
def k0_mult31 : BitVec 32 :=
  let c30_i32 : BitVec 32 := 30#32
  let c128_i32_207 : BitVec 32 := 128#32
  let v660 : BitVec 32 := Scalar.muli c30_i32 c128_i32_207
  v660
def k0_mult32 : BitVec 32 :=
  let c31_i32 : BitVec 32 := 31#32
  let c128_i32_214 : BitVec 32 := 128#32
  let v682 : BitVec 32 := Scalar.muli c31_i32 c128_i32_214
  v682
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![8], ![false]⟩

def k1_mult1 : BitVec 32 :=
  let c0_i32 : BitVec 32 := 0#32
  let c128_i32 : BitVec 32 := 128#32
  let v0 : BitVec 32 := Scalar.muli c0_i32 c128_i32
  v0
def k1_off1 (c0_i32 : BitVec 32) : Fin 2 → Nat :=
  let c0 : Index := 0#32
  let c128_i32 : BitVec 32 := 128#32
  let v0 : BitVec 32 := Scalar.muli c0_i32 c128_i32
  let v1 : BitVec 32 := v0
  let v2 : Index := Scalar.indexCast v1
  ![0, v2.toNat]
def k1_mult2 : BitVec 32 :=
  let c1_i32 : BitVec 32 := 1#32
  let c128_i32_4 : BitVec 32 := 128#32
  let v21 : BitVec 32 := Scalar.muli c1_i32 c128_i32_4
  v21
def k1_mult3 : BitVec 32 :=
  let c2_i32 : BitVec 32 := 2#32
  let c128_i32_11 : BitVec 32 := 128#32
  let v42 : BitVec 32 := Scalar.muli c2_i32 c128_i32_11
  v42
def k1_mult4 : BitVec 32 :=
  let c3_i32 : BitVec 32 := 3#32
  let c128_i32_18 : BitVec 32 := 128#32
  let v63 : BitVec 32 := Scalar.muli c3_i32 c128_i32_18
  v63
def k1_mult5 : BitVec 32 :=
  let c4_i32 : BitVec 32 := 4#32
  let c128_i32_25 : BitVec 32 := 128#32
  let v84 : BitVec 32 := Scalar.muli c4_i32 c128_i32_25
  v84
def k1_mult6 : BitVec 32 :=
  let c5_i32 : BitVec 32 := 5#32
  let c128_i32_32 : BitVec 32 := 128#32
  let v105 : BitVec 32 := Scalar.muli c5_i32 c128_i32_32
  v105
def k1_mult7 : BitVec 32 :=
  let c6_i32 : BitVec 32 := 6#32
  let c128_i32_39 : BitVec 32 := 128#32
  let v126 : BitVec 32 := Scalar.muli c6_i32 c128_i32_39
  v126
def k1_mult8 : BitVec 32 :=
  let c7_i32 : BitVec 32 := 7#32
  let c128_i32_46 : BitVec 32 := 128#32
  let v147 : BitVec 32 := Scalar.muli c7_i32 c128_i32_46
  v147
def k1_mult9 : BitVec 32 :=
  let c8_i32 : BitVec 32 := 8#32
  let c128_i32_53 : BitVec 32 := 128#32
  let v168 : BitVec 32 := Scalar.muli c8_i32 c128_i32_53
  v168
def k1_mult10 : BitVec 32 :=
  let c9_i32 : BitVec 32 := 9#32
  let c128_i32_60 : BitVec 32 := 128#32
  let v189 : BitVec 32 := Scalar.muli c9_i32 c128_i32_60
  v189
def k1_mult11 : BitVec 32 :=
  let c10_i32 : BitVec 32 := 10#32
  let c128_i32_67 : BitVec 32 := 128#32
  let v210 : BitVec 32 := Scalar.muli c10_i32 c128_i32_67
  v210
def k1_mult12 : BitVec 32 :=
  let c11_i32 : BitVec 32 := 11#32
  let c128_i32_74 : BitVec 32 := 128#32
  let v231 : BitVec 32 := Scalar.muli c11_i32 c128_i32_74
  v231
def k1_mult13 : BitVec 32 :=
  let c12_i32 : BitVec 32 := 12#32
  let c128_i32_81 : BitVec 32 := 128#32
  let v252 : BitVec 32 := Scalar.muli c12_i32 c128_i32_81
  v252
def k1_mult14 : BitVec 32 :=
  let c13_i32 : BitVec 32 := 13#32
  let c128_i32_88 : BitVec 32 := 128#32
  let v273 : BitVec 32 := Scalar.muli c13_i32 c128_i32_88
  v273
def k1_mult15 : BitVec 32 :=
  let c14_i32 : BitVec 32 := 14#32
  let c128_i32_95 : BitVec 32 := 128#32
  let v294 : BitVec 32 := Scalar.muli c14_i32 c128_i32_95
  v294
def k1_mult16 : BitVec 32 :=
  let c15_i32 : BitVec 32 := 15#32
  let c128_i32_102 : BitVec 32 := 128#32
  let v315 : BitVec 32 := Scalar.muli c15_i32 c128_i32_102
  v315
def k1_mult17 : BitVec 32 :=
  let c16_i32 : BitVec 32 := 16#32
  let c128_i32_109 : BitVec 32 := 128#32
  let v336 : BitVec 32 := Scalar.muli c16_i32 c128_i32_109
  v336
def k1_mult18 : BitVec 32 :=
  let c17_i32 : BitVec 32 := 17#32
  let c128_i32_116 : BitVec 32 := 128#32
  let v357 : BitVec 32 := Scalar.muli c17_i32 c128_i32_116
  v357
def k1_mult19 : BitVec 32 :=
  let c18_i32 : BitVec 32 := 18#32
  let c128_i32_123 : BitVec 32 := 128#32
  let v378 : BitVec 32 := Scalar.muli c18_i32 c128_i32_123
  v378
def k1_mult20 : BitVec 32 :=
  let c19_i32 : BitVec 32 := 19#32
  let c128_i32_130 : BitVec 32 := 128#32
  let v399 : BitVec 32 := Scalar.muli c19_i32 c128_i32_130
  v399
def k1_mult21 : BitVec 32 :=
  let c20_i32 : BitVec 32 := 20#32
  let c128_i32_137 : BitVec 32 := 128#32
  let v420 : BitVec 32 := Scalar.muli c20_i32 c128_i32_137
  v420
def k1_mult22 : BitVec 32 :=
  let c21_i32 : BitVec 32 := 21#32
  let c128_i32_144 : BitVec 32 := 128#32
  let v441 : BitVec 32 := Scalar.muli c21_i32 c128_i32_144
  v441
def k1_mult23 : BitVec 32 :=
  let c22_i32 : BitVec 32 := 22#32
  let c128_i32_151 : BitVec 32 := 128#32
  let v462 : BitVec 32 := Scalar.muli c22_i32 c128_i32_151
  v462
def k1_mult24 : BitVec 32 :=
  let c23_i32 : BitVec 32 := 23#32
  let c128_i32_158 : BitVec 32 := 128#32
  let v483 : BitVec 32 := Scalar.muli c23_i32 c128_i32_158
  v483
def k1_mult25 : BitVec 32 :=
  let c24_i32 : BitVec 32 := 24#32
  let c128_i32_165 : BitVec 32 := 128#32
  let v504 : BitVec 32 := Scalar.muli c24_i32 c128_i32_165
  v504
def k1_mult26 : BitVec 32 :=
  let c25_i32 : BitVec 32 := 25#32
  let c128_i32_172 : BitVec 32 := 128#32
  let v525 : BitVec 32 := Scalar.muli c25_i32 c128_i32_172
  v525
def k1_mult27 : BitVec 32 :=
  let c26_i32 : BitVec 32 := 26#32
  let c128_i32_179 : BitVec 32 := 128#32
  let v546 : BitVec 32 := Scalar.muli c26_i32 c128_i32_179
  v546
def k1_mult28 : BitVec 32 :=
  let c27_i32 : BitVec 32 := 27#32
  let c128_i32_186 : BitVec 32 := 128#32
  let v567 : BitVec 32 := Scalar.muli c27_i32 c128_i32_186
  v567
def k1_mult29 : BitVec 32 :=
  let c28_i32 : BitVec 32 := 28#32
  let c128_i32_193 : BitVec 32 := 128#32
  let v588 : BitVec 32 := Scalar.muli c28_i32 c128_i32_193
  v588
def k1_mult30 : BitVec 32 :=
  let c29_i32 : BitVec 32 := 29#32
  let c128_i32_200 : BitVec 32 := 128#32
  let v609 : BitVec 32 := Scalar.muli c29_i32 c128_i32_200
  v609
def k1_mult31 : BitVec 32 :=
  let c30_i32 : BitVec 32 := 30#32
  let c128_i32_207 : BitVec 32 := 128#32
  let v630 : BitVec 32 := Scalar.muli c30_i32 c128_i32_207
  v630
def k1_mult32 : BitVec 32 :=
  let c31_i32 : BitVec 32 := 31#32
  let c128_i32_214 : BitVec 32 := 128#32
  let v651 : BitVec 32 := Scalar.muli c31_i32 c128_i32_214
  v651
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨3, ![16, 4, 2], ![false, false, false]⟩

def k2_cond2 (i : grid2.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S512x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

class Facts₀ : Prop where
  shapeCasts_S4x2048x4096_S8192x4096 : S4x2048x4096.ShapeCasts S8192x4096
  h_S512x128 : 0 < S512x128.numel
  shapeCasts_S512x128_S512x128 : S512x128.ShapeCasts S512x128
  reduces_S512x128_S512 : S512x128.Reduces [1] S512
  shapeCasts_S512_S512x1 : S512.ShapeCasts S512x1
  broadcasts_S512x1_S512x128 : S512x1.Broadcasts S512x128
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  shapeCasts_S8192x4096_S4x2048x4096 : S8192x4096.ShapeCasts S4x2048x4096
  dot_S512x2048_S1024x2048_S512x1024_1_1_0_0_n_n_wf : DotDims.WF S512x2048 S1024x2048 S512x1024 [1] [1] [0] [0] [] []
  hrank0 : 0 < grid0.rank
  k0_mult1_dvd : 128 ∣ k0_mult1.toNat
  k0_off1_inb : ∀ (r : Fin 32), ∀ a, (k0_off1 (BitVec.ofNat 32 r.val)) a + S512x128.size a ≤ S512x4096.size a
  k0_off1_packedbf16 : ∀ (r : Fin 32), (Rect.unit (s := S512x4096) (k0_off1 (BitVec.ofNat 32 r.val)) S512x128.size (k0_off1_inb r)).PackedRows (EltTy.packing .bf16)
  k0_mult2_dvd : 128 ∣ k0_mult2.toNat
  k0_mult3_dvd : 128 ∣ k0_mult3.toNat
  k0_mult4_dvd : 128 ∣ k0_mult4.toNat
  k0_mult5_dvd : 128 ∣ k0_mult5.toNat
  k0_mult6_dvd : 128 ∣ k0_mult6.toNat
  k0_mult7_dvd : 128 ∣ k0_mult7.toNat
  k0_mult8_dvd : 128 ∣ k0_mult8.toNat
  k0_mult9_dvd : 128 ∣ k0_mult9.toNat
  k0_mult10_dvd : 128 ∣ k0_mult10.toNat
  k0_mult11_dvd : 128 ∣ k0_mult11.toNat
  k0_mult12_dvd : 128 ∣ k0_mult12.toNat
  k0_mult13_dvd : 128 ∣ k0_mult13.toNat
  k0_mult14_dvd : 128 ∣ k0_mult14.toNat
  k0_mult15_dvd : 128 ∣ k0_mult15.toNat
  k0_mult16_dvd : 128 ∣ k0_mult16.toNat
  k0_mult17_dvd : 128 ∣ k0_mult17.toNat
  k0_mult18_dvd : 128 ∣ k0_mult18.toNat
  k0_mult19_dvd : 128 ∣ k0_mult19.toNat
  k0_mult20_dvd : 128 ∣ k0_mult20.toNat
  k0_mult21_dvd : 128 ∣ k0_mult21.toNat
  k0_mult22_dvd : 128 ∣ k0_mult22.toNat
  k0_mult23_dvd : 128 ∣ k0_mult23.toNat
  k0_mult24_dvd : 128 ∣ k0_mult24.toNat
  k0_mult25_dvd : 128 ∣ k0_mult25.toNat
  k0_mult26_dvd : 128 ∣ k0_mult26.toNat
  k0_mult27_dvd : 128 ∣ k0_mult27.toNat
  k0_mult28_dvd : 128 ∣ k0_mult28.toNat
  k0_mult29_dvd : 128 ∣ k0_mult29.toNat
  k0_mult30_dvd : 128 ∣ k0_mult30.toNat
  k0_mult31_dvd : 128 ∣ k0_mult31.toNat
  k0_mult32_dvd : 128 ∣ k0_mult32.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S8192x4096.size a
  hwx0_1 : ∀ i : grid0.Coords, EltTy.bits .bf16 = 32 ∨ (Rect.block (s := S8192x4096) S512x4096.size (cc0_transform_1 i) (hinb0_1 i)).WholeWords (EltTy.packing .bf16)
  hrank1 : 0 < grid1.rank
  k1_mult1_dvd : 128 ∣ k1_mult1.toNat
  k1_off1_inb : ∀ (r : Fin 32), ∀ a, (k1_off1 (BitVec.ofNat 32 r.val)) a + S512x128.size a ≤ S512x4096.size a
  k1_off1_packedbf16 : ∀ (r : Fin 32), (Rect.unit (s := S512x4096) (k1_off1 (BitVec.ofNat 32 r.val)) S512x128.size (k1_off1_inb r)).PackedRows (EltTy.packing .bf16)
  k1_mult2_dvd : 128 ∣ k1_mult2.toNat
  k1_mult3_dvd : 128 ∣ k1_mult3.toNat
  k1_mult4_dvd : 128 ∣ k1_mult4.toNat
  k1_mult5_dvd : 128 ∣ k1_mult5.toNat
  k1_mult6_dvd : 128 ∣ k1_mult6.toNat
  k1_mult7_dvd : 128 ∣ k1_mult7.toNat
  k1_mult8_dvd : 128 ∣ k1_mult8.toNat
  k1_mult9_dvd : 128 ∣ k1_mult9.toNat
  k1_mult10_dvd : 128 ∣ k1_mult10.toNat
  k1_mult11_dvd : 128 ∣ k1_mult11.toNat
  k1_mult12_dvd : 128 ∣ k1_mult12.toNat
  k1_mult13_dvd : 128 ∣ k1_mult13.toNat
  k1_mult14_dvd : 128 ∣ k1_mult14.toNat
  k1_mult15_dvd : 128 ∣ k1_mult15.toNat
  k1_mult16_dvd : 128 ∣ k1_mult16.toNat
  k1_mult17_dvd : 128 ∣ k1_mult17.toNat
  k1_mult18_dvd : 128 ∣ k1_mult18.toNat
  k1_mult19_dvd : 128 ∣ k1_mult19.toNat
  k1_mult20_dvd : 128 ∣ k1_mult20.toNat
  k1_mult21_dvd : 128 ∣ k1_mult21.toNat
  k1_mult22_dvd : 128 ∣ k1_mult22.toNat
  k1_mult23_dvd : 128 ∣ k1_mult23.toNat
  k1_mult24_dvd : 128 ∣ k1_mult24.toNat
  k1_mult25_dvd : 128 ∣ k1_mult25.toNat
  k1_mult26_dvd : 128 ∣ k1_mult26.toNat
  k1_mult27_dvd : 128 ∣ k1_mult27.toNat
  k1_mult28_dvd : 128 ∣ k1_mult28.toNat
  k1_mult29_dvd : 128 ∣ k1_mult29.toNat
  k1_mult30_dvd : 128 ∣ k1_mult30.toNat
  k1_mult31_dvd : 128 ∣ k1_mult31.toNat
  k1_mult32_dvd : 128 ∣ k1_mult32.toNat
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S4096x4096.size a
  hwx1_0 : ∀ i : grid1.Coords, EltTy.bits .f32 = 32 ∨ (Rect.block (s := S4096x4096) S512x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S4096x4096.size a
  hwx1_1 : ∀ i : grid1.Coords, EltTy.bits .bf16 = 32 ∨ (Rect.block (s := S4096x4096) S512x4096.size (cc1_transform_1 i) (hinb1_1 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x2048.size a ≤ S8192x4096.size a
  hwx2_0 : ∀ i : grid2.Coords, EltTy.bits .bf16 = 32 ∨ (Rect.block (s := S8192x4096) S512x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x2048.size a ≤ S4096x4096.size a
  hwx2_1 : ∀ i : grid2.Coords, EltTy.bits .bf16 = 32 ∨ (Rect.block (s := S4096x4096) S1024x2048.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1024.size a ≤ S8192x4096.size a
  hwx2_2 : ∀ i : grid2.Coords, EltTy.bits .f32 = 32 ∨ (Rect.block (s := S8192x4096) S512x1024.size (cc2_transform_2 i) (hinb2_2 i)).WholeWords (EltTy.packing .f32)

variable [Facts₀]

def dot_S512x2048_S1024x2048_S512x1024_1_1_0_0_n_n : DotDims S512x2048 S1024x2048 S512x1024 where
  lhsContracting := [1]
  rhsContracting := [1]
  lhsNonContracting := [0]
  rhsNonContracting := [0]
  lhsBatch := []
  rhsBatch := []
  wf := dot_S512x2048_S1024x2048_S512x1024_1_1_0_0_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S512x4096.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v1) S512x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S1024x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S512x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4x2048x32x128 : Shape := ⟨4, ![4, 2048, 32, 128]⟩
abbrev S4096x32x128 : Shape := ⟨3, ![4096, 32, 128]⟩
abbrev S_ : Shape := ⟨0, ![]⟩
abbrev S4x2048x32 : Shape := ⟨3, ![4, 2048, 32]⟩
abbrev S4096x32 : Shape := ⟨2, ![4096, 32]⟩
abbrev S4x2048x32x1 : Shape := ⟨4, ![4, 2048, 32, 1]⟩
abbrev S4096x32x1 : Shape := ⟨3, ![4096, 32, 1]⟩

abbrev nBuf : Space → Nat
  | .hbm => 47
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4x2048x32x128, .f32⟩
  | .hbm, ⟨3, _⟩ => ⟨S4096x32x128, .f32⟩
  | .hbm, ⟨4, _⟩ => ⟨S4x2048x32x128, .f32⟩
  | .hbm, ⟨5, _⟩ => ⟨S_, .f32⟩
  | .hbm, ⟨6, _⟩ => ⟨S4x2048x32, .f32⟩
  | .hbm, ⟨7, _⟩ => ⟨S_, .f32⟩
  | .hbm, ⟨8, _⟩ => ⟨S4x2048x32, .f32⟩
  | .hbm, ⟨9, _⟩ => ⟨S4x2048x32, .f32⟩
  | .hbm, ⟨10, _⟩ => ⟨S_, .f32⟩
  | .hbm, ⟨11, _⟩ => ⟨S4x2048x32, .f32⟩
  | .hbm, ⟨12, _⟩ => ⟨S4x2048x32, .i1⟩
  | .hbm, ⟨13, _⟩ => ⟨S_, .f32⟩
  | .hbm, ⟨14, _⟩ => ⟨S_, .f32⟩
  | .hbm, ⟨15, _⟩ => ⟨S4x2048x32, .f32⟩
  | .hbm, ⟨16, _⟩ => ⟨S4x2048x32, .f32⟩
  | .hbm, ⟨17, _⟩ => ⟨S4096x32x128, .f32⟩
  | .hbm, ⟨18, _⟩ => ⟨S_, .f32⟩
  | .hbm, ⟨19, _⟩ => ⟨S4096x32, .f32⟩
  | .hbm, ⟨20, _⟩ => ⟨S_, .f32⟩
  | .hbm, ⟨21, _⟩ => ⟨S4096x32, .f32⟩
  | .hbm, ⟨22, _⟩ => ⟨S4096x32, .f32⟩
  | .hbm, ⟨23, _⟩ => ⟨S_, .f32⟩
  | .hbm, ⟨24, _⟩ => ⟨S4096x32, .f32⟩
  | .hbm, ⟨25, _⟩ => ⟨S4096x32, .i1⟩
  | .hbm, ⟨26, _⟩ => ⟨S_, .f32⟩
  | .hbm, ⟨27, _⟩ => ⟨S_, .f32⟩
  | .hbm, ⟨28, _⟩ => ⟨S4096x32, .f32⟩
  | .hbm, ⟨29, _⟩ => ⟨S4096x32, .f32⟩
  | .hbm, ⟨30, _⟩ => ⟨S4x2048x32x1, .f32⟩
  | .hbm, ⟨31, _⟩ => ⟨S4x2048x32x128, .f32⟩
  | .hbm, ⟨32, _⟩ => ⟨S4x2048x32x128, .f32⟩
  | .hbm, ⟨33, _⟩ => ⟨S4x2048x32x128, .f32⟩
  | .hbm, ⟨34, _⟩ => ⟨S4096x32x1, .f32⟩
  | .hbm, ⟨35, _⟩ => ⟨S4096x32x128, .f32⟩
  | .hbm, ⟨36, _⟩ => ⟨S4096x32x128, .f32⟩
  | .hbm, ⟨37, _⟩ => ⟨S4096x32x128, .f32⟩
  | .hbm, ⟨38, _⟩ => ⟨S4x2048x32x1, .f32⟩
  | .hbm, ⟨39, _⟩ => ⟨S4x2048x32x128, .f32⟩
  | .hbm, ⟨40, _⟩ => ⟨S4x2048x32x128, .f32⟩
  | .hbm, ⟨41, _⟩ => ⟨S4x2048x4096, .f32⟩
  | .hbm, ⟨42, _⟩ => ⟨S4096x32x1, .f32⟩
  | .hbm, ⟨43, _⟩ => ⟨S4096x32x128, .f32⟩
  | .hbm, ⟨44, _⟩ => ⟨S4096x32x128, .f32⟩
  | .hbm, ⟨45, _⟩ => ⟨S4096x4096, .f32⟩
  | .hbm, ⟨46, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_call0_v0 : Ref sig .tc := ⟨.hbm, 14, rfl⟩
abbrev main_call0_v1 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_cst_4 : Ref sig .tc := ⟨.hbm, 20, rfl⟩
abbrev main_v11 : Ref sig .tc := ⟨.hbm, 21, rfl⟩
abbrev main_v12 : Ref sig .tc := ⟨.hbm, 22, rfl⟩
abbrev main_cst_5 : Ref sig .tc := ⟨.hbm, 23, rfl⟩
abbrev main_v13 : Ref sig .tc := ⟨.hbm, 24, rfl⟩
abbrev main_v14 : Ref sig .tc := ⟨.hbm, 25, rfl⟩
abbrev main_cst_6 : Ref sig .tc := ⟨.hbm, 26, rfl⟩
abbrev main_call1_v0 : Ref sig .tc := ⟨.hbm, 27, rfl⟩
abbrev main_call1_v1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]

class Facts₀ : Prop where
  shapeCasts_S4x2048x4096_S4x2048x32x128 : S4x2048x4096.ShapeCasts S4x2048x32x128
  shapeCasts_S4096x4096_S4096x32x128 : S4096x4096.ShapeCasts S4096x32x128
  reducesTo_S4x2048x32x128_S4x2048x32_d3 : S4x2048x32x128.ReducesTo [3] S4x2048x32
  h_S_ : 0 < S_.numel
  bcast_S_S4x2048x32 : S_.BroadcastsInDim S4x2048x32 (![] : Fin 0 → Fin S4x2048x32.rank)
  reducesTo_S4096x32x128_S4096x32_d2 : S4096x32x128.ReducesTo [2] S4096x32
  bcast_S_S4096x32 : S_.BroadcastsInDim S4096x32 (![] : Fin 0 → Fin S4096x32.rank)
  bcast_S4x2048x32_S4x2048x32x1_0_1_2 : S4x2048x32.BroadcastsInDim S4x2048x32x1 (![0, 1, 2] : Fin 3 → Fin S4x2048x32x1.rank)
  bcast_S4x2048x32x1_S4x2048x32x128_0_1_2_3 : S4x2048x32x1.BroadcastsInDim S4x2048x32x128 (![0, 1, 2, 3] : Fin 4 → Fin S4x2048x32x128.rank)
  bcast_S4096x32_S4096x32x1_0_1 : S4096x32.BroadcastsInDim S4096x32x1 (![0, 1] : Fin 2 → Fin S4096x32x1.rank)
  bcast_S4096x32x1_S4096x32x128_0_1_2 : S4096x32x1.BroadcastsInDim S4096x32x128 (![0, 1, 2] : Fin 3 → Fin S4096x32x128.rank)
  shapeCasts_S4x2048x32x128_S4x2048x4096 : S4x2048x32x128.ShapeCasts S4x2048x4096
  shapeCasts_S4096x32x128_S4096x4096 : S4096x32x128.ShapeCasts S4096x4096
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.K.Quant0.lean ====
/-
  The frame half of the first quantising kernel: what the kernel body does to its two staging buffers at any grid
  point, generic in the float instance. The body is 32 slices; each loads a block of 512 rows by 128 columns of the
  input buffer, computes, loads the same block of the output buffer (the value is not used) and stores the result
  there. The body is run once on symbolic whole staging buffers; the pieces the output buffer ends with are found
  by that run, they tile the buffer, and the buffer's contents afterwards are those pieces read back.
-/
import proofs.«161446_j85761906967213_2_alg».proof.Proof.Gen.Kernel.Launch
import proofs.«161446_j85761906967213_2_alg».proof.Proof.Gen.Kernel.Skeleton
import proofs.«161446_j85761906967213_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the elaborator's structural look recurses once per coordinate
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The kernel body on any whole staging memrefs -/

/-- One staging buffer of the output window, through which its contents are stated (the choice does not matter:
    the pieces cover the buffer). -/
abbrev VO0_1 : View sig .tc .vmem S512x4096 .bf16 := (Memref.whole cc0_stg1_0 : Memref sig .tc .vmem S512x4096 .bf16).view
/-- Each window's current staging memref at point `t`, spelled as the pipeline passes it, and its wholeness. -/
abbrev ms0_0 (t : Fin cfg0.N) : Memref sig .tc .vmem S512x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x4096 .bf16 := win0_1.stage (cfg0.slots t 1)
abbrev hs0_1 (t : Fin cfg0.N) : (ms0_1 t).IsWhole := hstage0_1 ((cfg0.slots t 1).cast nbuf0_1)

-- (the run's proof term is large)
set_option maxHeartbeats 8000000 in
/-- What the body's stores leave in the output's staging memref, as pieces (last first), WITH the proof that on whole
    staging memrefs, the input's at its contents and the output's at anything, the body runs to the continuation
    holding the input's as it was and the output's buffer with those pieces written. The pieces are the witness the
    run finds. -/
noncomputable def kernelRun0 (c : Dev nD) (i : grid0.Coords) (arg1 : Memref sig .tc .vmem S512x4096 .f32) (harg1 : arg1.IsWhole) (arg2 : Memref sig .tc .vmem S512x4096 .bf16) (harg2 : arg2.IsWhole) (x0 : Vec F S512x4096 .f32) :
    { L1 : List (View.Piece (Elt F) S512x4096 .bf16) // ∀ (E : Set ℕ) (K : PUnit → sProp 𝕄),
        iprop(owns (c : Thread nD τ) arg1 fullShare x0 ∗ (∃ d, owns (c : Thread nD τ) arg2 fullShare d)
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc0__quant_dequant_kernel i arg1 harg1 arg2 harg2) K } := by
  refine ⟨?_, fun E K => ?run⟩
  case run =>
    simp only [cc0__quant_dequant_kernel_eq_skeleton]; unfold cc0__quant_dequant_kernel_skel
    unfold owns
    iintro ⟨⟨%f0, %hf0, H0⟩, ⟨%d1, %f1, -, H1⟩, Hk⟩
    obtain rfl := harg1.eq_unread hf0
    sl_exec
    sl_step
    iapply Hk
    isplitl [H0]
    · iexists _; isplitr; · ipureintro; exact harg1.read_unread _
      iexact H0
    iexists _; iexact H1

/-! ## The windows' blocks, at the buffers' contents when the region is entered -/

-- the TensorCore's buffer contents when the region is entered: a parameter, which the run instantiates
variable (V : (c : Dev nD) → (b : Ref sig .tc) → Buf (Elt F) ((c : Thread nD τ).loc b))

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for ANY proof data whose array is
    `V`'s (`hA`) and whose body leaves the block in place (`hafter`): the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output window's buffer -/

/-- The run's pieces for the output tile its block (32 stores of 512 by 128, checked by evaluation), so they cover it. -/
theorem cover0_1 (c : Dev nD) (i : grid0.Coords) (arg1 : Memref sig .tc .vmem S512x4096 .f32) (harg1 : arg1.IsWhole) (arg2 : Memref sig .tc .vmem S512x4096 .bf16) (harg2 : arg2.IsWhole)
    (x0 : Vec F S512x4096 .f32) (y : S512x4096.Idx) :
    ∃ pc ∈ (kernelRun0 c i arg1 harg1 arg2 harg2 x0).1, y ∈ pc.1.set :=
  View.cover_of_tiledL (kernelRun0 c i arg1 harg1 arg2 harg2 x0).1 S512x128.size (by sl_kernel_rfl) y

/-- What the body leaves in the output's staging buffer: its pieces read back over junk. -/
def out0_1 (c : Dev nD) (i : grid0.Coords) (arg1 : Memref sig .tc .vmem S512x4096 .f32) (harg1 : arg1.IsWhole) (arg2 : Memref sig .tc .vmem S512x4096 .bf16) (harg2 : arg2.IsWhole)
    (x0 : Vec F S512x4096 .f32) : Vec F S512x4096 .bf16 :=
  VO0_1.read (Elt F) (VO0_1.writes (Elt F) VO0_1.junk (kernelRun0 c i arg1 harg1 arg2 harg2 x0).1)

/-! ## The pipeline's proof data -/

/-- The proof data of this pipeline on core `c`: the arrays as the region finds them (`V`); after the body at point
    `t` the input's buffer at its block and the output's at `out0_1` of the input block; the invariant the constant
    one (the scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 c (grid0.coords t) (ms0_0 t) (hs0_0 t) (ms0_1 t) (hs0_1 t) (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) :
    (dat0 V c).after 1 t = out0_1 c (grid0.coords t) (ms0_0 t) (hs0_0 t) (ms0_1 t) (hs0_1 t) (iblk0 V c 0 t) := by dsimp only [dat0]

/-- The input's current staging buffer holds its block at every point. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t))

set_option maxHeartbeats 4000000 in
/-- The body at any point: the input's memref holds its block, so the run applies; the invariant and the core's
    `owes` pass through unread; the output's buffer, handed back with the run's pieces written, holds those pieces
    read back because they cover it. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  unfold out0_1
  iintro ⟨HΦ, Ho, ⟨%d0, H0⟩, ⟨%d1, H1⟩⟩
  iapply ((kernelRun0 c (grid0.coords t) _ _ _ _ (iblk0 V c 0 t)).2 Set.univ _)
  isplitl [H0]; · iexact H0
  isplitl [H1]; · iexists _; iexact H1
  iintro ⟨H0, ⟨%e1, H1⟩⟩
  isplitl [HΦ]; · iexact HΦ
  isplitl [Ho]; · iexact Ho
  isplitl [H0]; · iexact H0
  unfold owns; iexists _; isplitr
  swap; · iexact H1
  ipureintro; exact View.read_writes_of_cover _ _ _ _ _ (cover0_1 c _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Quant1.lean ====
/-
  The frame half of the second quantising kernel: what the kernel body does to its two staging buffers at any grid
  point, generic in the float instance. The body is 32 slices; each loads a block of 512 rows by 128 columns of the
  input buffer, computes, loads the same block of the output buffer (the value is not used) and stores the result
  there. The body is run once on symbolic whole staging buffers; the pieces the output buffer ends with are found
  by that run, they tile the buffer, and the buffer's contents afterwards are those pieces read back.
-/
import proofs.«161446_j85761906967213_2_alg».proof.Proof.Gen.Kernel.Launch
import proofs.«161446_j85761906967213_2_alg».proof.Proof.Gen.Kernel.Skeleton
import proofs.«161446_j85761906967213_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the elaborator's structural look recurses once per coordinate
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The kernel body on any whole staging memrefs -/

/-- One staging buffer of the output window, through which its contents are stated (the choice does not matter:
    the pieces cover the buffer). -/
abbrev VO1_1 : View sig .tc .vmem S512x4096 .bf16 := (Memref.whole cc1_stg1_0 : Memref sig .tc .vmem S512x4096 .bf16).view
/-- Each window's current staging memref at point `t`, spelled as the pipeline passes it, and its wholeness. -/
abbrev ms1_0 (t : Fin cfg1.N) : Memref sig .tc .vmem S512x4096 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x4096 .bf16 := win1_1.stage (cfg1.slots t 1)
abbrev hs1_1 (t : Fin cfg1.N) : (ms1_1 t).IsWhole := hstage1_1 ((cfg1.slots t 1).cast nbuf1_1)

-- (the run's proof term is large)
set_option maxHeartbeats 8000000 in
/-- What the body's stores leave in the output's staging memref, as pieces (last first), WITH the proof that on whole
    staging memrefs, the input's at its contents and the output's at anything, the body runs to the continuation
    holding the input's as it was and the output's buffer with those pieces written. The pieces are the witness the
    run finds. -/
noncomputable def kernelRun1 (c : Dev nD) (i : grid1.Coords) (arg1 : Memref sig .tc .vmem S512x4096 .f32) (harg1 : arg1.IsWhole) (arg2 : Memref sig .tc .vmem S512x4096 .bf16) (harg2 : arg2.IsWhole) (x0 : Vec F S512x4096 .f32) :
    { L1 : List (View.Piece (Elt F) S512x4096 .bf16) // ∀ (E : Set ℕ) (K : PUnit → sProp 𝕄),
        iprop(owns (c : Thread nD τ) arg1 fullShare x0 ∗ (∃ d, owns (c : Thread nD τ) arg2 fullShare d)
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc1__quant_dequant_kernel i arg1 harg1 arg2 harg2) K } := by
  refine ⟨?_, fun E K => ?run⟩
  case run =>
    simp only [cc1__quant_dequant_kernel_eq_skeleton]; unfold cc1__quant_dequant_kernel_skel
    unfold owns
    iintro ⟨⟨%f0, %hf0, H0⟩, ⟨%d1, %f1, -, H1⟩, Hk⟩
    obtain rfl := harg1.eq_unread hf0
    sl_exec
    sl_step
    iapply Hk
    isplitl [H0]
    · iexists _; isplitr; · ipureintro; exact harg1.read_unread _
      iexact H0
    iexists _; iexact H1

/-! ## The windows' blocks, at the buffers' contents when the region is entered -/

-- the TensorCore's buffer contents when the region is entered: a parameter, which the run instantiates
variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point, for ANY proof data whose array is
    `V`'s (`hA`) and whose body leaves the block in place (`hafter`): the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the output window's buffer -/

/-- The run's pieces for the output tile its block (32 stores of 512 by 128, checked by evaluation), so they cover it. -/
theorem cover1_1 (c : Dev nD) (i : grid1.Coords) (arg1 : Memref sig .tc .vmem S512x4096 .f32) (harg1 : arg1.IsWhole) (arg2 : Memref sig .tc .vmem S512x4096 .bf16) (harg2 : arg2.IsWhole)
    (x0 : Vec F S512x4096 .f32) (y : S512x4096.Idx) :
    ∃ pc ∈ (kernelRun1 c i arg1 harg1 arg2 harg2 x0).1, y ∈ pc.1.set :=
  View.cover_of_tiledL (kernelRun1 c i arg1 harg1 arg2 harg2 x0).1 S512x128.size (by sl_kernel_rfl) y

/-- What the body leaves in the output's staging buffer: its pieces read back over junk. -/
def out1_1 (c : Dev nD) (i : grid1.Coords) (arg1 : Memref sig .tc .vmem S512x4096 .f32) (harg1 : arg1.IsWhole) (arg2 : Memref sig .tc .vmem S512x4096 .bf16) (harg2 : arg2.IsWhole)
    (x0 : Vec F S512x4096 .f32) : Vec F S512x4096 .bf16 :=
  VO1_1.read (Elt F) (VO1_1.writes (Elt F) VO1_1.junk (kernelRun1 c i arg1 harg1 arg2 harg2 x0).1)

/-! ## The pipeline's proof data -/

/-- The proof data of this pipeline on core `c`: the arrays as the region finds them (`V`); after the body at point
    `t` the input's buffer at its block and the output's at `out1_1` of the input block; the invariant the constant
    one (the scoped rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 c (grid1.coords t) (ms1_0 t) (hs1_0 t) (ms1_1 t) (hs1_1 t) (iblk1 V c 0 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) :
    (dat1 V c).after 1 t = out1_1 c (grid1.coords t) (ms1_0 t) (hs1_0 t) (ms1_1 t) (hs1_1 t) (iblk1 V c 0 t) := by dsimp only [dat1]

/-- The input's current staging buffer holds its block at every point. -/
theorem before1_0 (c : Dev nD) (t : Fin cfg1.N) (d) : (dat1 V c).before 0 t d = iblk1 V c 0 t :=
  before1_0_of V (dat1 V c) (A_eq1 V c 0) (after1_0 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t))

set_option maxHeartbeats 4000000 in
/-- The body at any point: the input's memref holds its block, so the run applies; the invariant and the core's
    `owes` pass through unread; the output's buffer, handed back with the run's pieces written, holds those pieces
    read back because they cover it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  unfold out1_1
  iintro ⟨HΦ, Ho, ⟨%d0, H0⟩, ⟨%d1, H1⟩⟩
  iapply ((kernelRun1 c (grid1.coords t) _ _ _ _ (iblk1 V c 0 t)).2 Set.univ _)
  isplitl [H0]; · iexact H0
  isplitl [H1]; · iexists _; iexact H1
  iintro ⟨H0, ⟨%e1, H1⟩⟩
  isplitl [HΦ]; · iexact HΦ
  isplitl [Ho]; · iexact Ho
  isplitl [H0]; · iexact H0
  unfold owns; iexists _; isplitr
  swap; · iexact H1
  ipureintro; exact View.read_writes_of_cover _ _ _ _ _ (cover1_1 c _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.MatmulRuns.lean ====
/-
  The matrix-product kernel, point by point.

  The grid is 16 × 4 × 2: for each of the 16 × 4 output blocks of 512 × 1024 entries the two halves of the
  contracted axis are visited one after the other. At the first half (last coordinate 0) the body clears its
  accumulator, a scratch buffer, and adds the half's product into it; at the second half (last coordinate 1) it
  adds that half's product to what the first left and copies the sum into the output block. The output block is
  not touched at the first half and is written back only after the second.

  This file fixes which of the two cases a grid point is in (decided over the 128 points), where the output
  window is idle, and runs the body once per case on whole buffers: the pieces each run leaves in the scratch
  and in the output block are found by the run itself.
-/
import proofs.«161446_j85761906967213_2_alg».proof.Proof.Gen.Kernel.Launch
import proofs.«161446_j85761906967213_2_alg».proof.Proof.Gen.Kernel.Skeleton
import proofs.«161446_j85761906967213_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Which case a point is in -/

/-- The body's first test: the last grid coordinate is 0. -/
abbrev cond2_0 (i : grid2.Coords) : Prop :=
  (Scalar.cmpi .ne (Scalar.extui (Scalar.cmpi .eq (BitVec.ofNat 32 (i 2).val) 0#32)) 0#32) = 1#1
/-- It holds at the even points. -/
theorem hcond2_0 : ∀ t : Fin cfg2.N, cond2_0 (grid2.coords t) ↔ t.val % 2 = 0 :=
  (by decide +kernel : ∀ t : Fin grid2.N, cond2_0 (grid2.coords t) ↔ t.val % 2 = 0)

/-- The body's second test: the last grid coordinate is 1. -/
abbrev cond2_1 (i : grid2.Coords) : Prop := k2_cond2 i = 1#1
/-- It holds at the odd points. -/
theorem hcond2_1 : ∀ t : Fin cfg2.N, cond2_1 (grid2.coords t) ↔ t.val % 2 = 1 :=
  (by decide +kernel : ∀ t : Fin grid2.N, cond2_1 (grid2.coords t) ↔ t.val % 2 = 1)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
/-- At an even point the output window is idle: the body stores nothing into it, -/
theorem idleAt2_2_A : ∀ t : Fin cfg2.N, cond2_0 (grid2.coords t) → ¬cond2_1 (grid2.coords t) → cfg2.idle 2 (grid2.coords t) = true := by decide +kernel
/-- and its block is not written back there. -/
theorem noFlush2_2_A : ∀ t : Fin cfg2.N, cond2_0 (grid2.coords t) → ¬cond2_1 (grid2.coords t) → (cfg2.win 2).flush t = false := by decide +kernel
/-- At an odd point the output window is live. -/
theorem liveAt2_2_C : ∀ t : Fin cfg2.N, ¬cond2_0 (grid2.coords t) → cond2_1 (grid2.coords t) → cfg2.idle 2 (grid2.coords t) = false := by decide +kernel

/-! ## The buffers the body is called with -/

/-- One staging buffer of the output window, through which its contents are stated. -/
abbrev VO2_2 : View sig .tc .vmem S512x1024 .f32 := (Memref.whole cc2_stg2_0 : Memref sig .tc .vmem S512x1024 .f32).view
abbrev ms2_0 (t : Fin cfg2.N) : Memref sig .tc .vmem S512x2048 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x2048 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x1024 .f32 := win2_2.stage (cfg2.slots t 2)
abbrev hs2_2 (t : Fin cfg2.N) : (ms2_2 t).IsWhole := hstage2_2 ((cfg2.slots t 2).cast nbuf2_2)
/-- The accumulator: a whole scoped buffer of the kernel's own. -/
abbrev scM2_0 : Memref sig .tc .vmem S512x1024 .f32 := Memref.whole cc2_scratch0
abbrev VS2_0 : View sig .tc .vmem S512x1024 .f32 := scM2_0.view

/-- The plain region invariant with the accumulator owned at some contents, the other scoped buffers at anything
    and the generator register at some state. -/
theorem PhiA2_eq (c : Dev nD) :
    (Pipeline.ΦA spec2 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ d, owns (c : Thread nD τ) scM2_0 fullShare d)) ∗ (∃ r, prngReg c r)) := by
  unfold Pipeline.ΦA; rw [scopedRest2_eq]; simp only [scM2_0, owns_whole]; try rfl

/-! ## The body, case by case -/

set_option maxHeartbeats 4000000 in
/-- AT AN EVEN POINT (first test taken, second not). On whole buffers — the two input blocks at x0 and x1, the
    output block at contents handed back untouched, the accumulator at anything — the body runs to the
    continuation with the inputs as they were and the accumulator with its pieces written; the pieces are what the
    run finds. -/
noncomputable def kernelRun2_A (c : Dev nD) (i : grid2.Coords) (arg3 : Memref sig .tc .vmem S512x2048 .bf16) (harg3 : arg3.IsWhole) (arg4 : Memref sig .tc .vmem S1024x2048 .bf16) (harg4 : arg4.IsWhole) (arg5 : Memref sig .tc .vmem S512x1024 .f32) (harg5 : arg5.IsWhole) (arg6 : Memref sig .tc .vmem S512x1024 .f32) (harg6 : arg6.IsWhole) (hc0 : cond2_0 i) (hc1 : ¬cond2_1 i)
    (x0 : Vec F S512x2048 .bf16) (x1 : Vec F S1024x2048 .bf16) :
    Σ' (L2 : List (View.Piece (Elt F) S512x1024 .f32)), { LS0 : List (View.Piece (Elt F) S512x1024 .f32) //
      ∀ (xi2 : Vec F S512x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc2__matmul_kernel i arg3 harg3 arg4 harg4 arg5 harg5 arg6 harg6) K } := by
  refine ⟨[], ?_, fun xi2 E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 4000000 in
/-- AT AN ODD POINT (first test not taken, second taken). The accumulator holds what the point before left, xs0;
    the output block holds anything. The body leaves its pieces in both. -/
noncomputable def kernelRun2_C (c : Dev nD) (i : grid2.Coords) (arg3 : Memref sig .tc .vmem S512x2048 .bf16) (harg3 : arg3.IsWhole) (arg4 : Memref sig .tc .vmem S1024x2048 .bf16) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : cond2_1 i)
    (x0 : Vec F S512x2048 .bf16) (x1 : Vec F S1024x2048 .bf16) (xs0 : Vec F S512x1024 .f32) :
    Σ' (L2 : List (View.Piece (Elt F) S512x1024 .f32)), { LS0 : List (View.Piece (Elt F) S512x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc2__matmul_kernel i arg3 harg3 arg4 harg4 arg5 harg5 arg6 harg6) K } := by
  refine ⟨?_, ?_, fun E K => ?run⟩
  case run =>
    simp only [cc2__matmul_kernel_eq_skeleton]; unfold cc2__matmul_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel.Hand

end
-- ==== Proof.K.Matmul.lean ====
/-
  The matrix-product kernel's region: what its buffers hold point after point, and the body's obligation.

  After an even point the accumulator holds 0 + (the first half's product); after the odd point that follows it
  holds that plus the second half's product, and the output block holds the same sum. What the accumulator holds
  is carried from a point to the next by the region's invariant: before the first point nothing is known of it,
  from then on it holds what the point before left. The output block is idle at even points (handed back as it
  was found) and is written whole at odd points.
-/
import proofs.«161446_j85761906967213_2_alg».proof.Proof.K.MatmulRuns

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## What each case leaves -/

/-- An even point stores nothing into the output block: a placeholder nothing consults. -/
def out2_A_2 (c : Dev nD) (i : grid2.Coords) (arg3 : Memref sig .tc .vmem S512x2048 .bf16) (harg3 : arg3.IsWhole) (arg4 : Memref sig .tc .vmem S1024x2048 .bf16) (harg4 : arg4.IsWhole) (arg5 : Memref sig .tc .vmem S512x1024 .f32) (harg5 : arg5.IsWhole) (arg6 : Memref sig .tc .vmem S512x1024 .f32) (harg6 : arg6.IsWhole) (hc0 : cond2_0 i) (hc1 : ¬cond2_1 i)
    (x0 : Vec F S512x2048 .bf16) (x1 : Vec F S1024x2048 .bf16) : Vec F S512x1024 .f32 :=
  VO2_2.read (Elt F) (VO2_2.writes (Elt F) VO2_2.junk (kernelRun2_A c i arg3 harg3 arg4 harg4 arg5 harg5 arg6 harg6 hc0 hc1 x0 x1).1)

/-- An even point's stores into the accumulator cover it. -/
theorem scover2_A_0 (c : Dev nD) (i : grid2.Coords) (arg3 : Memref sig .tc .vmem S512x2048 .bf16) (harg3 : arg3.IsWhole) (arg4 : Memref sig .tc .vmem S1024x2048 .bf16) (harg4 : arg4.IsWhole) (arg5 : Memref sig .tc .vmem S512x1024 .f32) (harg5 : arg5.IsWhole) (arg6 : Memref sig .tc .vmem S512x1024 .f32) (harg6 : arg6.IsWhole) (hc0 : cond2_0 i) (hc1 : ¬cond2_1 i)
    (x0 : Vec F S512x2048 .bf16) (x1 : Vec F S1024x2048 .bf16) (y : S512x1024.Idx) :
    ∃ pc ∈ (kernelRun2_A c i arg3 harg3 arg4 harg4 arg5 harg5 arg6 harg6 hc0 hc1 x0 x1).2.1, y ∈ pc.1.set :=
  View.cover_of_tiledL (kernelRun2_A c i arg3 harg3 arg4 harg4 arg5 harg5 arg6 harg6 hc0 hc1 x0 x1).2.1 S512x1024.size (by sl_kernel_rfl) y

/-- What an even point leaves in the accumulator. -/
def sout2_A_0 (c : Dev nD) (i : grid2.Coords) (arg3 : Memref sig .tc .vmem S512x2048 .bf16) (harg3 : arg3.IsWhole) (arg4 : Memref sig .tc .vmem S1024x2048 .bf16) (harg4 : arg4.IsWhole) (arg5 : Memref sig .tc .vmem S512x1024 .f32) (harg5 : arg5.IsWhole) (arg6 : Memref sig .tc .vmem S512x1024 .f32) (harg6 : arg6.IsWhole) (hc0 : cond2_0 i) (hc1 : ¬cond2_1 i)
    (x0 : Vec F S512x2048 .bf16) (x1 : Vec F S1024x2048 .bf16) : Vec F S512x1024 .f32 :=
  VS2_0.read (Elt F) (VS2_0.writes (Elt F) VS2_0.junk (kernelRun2_A c i arg3 harg3 arg4 harg4 arg5 harg5 arg6 harg6 hc0 hc1 x0 x1).2.1)

/-- An odd point's store into the output block covers it. -/
theorem cover2_C_2 (c : Dev nD) (i : grid2.Coords) (arg3 : Memref sig .tc .vmem S512x2048 .bf16) (harg3 : arg3.IsWhole) (arg4 : Memref sig .tc .vmem S1024x2048 .bf16) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : cond2_1 i)
    (x0 : Vec F S512x2048 .bf16) (x1 : Vec F S1024x2048 .bf16) (xs0 : Vec F S512x1024 .f32) (y : S512x1024.Idx) :
    ∃ pc ∈ (kernelRun2_C c i arg3 harg3 arg4 harg4 arg5 harg5 arg6 harg6 hc0 hc1 x0 x1 xs0).1, y ∈ pc.1.set :=
  View.cover_of_tiledL (kernelRun2_C c i arg3 harg3 arg4 harg4 arg5 harg5 arg6 harg6 hc0 hc1 x0 x1 xs0).1 S512x1024.size (by sl_kernel_rfl) y

/-- What an odd point leaves in the output block. -/
def out2_C_2 (c : Dev nD) (i : grid2.Coords) (arg3 : Memref sig .tc .vmem S512x2048 .bf16) (harg3 : arg3.IsWhole) (arg4 : Memref sig .tc .vmem S1024x2048 .bf16) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : cond2_1 i)
    (x0 : Vec F S512x2048 .bf16) (x1 : Vec F S1024x2048 .bf16) (xs0 : Vec F S512x1024 .f32) : Vec F S512x1024 .f32 :=
  VO2_2.read (Elt F) (VO2_2.writes (Elt F) VO2_2.junk (kernelRun2_C c i arg3 harg3 arg4 harg4 arg5 harg5 arg6 harg6 hc0 hc1 x0 x1 xs0).1)

/-- An odd point's store into the accumulator covers it. -/
theorem scover2_C_0 (c : Dev nD) (i : grid2.Coords) (arg3 : Memref sig .tc .vmem S512x2048 .bf16) (harg3 : arg3.IsWhole) (arg4 : Memref sig .tc .vmem S1024x2048 .bf16) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : cond2_1 i)
    (x0 : Vec F S512x2048 .bf16) (x1 : Vec F S1024x2048 .bf16) (xs0 : Vec F S512x1024 .f32) (y : S512x1024.Idx) :
    ∃ pc ∈ (kernelRun2_C c i arg3 harg3 arg4 harg4 arg5 harg5 arg6 harg6 hc0 hc1 x0 x1 xs0).2.1, y ∈ pc.1.set :=
  View.cover_of_tiledL (kernelRun2_C c i arg3 harg3 arg4 harg4 arg5 harg5 arg6 harg6 hc0 hc1 x0 x1 xs0).2.1 S512x1024.size (by sl_kernel_rfl) y

/-- What an odd point leaves in the accumulator. -/
def sout2_C_0 (c : Dev nD) (i : grid2.Coords) (arg3 : Memref sig .tc .vmem S512x2048 .bf16) (harg3 : arg3.IsWhole) (arg4 : Memref sig .tc .vmem S1024x2048 .bf16) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : cond2_1 i)
    (x0 : Vec F S512x2048 .bf16) (x1 : Vec F S1024x2048 .bf16) (xs0 : Vec F S512x1024 .f32) : Vec F S512x1024 .f32 :=
  VS2_0.read (Elt F) (VS2_0.writes (Elt F) VS2_0.junk (kernelRun2_C c i arg3 harg3 arg4 harg4 arg5 harg5 arg6 harg6 hc0 hc1 x0 x1 xs0).2.1)

/-! ## What the output block and the accumulator hold after each point -/

/-- The pair (output block, accumulator) after the body at position n: an even point's contents from its two input
    blocks alone, an odd point's from its input blocks and what the point before left in the accumulator. -/
def outsAt2 (c : Dev nD) : (n : ℕ) → n < cfg2.N → Vec F S512x1024 .f32 × Vec F S512x1024 .f32
  | 0, hn => (out2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩))
  | n + 1, hn =>
    if h0 : (n + 1) % 2 = 0 then
      if h1 : (n + 1) % 2 = 1 then
        False.elim (by omega)
      else
        (out2_A_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩))
    else
      if h1 : (n + 1) % 2 = 1 then
        (out2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2)
      else
        False.elim (by omega)

/-- At an even point. -/
theorem outsAt2_A (c : Dev nD) (t : Fin cfg2.N) (h0 : t.val % 2 = 0) (h1 : ¬t.val % 2 = 1) :
    outsAt2 V c t.val t.isLt = (out2_A_2 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t), sout2_A_0 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact (dif_pos h0).trans ((dif_neg h1).trans rfl)

/-- At an odd point: over what the point before left. -/
theorem outsAt2_C (c : Dev nD) (t : Fin cfg2.N) (h0 : ¬t.val % 2 = 0) (h1 : t.val % 2 = 1) :
    outsAt2 V c t.val t.isLt = (out2_C_2 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- The scoped buffers of the other two kernels at anything, the accumulator as S says, the generator register at
    some state. -/
def rest2 (c : Dev nD) (S : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ S) ∗ (∃ r, prngReg c r))

theorem PhiA2_rest (c : Dev nD) : (Pipeline.ΦA spec2 c : sProp 𝕄) = rest2 c iprop(∃ d, owns (c : Thread nD τ) scM2_0 fullShare d) := by
  rw [PhiA2_eq]; rfl

theorem rest2_mono (c : Dev nD) (S S' : sProp 𝕄) (h : S ⊢ S') : rest2 c S ⊢ rest2 c S' := by
  unfold rest2
  iintro ⟨⟨H1, H2, H3, H4, H5, H6, H7, H8, HS⟩, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iapply h; iexact HS
  iexact Hg

/-- Before position n: nothing known of the accumulator before the first point, afterwards what the point before
    left in it. -/
def PhiS2 (c : Dev nD) : (n : ℕ) → n ≤ cfg2.N → sProp 𝕄
  | 0, _ => Pipeline.ΦA spec2 c
  | n + 1, hn => rest2 c (owns (c : Thread nD τ) scM2_0 fullShare ((outsAt2 V c n hn).2))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = rest2 c (owns (c : Thread nD τ) scM2_0 fullShare ((outsAt2 V c n hn).2)) := rfl
theorem PhiS2_pos (c : Dev nD) (n : ℕ) (h : n ≤ cfg2.N) (hz : n ≠ 0) :
    PhiS2 V c n h = rest2 c (owns (c : Thread nD τ) scM2_0 fullShare ((outsAt2 V c (n - 1) (by omega)).2)) := by
  cases n with
  | zero => exact absurd rfl hz
  | succ n => rfl

/-! ## The proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: the input buffers hold their blocks; the point's parity says which case it is in; the
    invariant hands the body the accumulator at what the point before left (at anything at the first point) and takes
    it back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 128 := lt_of_lt_of_eq t.isLt (show cfg2.N = 128 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  by_cases h0 : t.val % 2 = 0
  · have h1 : ¬t.val % 2 = 1 := by omega
    rw [Dat.leavesExact_idle (dat2 V c) 2 t (idleAt2_2_A t ((hcond2_0 t).mpr h0) (fun h => h1 ((hcond2_1 t).mp h))) (noFlush2_2_A t ((hcond2_0 t).mpr h0) (fun h => h1 ((hcond2_1 t).mp h)))]
    rw [outsAt2_A V c t h0 h1]
    unfold sout2_A_0; (try dsimp only)
    have hΦ : (dat2 V c).Φ t.castSucc ⊢ rest2 c iprop(∃ d, owns (c : Thread nD τ) scM2_0 fullShare d) := by
      rw [PhiS2_castSucc V c t]
      by_cases hz : t.val = 0
      · rw [PhiS2_zero V c _ _ hz, PhiA2_rest]; try exact Idealize.SL.BI.Entails.refl _
      · rw [PhiS2_pos V c _ _ hz]
        exact rest2_mono c _ _ (by iintro H; iexists _; iexact H)
    iintro ⟨HΦ, Ho, ⟨%d0, H0⟩, ⟨%d1, H1⟩, ⟨%d2, H2⟩⟩
    ihave HΦ' := hΦ $$ HΦ
    unfold rest2
    icases HΦ' with ⟨⟨A1, A2, A3, A4, A5, A6, A7, A8, HS0⟩, Hg⟩
    iapply ((kernelRun2_A c (grid2.coords t) _ _ _ _ _ _ _ _ ((hcond2_0 t).mpr h0) (fun h => h1 ((hcond2_1 t).mp h)) (iblk2 V c 0 t) (iblk2 V c 1 t)).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [A1 A2 A3 A4 A5 A6 A7 A8 HS0 Hg]
    · isplitr [Hg]
      · isplitl [A1]; · iexact A1
        isplitl [A2]; · iexact A2
        isplitl [A3]; · iexact A3
        isplitl [A4]; · iexact A4
        isplitl [A5]; · iexact A5
        isplitl [A6]; · iexact A6
        isplitl [A7]; · iexact A7
        isplitl [A8]; · iexact A8
        unfold owns; iexists _; isplitr
        swap; · iexact HS0
        ipureintro; exact View.read_writes_of_cover _ _ _ _ _ (scover2_A_0 c _ _ _ _ _ _ _ _ _ _ _ _ _)
      iexact Hg
    isplitl [Ho]; · iexact Ho
    isplitl [H0]; · iexact H0
    isplitl [H1]; · iexact H1
    iexists _; iexact H2
  · have h1 : t.val % 2 = 1 := by omega
    have hz : t.val ≠ 0 := by omega
    rw [show (dat2 V c).leavesExact 2 t = owns (c : Thread nD τ) (ms2_2 t) fullShare ((dat2 V c).after 2 t) from by
      unfold Dat.leavesExact; rw [liveAt2_2_C t (fun h => h0 ((hcond2_0 t).mp h)) ((hcond2_1 t).mpr h1)], after2_2]
    rw [outsAt2_C V c t h0 h1]
    unfold out2_C_2 sout2_C_0; (try dsimp only)
    rw [PhiS2_castSucc V c t, PhiS2_pos V c _ _ hz]
    unfold rest2
    iintro ⟨⟨⟨A1, A2, A3, A4, A5, A6, A7, A8, HS0⟩, Hg⟩, Ho, ⟨%d0, H0⟩, ⟨%d1, H1⟩, ⟨%d2, H2⟩⟩
    iapply ((kernelRun2_C c (grid2.coords t) _ _ _ _ _ _ _ _ (fun h => h0 ((hcond2_0 t).mp h)) ((hcond2_1 t).mpr h1) (iblk2 V c 0 t) (iblk2 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [A1 A2 A3 A4 A5 A6 A7 A8 HS0 Hg]
    · isplitr [Hg]
      · isplitl [A1]; · iexact A1
        isplitl [A2]; · iexact A2
        isplitl [A3]; · iexact A3
        isplitl [A4]; · iexact A4
        isplitl [A5]; · iexact A5
        isplitl [A6]; · iexact A6
        isplitl [A7]; · iexact A7
        isplitl [A8]; · iexact A8
        unfold owns; iexists _; isplitr
        swap; · iexact HS0
        ipureintro; exact View.read_writes_of_cover _ _ _ _ _ (scover2_C_0 c _ _ _ _ _ _ _ _ _ _ _ _ _ _)
      iexact Hg
    isplitl [Ho]; · iexact Ho
    isplitl [H0]; · iexact H0
    isplitl [H1]; · iexact H1
    unfold owns; iexists _; isplitr
    swap; · iexact H2
    ipureintro; exact View.read_writes_of_cover _ _ _ _ _ (cover2_C_2 c _ _ _ _ _ _ _ _ _ _ _ _ _ _)

/-- The body's obligation at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the plain one back: what is known of the accumulator is forgotten. -/
theorem hout2 (c : Dev nD) : (dat2 V c).Φ (Fin.last cfg2.N) ⊢ Pipeline.ΦA spec2 c := by
  have ht : (Fin.last cfg2.N).val ≠ 0 := by rw [Fin.val_last]; have : cfg2.N = 128 := N_2; omega
  rw [show (dat2 V c).Φ (Fin.last cfg2.N) = PhiS2 V c (Fin.last cfg2.N).val (Nat.le_of_lt_succ (Fin.last cfg2.N).isLt) from rfl,
    PhiS2_pos V c _ _ ht, PhiA2_rest]
  exact rest2_mono c _ _ (by iintro H; iexists _; iexact H)

end Cert.Kernel.Hand

end
-- ==== Proof.LibRegionTrack.lean ====
/-
  One kernel launch among several, whose body carries state from grid point to grid point.

  A program that launches several pipelined kernels one after another is run segment by segment: between two
  segments a core holds every unscoped buffer at a known valuation, beside its generator register (at some state) and
  its dues (none).  For a launch to be one such segment it must say what it is entered from and what it leaves, and
  supply four entailments around its pipeline's region invariant: the windows' arrays are split out of the unscoped
  buffers on entry and put back, at their final contents, on exit; the generator register and the scoped buffers no
  window stages go into the invariant before the first grid point and come back out after the last.

  When the body keeps nothing from one grid point to the next, the invariant is the same at every point: "the kernel's
  scratch buffers at anything, the register at some state".  When the body CARRIES something — an accumulator in a
  scratch buffer, set at a first point and read at later ones — the invariant must name the scratch's contents from
  the second point on, so it is no longer constant.  But all a segment needs of it is the two ends: before the first
  point it is implied by the plain invariant (nothing is yet known of the scratch), and after the last point it implies
  the plain invariant again (what is known of the scratch is forgotten).  This file builds the segment from exactly
  those two facts, for ANY family of pipelines, any pipeline of it without prefetched tables, and any proof data whose
  body owes nothing and records no wait before its first point; the entry and exit valuations are any two that agree off the windows' arrays and have the arrays at
  the proof data's entry and final contents.
-/
import Idealize.ShloMosaic.Lib.Pipeline.Frame
import Idealize.ShloMosaic.Lib.Pipeline.Regions
import Idealize.ShloMosaic.Lib.Pipeline.RegionsLoop

noncomputable section

namespace Idealize.ShloMosaic

open Idealize.SL
open Idealize.SL.BI (sProp bigSep bigSep_sep' bigSep_mono bigSep_congr)
open scoped Idealize.SL.BI
open Idealize.SL.BI.BIBase Idealize.SL.BI.Laws Idealize.SL.Sem Idealize.SL.ProofMode
open Idealize.SL.RA
open TcCoe

variable {nD : Nat} {τ : Topo} {sig : RefSig} {Val : EltTy → Type} {U : Type} [URA U]

local notation "𝕄" => MT nD τ sig Unit Val ℕ U ℕ

namespace Pipeline

open PCS
open Idealize.ShloMosaic.Rounds

variable {Λ₀ : SL.Sem.Labels} {P : Type} [Fintype P]

section RegionTrack

variable (pcs : P → PCfg sig Λ₀ Val) (a : (p : P) → (pcs p).Adm)
  (pdats : (p : P) → (c : Dev nD) → Dat τ Val Unit ℕ U ℕ (pin pcs a p) c)
  (defs₀ : Defs nD τ sig Val Λ₀) (𝒱₀ : Variants)
  (L : GSem nD τ sig → Finset Unit) (lv : GSem nD τ sig → Unit → ℕ)

/-- What rides beside the buffers from segment to segment on core c: the generator register at some state, and the
    core's dues, at nothing. -/
abbrev rideAlong (c : Dev nD) : sProp 𝕄 :=
  iprop((∃ r, prngReg c r) ∗ ∃ W, owes (c.tc : Thread nD τ) (0 : CellTallies nD τ sig Unit) W)

set_option backward.isDefEq.respectTransparency.types false in
/-- THE SEGMENT of a launch whose region invariant is only known at its two ends (hin, hout).  Entered from
    "every unscoped buffer at V c, the register and no dues"; left at the same with V' c. -/
def RegionSeg.ofTrack (p : P) [IsEmpty (Fin (pcs p).pre.K)]
    (hw : WinFacts (pin pcs a p).spec)
    (hpos : ∀ w : Fin (pin pcs a p).W, 0 < ((pin pcs a p).spec w).block.numel)
    (hstage : ∀ (w : Fin (pin pcs a p).W) (s : Fin ((pin pcs a p).spec w).nbuf), (((pin pcs a p).spec w).stage s).IsWhole)
    (harr : ∀ w, ((pin pcs a p).spec w).arr.IsWhole)
    (hbody : ∀ c, BodyObligationLoose (pdats p c) defs₀ 𝒱₀ () Set.univ)
    (howed : ∀ c t, (pdats p c).owed t = 0)
    (hrec : ∀ c, (pdats p c).recorded 0 = Set.univ)
    (hshare : ∀ c w, (pdats p c).share w = fullShare)
    (V V' : Dev nD → Valuation τ sig Val)
    (hA : ∀ c w, (pdats p c).A w = V c (arrRef (pin pcs a p).spec w))
    (hF : ∀ c w, (pdats p c).arrAt w (pin pcs a p).N = V' c (arrRef (pin pcs a p).spec w))
    (hrest : ∀ c (b : Ref sig .tc), b ∉ Finset.univ.image (arrRef (pin pcs a p).spec) → V' c b = V c b)
    (hin : ∀ c, (ΦA (pin pcs a p).spec c : sProp 𝕄) ⊢ (pdats p c).Φ 0)
    (hout : ∀ c, (pdats p c).Φ (Fin.last (pin pcs a p).N) ⊢ (ΦA (pin pcs a p).spec c : sProp 𝕄)) :
    RegionSeg pcs a pdats () defs₀ 𝒱₀ L lv p where
  win := hw.to₀
  block_pos := hpos
  stage_whole := hstage
  K := PEmpty
  osem k := k.elim
  ho := OwnSemFacts.none _
  hbody := hbody
  hwaits := hwaits_of_owed_zero _ _ _ _ L lv p howed
  pre c := iprop(StableHlo.held (c.tc : Thread nD τ) (ucRefs τ sig) (V c) ∗ rideAlong c)
  post c := iprop(StableHlo.held (c.tc : Thread nD τ) (ucRefs τ sig) (V' c) ∗ rideAlong c)
  X c := iprop(∃ r, prngReg c r)
  Y c := iprop(∃ r, prngReg c r)
  Z c := unscopedRest (Ix := Unit) (Name := ℕ) (U := U) (Lvl := ℕ) (pin pcs a p).spec c (fun b => V c b)
  hentry c := by
    rw [ownSems0_none]
    have hsplit := arrays_of_unscopedBufs (p := p) pcs a pdats hw harr c (hshare c) (fun b => V c b) (hA c)
    rw [unscopedBufs_held] at hsplit
    iintro ⟨⟨Hub, Hp, HO⟩, -, -⟩
    ihave H := hsplit $$ Hub
    icases H with ⟨Ha, Hrest⟩
    imodintro
    isplitl [Ha]; · iexact Ha
    isplitr; · unfold prefHeld; rw [Finset.univ_eq_empty, BI.bigSep_empty]; iempintro
    isplitl [HO]
    · unfold Dat.owesAt owesWithin
      rw [howed c 0]
      icases HO with ⟨%W, HO⟩; iexists W; isplitr; · ipureintro; exact fun _ _ => Or.inl (by rw [hrec c]; trivial)
      iexact HO
    isplitl [Hp]; · iexact Hp
    iexact Hrest
  hin c := by
    refine Entails.trans ?_ (hin c)
    unfold ΦA
    iintro ⟨Hp, -, Hr⟩
    isplitl [Hr]; · iexact Hr
    iexact Hp
  hout c := by
    rw [ownSems0_none]
    refine (hout c).trans ?_
    unfold ΦA
    iintro ⟨Hr, Hp⟩
    isplitl [Hp]; · iexact Hp
    isplitr; · iempintro
    iexact Hr
  hexit c := by
    have hjoin := unscopedBufs_of_arrays (p := p) pcs a hw harr c pdats (hshare c)
      (fun b => V c b) (fun b => V' c b) ((pdats p c).arrAt · (pin pcs a p).N) (hF c) (hrest c)
    rw [unscopedBufs_held] at hjoin
    iintro ⟨Ha, HO, HY, Hrest⟩
    imodintro
    isplitl [Ha Hrest]
    · iapply hjoin; isplitl [Ha] <;> iassumption
    isplitl [HY]; · iexact HY
    unfold Dat.owesAt owesWithin
    rw [howed c (Fin.last _)]
    icases HO with ⟨%W, -, HO⟩; iexists W; iexact HO

end RegionTrack

end Pipeline

end Idealize.ShloMosaic

end
-- ==== Proof.K.Run.lean ====
/-
  The whole program, segment by segment.

  The program is: a reshape of the activations to 8192 rows; the quantising kernel on them; the quantising
  kernel on the weights; the matrix-product kernel; a reshape of the product back. Between two segments a core
  holds every unscoped buffer whole at known contents, its generator register at some state, and owes nothing.
  The contents are followed through the program: a host stretch applies its operations; a kernel leaves its
  windows' arrays at what its write-backs leave and every other buffer as it was. At the end every unscoped
  buffer is read against the final contents: the two arguments as launched, the result at the last reshape of
  what the product kernel left.
-/
import proofs.«161446_j85761906967213_2_alg».proof.Proof.K.Quant0
import proofs.«161446_j85761906967213_2_alg».proof.Proof.K.Quant1
import proofs.«161446_j85761906967213_2_alg».proof.Proof.K.Matmul
import proofs.«161446_j85761906967213_2_alg».proof.Proof.LibRegionTrack

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- At launch. -/
abbrev W0 : Dev nD → Valuation τ sig (Elt F) := fun c b => (s₀ m ρ).mem ((c : Dev nD), b)
/-- After the first reshape (the first kernel's entry). -/
abbrev W1 : Dev nD → Valuation τ sig (Elt F) := fun c => StableHlo.after hostOps0 (W0 m ρ c)
abbrev Vin0 : (c : Dev nD) → (b : Ref sig .tc) → Buf (Elt F) ((c : Thread nD τ).loc b) := fun c b => W1 m ρ c b
/-- After the first kernel: its arrays at what its write-backs leave, every other buffer as entered. -/
def W2 (c : Dev nD) : Valuation τ sig (Elt F) :=
  Pipeline.withArrays spec0 c (W1 m ρ c) fun w => (dat0 (Vin0 m ρ) c).arrAt w cfg0.N
theorem W2_arr (c : Dev nD) (w : Fin cfg0.W) :
    W2 m ρ c (Proc.devRef .tc (Pipeline.arrRef spec0 w)) = (dat0 (Vin0 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev Vin1 : (c : Dev nD) → (b : Ref sig .tc) → Buf (Elt F) ((c : Thread nD τ).loc b) := fun c b => W2 m ρ c b
theorem hF0 (c : Dev nD) (w : Fin cfg0.W) : (dat0 (Vin0 m ρ) c).arrAt w cfg0.N = Vin1 m ρ c (Pipeline.arrRef spec0 w) :=
  (W2_arr m ρ c w).symm
theorem hrest0 (c : Dev nD) : ∀ b, b ∉ Finset.univ.image (Pipeline.arrRef spec0) → Vin1 m ρ c b = Vin0 m ρ c b :=
  fun b hb => W2_of_ne m ρ c b fun w e => hb (Finset.mem_image.mpr ⟨w, Finset.mem_univ _, e⟩)

/-- After the second kernel. -/
def W3 (c : Dev nD) : Valuation τ sig (Elt F) :=
  Pipeline.withArrays spec1 c (W2 m ρ c) fun w => (dat1 (Vin1 m ρ) c).arrAt w cfg1.N
theorem W3_arr (c : Dev nD) (w : Fin cfg1.W) :
    W3 m ρ c (Proc.devRef .tc (Pipeline.arrRef spec1 w)) = (dat1 (Vin1 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev Vin2 : (c : Dev nD) → (b : Ref sig .tc) → Buf (Elt F) ((c : Thread nD τ).loc b) := fun c b => W3 m ρ c b
theorem hF1 (c : Dev nD) (w : Fin cfg1.W) : (dat1 (Vin1 m ρ) c).arrAt w cfg1.N = Vin2 m ρ c (Pipeline.arrRef spec1 w) :=
  (W3_arr m ρ c w).symm
theorem hrest1 (c : Dev nD) : ∀ b, b ∉ Finset.univ.image (Pipeline.arrRef spec1) → Vin2 m ρ c b = Vin1 m ρ c b :=
  fun b hb => W3_of_ne m ρ c b fun w e => hb (Finset.mem_image.mpr ⟨w, Finset.mem_univ _, e⟩)

/-- After the product kernel. -/
def W4 (c : Dev nD) : Valuation τ sig (Elt F) :=
  Pipeline.withArrays spec2 c (W3 m ρ c) fun w => (dat2 (Vin2 m ρ) c).arrAt w cfg2.N
theorem W4_arr (c : Dev nD) (w : Fin cfg2.W) :
    W4 m ρ c (Proc.devRef .tc (Pipeline.arrRef spec2 w)) = (dat2 (Vin2 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev Vin3 : (c : Dev nD) → (b : Ref sig .tc) → Buf (Elt F) ((c : Thread nD τ).loc b) := fun c b => W4 m ρ c b
theorem hF2 (c : Dev nD) (w : Fin cfg2.W) : (dat2 (Vin2 m ρ) c).arrAt w cfg2.N = Vin3 m ρ c (Pipeline.arrRef spec2 w) :=
  (W4_arr m ρ c w).symm
theorem hrest2 (c : Dev nD) : ∀ b, b ∉ Finset.univ.image (Pipeline.arrRef spec2) → Vin3 m ρ c b = Vin2 m ρ c b :=
  fun b hb => W4_of_ne m ρ c b fun w e => hb (Finset.mem_image.mpr ⟨w, Finset.mem_univ _, e⟩)

/-- After the last reshape: the end. -/
abbrev W5 : Dev nD → Valuation τ sig (Elt F) := fun c => StableHlo.after hostOps3 (W4 m ρ c)

/-! ## The arguments end as launched -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_forall_not_mem (b := Proc.devRef .tc main_arg0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          first | exact StableHlo.devRef_ne_of_ne (by decide) | (repeat' apply And.intro) <;> exact StableHlo.devRef_ne_of_ne (by decide)))
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          first | exact StableHlo.devRef_ne_of_ne (by decide) | (repeat' apply And.intro) <;> exact StableHlo.devRef_ne_of_ne (by decide)))
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_forall_not_mem (b := Proc.devRef .tc main_arg1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          first | exact StableHlo.devRef_ne_of_ne (by decide) | (repeat' apply And.intro) <;> exact StableHlo.devRef_ne_of_ne (by decide)))
    _ = W3 m ρ c (Proc.devRef .tc main_arg1) := W4_of_ne m ρ c main_arg1 (by decide)
    _ = W2 m ρ c (Proc.devRef .tc main_arg1) := (W3_arr m ρ c 0).trans (((dat1 (Vin1 m ρ) c).arrAt_in 0 rfl _).trans (A_eq1 (Vin1 m ρ) c 0))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          first | exact StableHlo.devRef_ne_of_ne (by decide) | (repeat' apply And.intro) <;> exact StableHlo.devRef_ne_of_ne (by decide)))
    _ = m ((c : Thread nD τ).loc main_arg1) := rfl

/-! ## The proof data family and the segments -/

abbrev adm : (p : Fin 3) → (pcfgs (F := F) p).Adm := fun p => (cfgs p).toPCfg_adm
/-- Every kernel's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (Vin0 m ρ) c
  | ⟨1, _⟩ => fun c => dat1 (Vin1 m ρ) c
  | ⟨2, _⟩ => fun c => dat2 (Vin2 m ρ) c
abbrev 𝒱₀ : Variants := Variants.none
abbrev L : GSem nD τ sig → Finset Unit := fun _ => ∅
abbrev lv : GSem nD τ sig → Unit → ℕ := fun _ _ => 0
/-- What rides beside the buffers through every segment. -/
abbrev R (c : Dev nD) : sProp 𝕄 := Pipeline.rideAlong (U := UR sig nD τ) (Val := Elt F) c

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W5 m ρ c) ∗ ∃ r, prngReg c r)

set_option backward.isDefEq.respectTransparency.types false in
/-- Region 0 as a segment: entered from every unscoped buffer at the contents before it, left at the contents after it. -/
def reg0 : Pipeline.RegionSeg (pcfgs (F := F)) adm (pdats m ρ) () defs₀ 𝒱₀ L lv 0 :=
  Pipeline.RegionSeg.ofTrack (pcfgs (F := F)) adm (pdats m ρ) defs₀ 𝒱₀ L lv 0
    launch0.win launch0.block_pos launch0.stage_whole launch0.arr_whole
    (fun c => (body_obligation0 (Vin0 m ρ) c).loose)
    (fun _ _ => rfl) (fun _ => rfl) (fun c => (pdats m ρ 0 c).share_full fun _ => rfl)
    (W1 m ρ) (W2 m ρ) (fun _ _ => rfl) (hF0 m ρ) (hrest0 m ρ)
    (fun _ => .rfl) (fun _ => .rfl)

set_option backward.isDefEq.respectTransparency.types false in
/-- Region 1 as a segment: entered from every unscoped buffer at the contents before it, left at the contents after it. -/
def reg1 : Pipeline.RegionSeg (pcfgs (F := F)) adm (pdats m ρ) () defs₀ 𝒱₀ L lv 1 :=
  Pipeline.RegionSeg.ofTrack (pcfgs (F := F)) adm (pdats m ρ) defs₀ 𝒱₀ L lv 1
    launch1.win launch1.block_pos launch1.stage_whole launch1.arr_whole
    (fun c => (body_obligation1 (Vin1 m ρ) c).loose)
    (fun _ _ => rfl) (fun _ => rfl) (fun c => (pdats m ρ 1 c).share_full fun _ => rfl)
    (W2 m ρ) (W3 m ρ) (fun _ _ => rfl) (hF1 m ρ) (hrest1 m ρ)
    (fun _ => .rfl) (fun _ => .rfl)

set_option backward.isDefEq.respectTransparency.types false in
/-- Region 2 as a segment: entered from every unscoped buffer at the contents before it, left at the contents after it. -/
def reg2 : Pipeline.RegionSeg (pcfgs (F := F)) adm (pdats m ρ) () defs₀ 𝒱₀ L lv 2 :=
  Pipeline.RegionSeg.ofTrack (pcfgs (F := F)) adm (pdats m ρ) defs₀ 𝒱₀ L lv 2
    launch2.win launch2.block_pos launch2.stage_whole launch2.arr_whole
    (fun c => (body_obligation2 (Vin2 m ρ) c).loose)
    (fun _ _ => rfl) (fun _ => rfl) (fun c => (pdats m ρ 2 c).share_full fun _ => rfl)
    (W3 m ρ) (W4 m ρ) (fun _ _ => rfl) (hF2 m ρ) (hrest2 m ρ)
    (fun c => hin2 (Vin2 m ρ) c) (fun c => hout2 (Vin2 m ρ) c)

/-- The program's five segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .host (hseg hostOps3 hostOps3_sub hostOps3_fresh (W4 m ρ)) ]
theorem main_run (c : Dev nD) : main (F := F) c = Pipeline.Seg.run (segs m ρ) := (main_chain c).trans (by chain_rfl)

/-! ## The run -/

set_option backward.isDefEq.respectTransparency.types false in
/-- From any memory with zero counters every weakly fair execution of the program terminates, nothing faulting,
    and every final state has every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ iprop((∃ r, prngReg c r) ∗ ∃ W, owes (c : Thread nD τ) (0 : CellTallies nD τ sig Unit) W))
        ⊢ (iprop(Tₙ m ρ c ∗ ∃ W, owes (c : Thread nD τ) (0 : CellTallies nD τ sig Unit) W) : sProp 𝕄)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- The frame: both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W5_main_arg0 m ρ c),
     (h c _ (mem_uc main_arg1 (by decide))).trans (W5_main_arg1 m ρ c)⟩) (run_all m ρ)

end Cert.Kernel.Hand

end
-- ==== Proof.KI.Quant0.lean ====
/-
  The frame half of the first quantising kernel: what the kernel body does to its two staging buffers at any grid
  point, generic in the float instance. The body is 32 slices; each loads a block of 512 rows by 128 columns of the
  input buffer, computes, loads the same block of the output buffer (the value is not used) and stores the result
  there. The body is run once on symbolic whole staging buffers; the pieces the output buffer ends with are found
  by that run, they tile the buffer, and the buffer's contents afterwards are those pieces read back.
-/
import proofs.«161446_j85761906967213_2_alg».proof.Proof.Gen.KernelIdeal.Launch
import proofs.«161446_j85761906967213_2_alg».proof.Proof.Gen.KernelIdeal.Skeleton
import proofs.«161446_j85761906967213_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the elaborator's structural look recurses once per coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The kernel body on any whole staging memrefs -/

/-- One staging buffer of the output window, through which its contents are stated (the choice does not matter:
    the pieces cover the buffer). -/
abbrev VO0_1 : View sig .tc .vmem S512x4096 .bf16 := (Memref.whole cc0_stg1_0 : Memref sig .tc .vmem S512x4096 .bf16).view
/-- Each window's current staging memref at point `t`, spelled as the pipeline passes it, and its wholeness. -/
abbrev ms0_0 (t : Fin cfg0.N) : Memref sig .tc .vmem S512x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x4096 .bf16 := win0_1.stage (cfg0.slots t 1)
abbrev hs0_1 (t : Fin cfg0.N) : (ms0_1 t).IsWhole := hstage0_1 ((cfg0.slots t 1).cast nbuf0_1)

-- (the run's proof term is large)
set_option maxHeartbeats 8000000 in
/-- What the body's stores leave in the output's staging memref, as pieces (last first), WITH the proof that on whole
    staging memrefs, the input's at its contents and the output's at anything, the body runs to the continuation
    holding the input's as it was and the output's buffer with those pieces written. The pieces are the witness the
    run finds. -/
noncomputable def kernelRun0 (c : Dev nD) (i : grid0.Coords) (arg1 : Memref sig .tc .vmem S512x4096 .f32) (harg1 : arg1.IsWhole) (arg2 : Memref sig .tc .vmem S512x4096 .bf16) (harg2 : arg2.IsWhole) (x0 : Vec F S512x4096 .f32) :
    { L1 : List (View.Piece (Elt F) S512x4096 .bf16) // ∀ (E : Set ℕ) (K : PUnit → sProp 𝕄),
        iprop(owns (c : Thread nD τ) arg1 fullShare x0 ∗ (∃ d, owns (c : Thread nD τ) arg2 fullShare d)
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc0__quant_dequant_kernel i arg1 harg1 arg2 harg2) K } := by
  refine ⟨?_, fun E K => ?run⟩
  case run =>
    simp only [cc0__quant_dequant_kernel_eq_skeleton]; unfold cc0__quant_dequant_kernel_skel
    unfold owns
    iintro ⟨⟨%f0, %hf0, H0⟩, ⟨%d1, %f1, -, H1⟩, Hk⟩
    obtain rfl := harg1.eq_unread hf0
    sl_exec
    sl_step
    iapply Hk
    isplitl [H0]
    · iexists _; isplitr; · ipureintro; exact harg1.read_unread _
      iexact H0
    iexists _; iexact H1

/-! ## The windows' blocks, at the buffers' contents when the region is entered -/

-- the TensorCore's buffer contents when the region is entered: a parameter, which the run instantiates
variable (V : (c : Dev nD) → (b : Ref sig .tc) → Buf (Elt F) ((c : Thread nD τ).loc b))

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for ANY proof data whose array is
    `V`'s (`hA`) and whose body leaves the block in place (`hafter`): the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output window's buffer -/

/-- The run's pieces for the output tile its block (32 stores of 512 by 128, checked by evaluation), so they cover it. -/
theorem cover0_1 (c : Dev nD) (i : grid0.Coords) (arg1 : Memref sig .tc .vmem S512x4096 .f32) (harg1 : arg1.IsWhole) (arg2 : Memref sig .tc .vmem S512x4096 .bf16) (harg2 : arg2.IsWhole)
    (x0 : Vec F S512x4096 .f32) (y : S512x4096.Idx) :
    ∃ pc ∈ (kernelRun0 c i arg1 harg1 arg2 harg2 x0).1, y ∈ pc.1.set :=
  View.cover_of_tiledL (kernelRun0 c i arg1 harg1 arg2 harg2 x0).1 S512x128.size (by sl_kernel_rfl) y

/-- What the body leaves in the output's staging buffer: its pieces read back over junk. -/
def out0_1 (c : Dev nD) (i : grid0.Coords) (arg1 : Memref sig .tc .vmem S512x4096 .f32) (harg1 : arg1.IsWhole) (arg2 : Memref sig .tc .vmem S512x4096 .bf16) (harg2 : arg2.IsWhole)
    (x0 : Vec F S512x4096 .f32) : Vec F S512x4096 .bf16 :=
  VO0_1.read (Elt F) (VO0_1.writes (Elt F) VO0_1.junk (kernelRun0 c i arg1 harg1 arg2 harg2 x0).1)

/-! ## The pipeline's proof data -/

/-- The proof data of this pipeline on core `c`: the arrays as the region finds them (`V`); after the body at point
    `t` the input's buffer at its block and the output's at `out0_1` of the input block; the invariant the constant
    one (the scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 c (grid0.coords t) (ms0_0 t) (hs0_0 t) (ms0_1 t) (hs0_1 t) (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) :
    (dat0 V c).after 1 t = out0_1 c (grid0.coords t) (ms0_0 t) (hs0_0 t) (ms0_1 t) (hs0_1 t) (iblk0 V c 0 t) := by dsimp only [dat0]

/-- The input's current staging buffer holds its block at every point. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t))

set_option maxHeartbeats 4000000 in
/-- The body at any point: the input's memref holds its block, so the run applies; the invariant and the core's
    `owes` pass through unread; the output's buffer, handed back with the run's pieces written, holds those pieces
    read back because they cover it. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  unfold out0_1
  iintro ⟨HΦ, Ho, ⟨%d0, H0⟩, ⟨%d1, H1⟩⟩
  iapply ((kernelRun0 c (grid0.coords t) _ _ _ _ (iblk0 V c 0 t)).2 Set.univ _)
  isplitl [H0]; · iexact H0
  isplitl [H1]; · iexists _; iexact H1
  iintro ⟨H0, ⟨%e1, H1⟩⟩
  isplitl [HΦ]; · iexact HΦ
  isplitl [Ho]; · iexact Ho
  isplitl [H0]; · iexact H0
  unfold owns; iexists _; isplitr
  swap; · iexact H1
  ipureintro; exact View.read_writes_of_cover _ _ _ _ _ (cover0_1 c _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Quant1.lean ====
/-
  The frame half of the second quantising kernel: what the kernel body does to its two staging buffers at any grid
  point, generic in the float instance. The body is 32 slices; each loads a block of 512 rows by 128 columns of the
  input buffer, computes, loads the same block of the output buffer (the value is not used) and stores the result
  there. The body is run once on symbolic whole staging buffers; the pieces the output buffer ends with are found
  by that run, they tile the buffer, and the buffer's contents afterwards are those pieces read back.
-/
import proofs.«161446_j85761906967213_2_alg».proof.Proof.Gen.KernelIdeal.Launch
import proofs.«161446_j85761906967213_2_alg».proof.Proof.Gen.KernelIdeal.Skeleton
import proofs.«161446_j85761906967213_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the elaborator's structural look recurses once per coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The kernel body on any whole staging memrefs -/

/-- One staging buffer of the output window, through which its contents are stated (the choice does not matter:
    the pieces cover the buffer). -/
abbrev VO1_1 : View sig .tc .vmem S512x4096 .bf16 := (Memref.whole cc1_stg1_0 : Memref sig .tc .vmem S512x4096 .bf16).view
/-- Each window's current staging memref at point `t`, spelled as the pipeline passes it, and its wholeness. -/
abbrev ms1_0 (t : Fin cfg1.N) : Memref sig .tc .vmem S512x4096 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x4096 .bf16 := win1_1.stage (cfg1.slots t 1)
abbrev hs1_1 (t : Fin cfg1.N) : (ms1_1 t).IsWhole := hstage1_1 ((cfg1.slots t 1).cast nbuf1_1)

-- (the run's proof term is large)
set_option maxHeartbeats 8000000 in
/-- What the body's stores leave in the output's staging memref, as pieces (last first), WITH the proof that on whole
    staging memrefs, the input's at its contents and the output's at anything, the body runs to the continuation
    holding the input's as it was and the output's buffer with those pieces written. The pieces are the witness the
    run finds. -/
noncomputable def kernelRun1 (c : Dev nD) (i : grid1.Coords) (arg1 : Memref sig .tc .vmem S512x4096 .f32) (harg1 : arg1.IsWhole) (arg2 : Memref sig .tc .vmem S512x4096 .bf16) (harg2 : arg2.IsWhole) (x0 : Vec F S512x4096 .f32) :
    { L1 : List (View.Piece (Elt F) S512x4096 .bf16) // ∀ (E : Set ℕ) (K : PUnit → sProp 𝕄),
        iprop(owns (c : Thread nD τ) arg1 fullShare x0 ∗ (∃ d, owns (c : Thread nD τ) arg2 fullShare d)
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc1__quant_dequant_kernel i arg1 harg1 arg2 harg2) K } := by
  refine ⟨?_, fun E K => ?run⟩
  case run =>
    simp only [cc1__quant_dequant_kernel_eq_skeleton]; unfold cc1__quant_dequant_kernel_skel
    unfold owns
    iintro ⟨⟨%f0, %hf0, H0⟩, ⟨%d1, %f1, -, H1⟩, Hk⟩
    obtain rfl := harg1.eq_unread hf0
    sl_exec
    sl_step
    iapply Hk
    isplitl [H0]
    · iexists _; isplitr; · ipureintro; exact harg1.read_unread _
      iexact H0
    iexists _; iexact H1

/-! ## The windows' blocks, at the buffers' contents when the region is entered -/

-- the TensorCore's buffer contents when the region is entered: a parameter, which the run instantiates
variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point, for ANY proof data whose array is
    `V`'s (`hA`) and whose body leaves the block in place (`hafter`): the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the output window's buffer -/

/-- The run's pieces for the output tile its block (32 stores of 512 by 128, checked by evaluation), so they cover it. -/
theorem cover1_1 (c : Dev nD) (i : grid1.Coords) (arg1 : Memref sig .tc .vmem S512x4096 .f32) (harg1 : arg1.IsWhole) (arg2 : Memref sig .tc .vmem S512x4096 .bf16) (harg2 : arg2.IsWhole)
    (x0 : Vec F S512x4096 .f32) (y : S512x4096.Idx) :
    ∃ pc ∈ (kernelRun1 c i arg1 harg1 arg2 harg2 x0).1, y ∈ pc.1.set :=
  View.cover_of_tiledL (kernelRun1 c i arg1 harg1 arg2 harg2 x0).1 S512x128.size (by sl_kernel_rfl) y

/-- What the body leaves in the output's staging buffer: its pieces read back over junk. -/
def out1_1 (c : Dev nD) (i : grid1.Coords) (arg1 : Memref sig .tc .vmem S512x4096 .f32) (harg1 : arg1.IsWhole) (arg2 : Memref sig .tc .vmem S512x4096 .bf16) (harg2 : arg2.IsWhole)
    (x0 : Vec F S512x4096 .f32) : Vec F S512x4096 .bf16 :=
  VO1_1.read (Elt F) (VO1_1.writes (Elt F) VO1_1.junk (kernelRun1 c i arg1 harg1 arg2 harg2 x0).1)

/-! ## The pipeline's proof data -/

/-- The proof data of this pipeline on core `c`: the arrays as the region finds them (`V`); after the body at point
    `t` the input's buffer at its block and the output's at `out1_1` of the input block; the invariant the constant
    one (the scoped rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 c (grid1.coords t) (ms1_0 t) (hs1_0 t) (ms1_1 t) (hs1_1 t) (iblk1 V c 0 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) :
    (dat1 V c).after 1 t = out1_1 c (grid1.coords t) (ms1_0 t) (hs1_0 t) (ms1_1 t) (hs1_1 t) (iblk1 V c 0 t) := by dsimp only [dat1]

/-- The input's current staging buffer holds its block at every point. -/
theorem before1_0 (c : Dev nD) (t : Fin cfg1.N) (d) : (dat1 V c).before 0 t d = iblk1 V c 0 t :=
  before1_0_of V (dat1 V c) (A_eq1 V c 0) (after1_0 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t))

set_option maxHeartbeats 4000000 in
/-- The body at any point: the input's memref holds its block, so the run applies; the invariant and the core's
    `owes` pass through unread; the output's buffer, handed back with the run's pieces written, holds those pieces
    read back because they cover it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  unfold out1_1
  iintro ⟨HΦ, Ho, ⟨%d0, H0⟩, ⟨%d1, H1⟩⟩
  iapply ((kernelRun1 c (grid1.coords t) _ _ _ _ (iblk1 V c 0 t)).2 Set.univ _)
  isplitl [H0]; · iexact H0
  isplitl [H1]; · iexists _; iexact H1
  iintro ⟨H0, ⟨%e1, H1⟩⟩
  isplitl [HΦ]; · iexact HΦ
  isplitl [Ho]; · iexact Ho
  isplitl [H0]; · iexact H0
  unfold owns; iexists _; isplitr
  swap; · iexact H1
  ipureintro; exact View.read_writes_of_cover _ _ _ _ _ (cover1_1 c _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.MatmulRuns.lean ====
/-
  The matrix-product kernel, point by point.

  The grid is 16 × 4 × 2: for each of the 16 × 4 output blocks of 512 × 1024 entries the two halves of the
  contracted axis are visited one after the other. At the first half (last coordinate 0) the body clears its
  accumulator, a scratch buffer, and adds the half's product into it; at the second half (last coordinate 1) it
  adds that half's product to what the first left and copies the sum into the output block. The output block is
  not touched at the first half and is written back only after the second.

  This file fixes which of the two cases a grid point is in (decided over the 128 points), where the output
  window is idle, and runs the body once per case on whole buffers: the pieces each run leaves in the scratch
  and in the output block are found by the run itself.
-/
import proofs.«161446_j85761906967213_2_alg».proof.Proof.Gen.KernelIdeal.Launch
import proofs.«161446_j85761906967213_2_alg».proof.Proof.Gen.KernelIdeal.Skeleton
import proofs.«161446_j85761906967213_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Which case a point is in -/

/-- The body's first test: the last grid coordinate is 0. -/
abbrev cond2_0 (i : grid2.Coords) : Prop :=
  (Scalar.cmpi .ne (Scalar.extui (Scalar.cmpi .eq (BitVec.ofNat 32 (i 2).val) 0#32)) 0#32) = 1#1
/-- It holds at the even points. -/
theorem hcond2_0 : ∀ t : Fin cfg2.N, cond2_0 (grid2.coords t) ↔ t.val % 2 = 0 :=
  (by decide +kernel : ∀ t : Fin grid2.N, cond2_0 (grid2.coords t) ↔ t.val % 2 = 0)

/-- The body's second test: the last grid coordinate is 1. -/
abbrev cond2_1 (i : grid2.Coords) : Prop := k2_cond2 i = 1#1
/-- It holds at the odd points. -/
theorem hcond2_1 : ∀ t : Fin cfg2.N, cond2_1 (grid2.coords t) ↔ t.val % 2 = 1 :=
  (by decide +kernel : ∀ t : Fin grid2.N, cond2_1 (grid2.coords t) ↔ t.val % 2 = 1)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
/-- At an even point the output window is idle: the body stores nothing into it, -/
theorem idleAt2_2_A : ∀ t : Fin cfg2.N, cond2_0 (grid2.coords t) → ¬cond2_1 (grid2.coords t) → cfg2.idle 2 (grid2.coords t) = true := by decide +kernel
/-- and its block is not written back there. -/
theorem noFlush2_2_A : ∀ t : Fin cfg2.N, cond2_0 (grid2.coords t) → ¬cond2_1 (grid2.coords t) → (cfg2.win 2).flush t = false := by decide +kernel
/-- At an odd point the output window is live. -/
theorem liveAt2_2_C : ∀ t : Fin cfg2.N, ¬cond2_0 (grid2.coords t) → cond2_1 (grid2.coords t) → cfg2.idle 2 (grid2.coords t) = false := by decide +kernel

/-! ## The buffers the body is called with -/

/-- One staging buffer of the output window, through which its contents are stated. -/
abbrev VO2_2 : View sig .tc .vmem S512x1024 .f32 := (Memref.whole cc2_stg2_0 : Memref sig .tc .vmem S512x1024 .f32).view
abbrev ms2_0 (t : Fin cfg2.N) : Memref sig .tc .vmem S512x2048 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x2048 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x1024 .f32 := win2_2.stage (cfg2.slots t 2)
abbrev hs2_2 (t : Fin cfg2.N) : (ms2_2 t).IsWhole := hstage2_2 ((cfg2.slots t 2).cast nbuf2_2)
/-- The accumulator: a whole scoped buffer of the kernel's own. -/
abbrev scM2_0 : Memref sig .tc .vmem S512x1024 .f32 := Memref.whole cc2_scratch0
abbrev VS2_0 : View sig .tc .vmem S512x1024 .f32 := scM2_0.view

/-- The plain region invariant with the accumulator owned at some contents, the other scoped buffers at anything
    and the generator register at some state. -/
theorem PhiA2_eq (c : Dev nD) :
    (Pipeline.ΦA spec2 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ d, owns (c : Thread nD τ) scM2_0 fullShare d)) ∗ (∃ r, prngReg c r)) := by
  unfold Pipeline.ΦA; rw [scopedRest2_eq]; simp only [scM2_0, owns_whole]; try rfl

/-! ## The body, case by case -/

set_option maxHeartbeats 4000000 in
/-- AT AN EVEN POINT (first test taken, second not). On whole buffers — the two input blocks at x0 and x1, the
    output block at contents handed back untouched, the accumulator at anything — the body runs to the
    continuation with the inputs as they were and the accumulator with its pieces written; the pieces are what the
    run finds. -/
noncomputable def kernelRun2_A (c : Dev nD) (i : grid2.Coords) (arg3 : Memref sig .tc .vmem S512x2048 .bf16) (harg3 : arg3.IsWhole) (arg4 : Memref sig .tc .vmem S1024x2048 .bf16) (harg4 : arg4.IsWhole) (arg5 : Memref sig .tc .vmem S512x1024 .f32) (harg5 : arg5.IsWhole) (arg6 : Memref sig .tc .vmem S512x1024 .f32) (harg6 : arg6.IsWhole) (hc0 : cond2_0 i) (hc1 : ¬cond2_1 i)
    (x0 : Vec F S512x2048 .bf16) (x1 : Vec F S1024x2048 .bf16) :
    Σ' (L2 : List (View.Piece (Elt F) S512x1024 .f32)), { LS0 : List (View.Piece (Elt F) S512x1024 .f32) //
      ∀ (xi2 : Vec F S512x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc2__matmul_kernel i arg3 harg3 arg4 harg4 arg5 harg5 arg6 harg6) K } := by
  refine ⟨[], ?_, fun xi2 E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 4000000 in
/-- AT AN ODD POINT (first test not taken, second taken). The accumulator holds what the point before left, xs0;
    the output block holds anything. The body leaves its pieces in both. -/
noncomputable def kernelRun2_C (c : Dev nD) (i : grid2.Coords) (arg3 : Memref sig .tc .vmem S512x2048 .bf16) (harg3 : arg3.IsWhole) (arg4 : Memref sig .tc .vmem S1024x2048 .bf16) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : cond2_1 i)
    (x0 : Vec F S512x2048 .bf16) (x1 : Vec F S1024x2048 .bf16) (xs0 : Vec F S512x1024 .f32) :
    Σ' (L2 : List (View.Piece (Elt F) S512x1024 .f32)), { LS0 : List (View.Piece (Elt F) S512x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc2__matmul_kernel i arg3 harg3 arg4 harg4 arg5 harg5 arg6 harg6) K } := by
  refine ⟨?_, ?_, fun E K => ?run⟩
  case run =>
    simp only [cc2__matmul_kernel_eq_skeleton]; unfold cc2__matmul_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Hand

end
-- ==== Proof.KI.Matmul.lean ====
/-
  The matrix-product kernel's region: what its buffers hold point after point, and the body's obligation.

  After an even point the accumulator holds 0 + (the first half's product); after the odd point that follows it
  holds that plus the second half's product, and the output block holds the same sum. What the accumulator holds
  is carried from a point to the next by the region's invariant: before the first point nothing is known of it,
  from then on it holds what the point before left. The output block is idle at even points (handed back as it
  was found) and is written whole at odd points.
-/
import proofs.«161446_j85761906967213_2_alg».proof.Proof.KI.MatmulRuns

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## What each case leaves -/

/-- An even point stores nothing into the output block: a placeholder nothing consults. -/
def out2_A_2 (c : Dev nD) (i : grid2.Coords) (arg3 : Memref sig .tc .vmem S512x2048 .bf16) (harg3 : arg3.IsWhole) (arg4 : Memref sig .tc .vmem S1024x2048 .bf16) (harg4 : arg4.IsWhole) (arg5 : Memref sig .tc .vmem S512x1024 .f32) (harg5 : arg5.IsWhole) (arg6 : Memref sig .tc .vmem S512x1024 .f32) (harg6 : arg6.IsWhole) (hc0 : cond2_0 i) (hc1 : ¬cond2_1 i)
    (x0 : Vec F S512x2048 .bf16) (x1 : Vec F S1024x2048 .bf16) : Vec F S512x1024 .f32 :=
  VO2_2.read (Elt F) (VO2_2.writes (Elt F) VO2_2.junk (kernelRun2_A c i arg3 harg3 arg4 harg4 arg5 harg5 arg6 harg6 hc0 hc1 x0 x1).1)

/-- An even point's stores into the accumulator cover it. -/
theorem scover2_A_0 (c : Dev nD) (i : grid2.Coords) (arg3 : Memref sig .tc .vmem S512x2048 .bf16) (harg3 : arg3.IsWhole) (arg4 : Memref sig .tc .vmem S1024x2048 .bf16) (harg4 : arg4.IsWhole) (arg5 : Memref sig .tc .vmem S512x1024 .f32) (harg5 : arg5.IsWhole) (arg6 : Memref sig .tc .vmem S512x1024 .f32) (harg6 : arg6.IsWhole) (hc0 : cond2_0 i) (hc1 : ¬cond2_1 i)
    (x0 : Vec F S512x2048 .bf16) (x1 : Vec F S1024x2048 .bf16) (y : S512x1024.Idx) :
    ∃ pc ∈ (kernelRun2_A c i arg3 harg3 arg4 harg4 arg5 harg5 arg6 harg6 hc0 hc1 x0 x1).2.1, y ∈ pc.1.set :=
  View.cover_of_tiledL (kernelRun2_A c i arg3 harg3 arg4 harg4 arg5 harg5 arg6 harg6 hc0 hc1 x0 x1).2.1 S512x1024.size (by sl_kernel_rfl) y

/-- What an even point leaves in the accumulator. -/
def sout2_A_0 (c : Dev nD) (i : grid2.Coords) (arg3 : Memref sig .tc .vmem S512x2048 .bf16) (harg3 : arg3.IsWhole) (arg4 : Memref sig .tc .vmem S1024x2048 .bf16) (harg4 : arg4.IsWhole) (arg5 : Memref sig .tc .vmem S512x1024 .f32) (harg5 : arg5.IsWhole) (arg6 : Memref sig .tc .vmem S512x1024 .f32) (harg6 : arg6.IsWhole) (hc0 : cond2_0 i) (hc1 : ¬cond2_1 i)
    (x0 : Vec F S512x2048 .bf16) (x1 : Vec F S1024x2048 .bf16) : Vec F S512x1024 .f32 :=
  VS2_0.read (Elt F) (VS2_0.writes (Elt F) VS2_0.junk (kernelRun2_A c i arg3 harg3 arg4 harg4 arg5 harg5 arg6 harg6 hc0 hc1 x0 x1).2.1)

/-- An odd point's store into the output block covers it. -/
theorem cover2_C_2 (c : Dev nD) (i : grid2.Coords) (arg3 : Memref sig .tc .vmem S512x2048 .bf16) (harg3 : arg3.IsWhole) (arg4 : Memref sig .tc .vmem S1024x2048 .bf16) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : cond2_1 i)
    (x0 : Vec F S512x2048 .bf16) (x1 : Vec F S1024x2048 .bf16) (xs0 : Vec F S512x1024 .f32) (y : S512x1024.Idx) :
    ∃ pc ∈ (kernelRun2_C c i arg3 harg3 arg4 harg4 arg5 harg5 arg6 harg6 hc0 hc1 x0 x1 xs0).1, y ∈ pc.1.set :=
  View.cover_of_tiledL (kernelRun2_C c i arg3 harg3 arg4 harg4 arg5 harg5 arg6 harg6 hc0 hc1 x0 x1 xs0).1 S512x1024.size (by sl_kernel_rfl) y

/-- What an odd point leaves in the output block. -/
def out2_C_2 (c : Dev nD) (i : grid2.Coords) (arg3 : Memref sig .tc .vmem S512x2048 .bf16) (harg3 : arg3.IsWhole) (arg4 : Memref sig .tc .vmem S1024x2048 .bf16) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : cond2_1 i)
    (x0 : Vec F S512x2048 .bf16) (x1 : Vec F S1024x2048 .bf16) (xs0 : Vec F S512x1024 .f32) : Vec F S512x1024 .f32 :=
  VO2_2.read (Elt F) (VO2_2.writes (Elt F) VO2_2.junk (kernelRun2_C c i arg3 harg3 arg4 harg4 arg5 harg5 arg6 harg6 hc0 hc1 x0 x1 xs0).1)

/-- An odd point's store into the accumulator covers it. -/
theorem scover2_C_0 (c : Dev nD) (i : grid2.Coords) (arg3 : Memref sig .tc .vmem S512x2048 .bf16) (harg3 : arg3.IsWhole) (arg4 : Memref sig .tc .vmem S1024x2048 .bf16) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : cond2_1 i)
    (x0 : Vec F S512x2048 .bf16) (x1 : Vec F S1024x2048 .bf16) (xs0 : Vec F S512x1024 .f32) (y : S512x1024.Idx) :
    ∃ pc ∈ (kernelRun2_C c i arg3 harg3 arg4 harg4 arg5 harg5 arg6 harg6 hc0 hc1 x0 x1 xs0).2.1, y ∈ pc.1.set :=
  View.cover_of_tiledL (kernelRun2_C c i arg3 harg3 arg4 harg4 arg5 harg5 arg6 harg6 hc0 hc1 x0 x1 xs0).2.1 S512x1024.size (by sl_kernel_rfl) y

/-- What an odd point leaves in the accumulator. -/
def sout2_C_0 (c : Dev nD) (i : grid2.Coords) (arg3 : Memref sig .tc .vmem S512x2048 .bf16) (harg3 : arg3.IsWhole) (arg4 : Memref sig .tc .vmem S1024x2048 .bf16) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : cond2_1 i)
    (x0 : Vec F S512x2048 .bf16) (x1 : Vec F S1024x2048 .bf16) (xs0 : Vec F S512x1024 .f32) : Vec F S512x1024 .f32 :=
  VS2_0.read (Elt F) (VS2_0.writes (Elt F) VS2_0.junk (kernelRun2_C c i arg3 harg3 arg4 harg4 arg5 harg5 arg6 harg6 hc0 hc1 x0 x1 xs0).2.1)

/-! ## What the output block and the accumulator hold after each point -/

/-- The pair (output block, accumulator) after the body at position n: an even point's contents from its two input
    blocks alone, an odd point's from its input blocks and what the point before left in the accumulator. -/
def outsAt2 (c : Dev nD) : (n : ℕ) → n < cfg2.N → Vec F S512x1024 .f32 × Vec F S512x1024 .f32
  | 0, hn => (out2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩))
  | n + 1, hn =>
    if h0 : (n + 1) % 2 = 0 then
      if h1 : (n + 1) % 2 = 1 then
        False.elim (by omega)
      else
        (out2_A_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩))
    else
      if h1 : (n + 1) % 2 = 1 then
        (out2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2)
      else
        False.elim (by omega)

/-- At an even point. -/
theorem outsAt2_A (c : Dev nD) (t : Fin cfg2.N) (h0 : t.val % 2 = 0) (h1 : ¬t.val % 2 = 1) :
    outsAt2 V c t.val t.isLt = (out2_A_2 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t), sout2_A_0 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact (dif_pos h0).trans ((dif_neg h1).trans rfl)

/-- At an odd point: over what the point before left. -/
theorem outsAt2_C (c : Dev nD) (t : Fin cfg2.N) (h0 : ¬t.val % 2 = 0) (h1 : t.val % 2 = 1) :
    outsAt2 V c t.val t.isLt = (out2_C_2 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- The scoped buffers of the other two kernels at anything, the accumulator as S says, the generator register at
    some state. -/
def rest2 (c : Dev nD) (S : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ S) ∗ (∃ r, prngReg c r))

theorem PhiA2_rest (c : Dev nD) : (Pipeline.ΦA spec2 c : sProp 𝕄) = rest2 c iprop(∃ d, owns (c : Thread nD τ) scM2_0 fullShare d) := by
  rw [PhiA2_eq]; rfl

theorem rest2_mono (c : Dev nD) (S S' : sProp 𝕄) (h : S ⊢ S') : rest2 c S ⊢ rest2 c S' := by
  unfold rest2
  iintro ⟨⟨H1, H2, H3, H4, H5, H6, H7, H8, HS⟩, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iapply h; iexact HS
  iexact Hg

/-- Before position n: nothing known of the accumulator before the first point, afterwards what the point before
    left in it. -/
def PhiS2 (c : Dev nD) : (n : ℕ) → n ≤ cfg2.N → sProp 𝕄
  | 0, _ => Pipeline.ΦA spec2 c
  | n + 1, hn => rest2 c (owns (c : Thread nD τ) scM2_0 fullShare ((outsAt2 V c n hn).2))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = rest2 c (owns (c : Thread nD τ) scM2_0 fullShare ((outsAt2 V c n hn).2)) := rfl
theorem PhiS2_pos (c : Dev nD) (n : ℕ) (h : n ≤ cfg2.N) (hz : n ≠ 0) :
    PhiS2 V c n h = rest2 c (owns (c : Thread nD τ) scM2_0 fullShare ((outsAt2 V c (n - 1) (by omega)).2)) := by
  cases n with
  | zero => exact absurd rfl hz
  | succ n => rfl

/-! ## The proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: the input buffers hold their blocks; the point's parity says which case it is in; the
    invariant hands the body the accumulator at what the point before left (at anything at the first point) and takes
    it back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 128 := lt_of_lt_of_eq t.isLt (show cfg2.N = 128 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  by_cases h0 : t.val % 2 = 0
  · have h1 : ¬t.val % 2 = 1 := by omega
    rw [Dat.leavesExact_idle (dat2 V c) 2 t (idleAt2_2_A t ((hcond2_0 t).mpr h0) (fun h => h1 ((hcond2_1 t).mp h))) (noFlush2_2_A t ((hcond2_0 t).mpr h0) (fun h => h1 ((hcond2_1 t).mp h)))]
    rw [outsAt2_A V c t h0 h1]
    unfold sout2_A_0; (try dsimp only)
    have hΦ : (dat2 V c).Φ t.castSucc ⊢ rest2 c iprop(∃ d, owns (c : Thread nD τ) scM2_0 fullShare d) := by
      rw [PhiS2_castSucc V c t]
      by_cases hz : t.val = 0
      · rw [PhiS2_zero V c _ _ hz, PhiA2_rest]; try exact Idealize.SL.BI.Entails.refl _
      · rw [PhiS2_pos V c _ _ hz]
        exact rest2_mono c _ _ (by iintro H; iexists _; iexact H)
    iintro ⟨HΦ, Ho, ⟨%d0, H0⟩, ⟨%d1, H1⟩, ⟨%d2, H2⟩⟩
    ihave HΦ' := hΦ $$ HΦ
    unfold rest2
    icases HΦ' with ⟨⟨A1, A2, A3, A4, A5, A6, A7, A8, HS0⟩, Hg⟩
    iapply ((kernelRun2_A c (grid2.coords t) _ _ _ _ _ _ _ _ ((hcond2_0 t).mpr h0) (fun h => h1 ((hcond2_1 t).mp h)) (iblk2 V c 0 t) (iblk2 V c 1 t)).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [A1 A2 A3 A4 A5 A6 A7 A8 HS0 Hg]
    · isplitr [Hg]
      · isplitl [A1]; · iexact A1
        isplitl [A2]; · iexact A2
        isplitl [A3]; · iexact A3
        isplitl [A4]; · iexact A4
        isplitl [A5]; · iexact A5
        isplitl [A6]; · iexact A6
        isplitl [A7]; · iexact A7
        isplitl [A8]; · iexact A8
        unfold owns; iexists _; isplitr
        swap; · iexact HS0
        ipureintro; exact View.read_writes_of_cover _ _ _ _ _ (scover2_A_0 c _ _ _ _ _ _ _ _ _ _ _ _ _)
      iexact Hg
    isplitl [Ho]; · iexact Ho
    isplitl [H0]; · iexact H0
    isplitl [H1]; · iexact H1
    iexists _; iexact H2
  · have h1 : t.val % 2 = 1 := by omega
    have hz : t.val ≠ 0 := by omega
    rw [show (dat2 V c).leavesExact 2 t = owns (c : Thread nD τ) (ms2_2 t) fullShare ((dat2 V c).after 2 t) from by
      unfold Dat.leavesExact; rw [liveAt2_2_C t (fun h => h0 ((hcond2_0 t).mp h)) ((hcond2_1 t).mpr h1)], after2_2]
    rw [outsAt2_C V c t h0 h1]
    unfold out2_C_2 sout2_C_0; (try dsimp only)
    rw [PhiS2_castSucc V c t, PhiS2_pos V c _ _ hz]
    unfold rest2
    iintro ⟨⟨⟨A1, A2, A3, A4, A5, A6, A7, A8, HS0⟩, Hg⟩, Ho, ⟨%d0, H0⟩, ⟨%d1, H1⟩, ⟨%d2, H2⟩⟩
    iapply ((kernelRun2_C c (grid2.coords t) _ _ _ _ _ _ _ _ (fun h => h0 ((hcond2_0 t).mp h)) ((hcond2_1 t).mpr h1) (iblk2 V c 0 t) (iblk2 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [A1 A2 A3 A4 A5 A6 A7 A8 HS0 Hg]
    · isplitr [Hg]
      · isplitl [A1]; · iexact A1
        isplitl [A2]; · iexact A2
        isplitl [A3]; · iexact A3
        isplitl [A4]; · iexact A4
        isplitl [A5]; · iexact A5
        isplitl [A6]; · iexact A6
        isplitl [A7]; · iexact A7
        isplitl [A8]; · iexact A8
        unfold owns; iexists _; isplitr
        swap; · iexact HS0
        ipureintro; exact View.read_writes_of_cover _ _ _ _ _ (scover2_C_0 c _ _ _ _ _ _ _ _ _ _ _ _ _ _)
      iexact Hg
    isplitl [Ho]; · iexact Ho
    isplitl [H0]; · iexact H0
    isplitl [H1]; · iexact H1
    unfold owns; iexists _; isplitr
    swap; · iexact H2
    ipureintro; exact View.read_writes_of_cover _ _ _ _ _ (cover2_C_2 c _ _ _ _ _ _ _ _ _ _ _ _ _ _)

/-- The body's obligation at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the plain one back: what is known of the accumulator is forgotten. -/
theorem hout2 (c : Dev nD) : (dat2 V c).Φ (Fin.last cfg2.N) ⊢ Pipeline.ΦA spec2 c := by
  have ht : (Fin.last cfg2.N).val ≠ 0 := by rw [Fin.val_last]; have : cfg2.N = 128 := N_2; omega
  rw [show (dat2 V c).Φ (Fin.last cfg2.N) = PhiS2 V c (Fin.last cfg2.N).val (Nat.le_of_lt_succ (Fin.last cfg2.N).isLt) from rfl,
    PhiS2_pos V c _ _ ht, PhiA2_rest]
  exact rest2_mono c _ _ (by iintro H; iexists _; iexact H)

end Cert.KernelIdeal.Hand

end
-- ==== Proof.KI.Run.lean ====
/-
  The whole program, segment by segment.

  The program is: a reshape of the activations to 8192 rows; the quantising kernel on them; the quantising
  kernel on the weights; the matrix-product kernel; a reshape of the product back. Between two segments a core
  holds every unscoped buffer whole at known contents, its generator register at some state, and owes nothing.
  The contents are followed through the program: a host stretch applies its operations; a kernel leaves its
  windows' arrays at what its write-backs leave and every other buffer as it was. At the end every unscoped
  buffer is read against the final contents: the two arguments as launched, the result at the last reshape of
  what the product kernel left.
-/
import proofs.«161446_j85761906967213_2_alg».proof.Proof.KI.Quant0
import proofs.«161446_j85761906967213_2_alg».proof.Proof.KI.Quant1
import proofs.«161446_j85761906967213_2_alg».proof.Proof.KI.Matmul
import proofs.«161446_j85761906967213_2_alg».proof.Proof.LibRegionTrack

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- At launch. -/
abbrev W0 : Dev nD → Valuation τ sig (Elt F) := fun c b => (s₀ m ρ).mem ((c : Dev nD), b)
/-- After the first reshape (the first kernel's entry). -/
abbrev W1 : Dev nD → Valuation τ sig (Elt F) := fun c => StableHlo.after hostOps0 (W0 m ρ c)
abbrev Vin0 : (c : Dev nD) → (b : Ref sig .tc) → Buf (Elt F) ((c : Thread nD τ).loc b) := fun c b => W1 m ρ c b
/-- After the first kernel: its arrays at what its write-backs leave, every other buffer as entered. -/
def W2 (c : Dev nD) : Valuation τ sig (Elt F) :=
  Pipeline.withArrays spec0 c (W1 m ρ c) fun w => (dat0 (Vin0 m ρ) c).arrAt w cfg0.N
theorem W2_arr (c : Dev nD) (w : Fin cfg0.W) :
    W2 m ρ c (Proc.devRef .tc (Pipeline.arrRef spec0 w)) = (dat0 (Vin0 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev Vin1 : (c : Dev nD) → (b : Ref sig .tc) → Buf (Elt F) ((c : Thread nD τ).loc b) := fun c b => W2 m ρ c b
theorem hF0 (c : Dev nD) (w : Fin cfg0.W) : (dat0 (Vin0 m ρ) c).arrAt w cfg0.N = Vin1 m ρ c (Pipeline.arrRef spec0 w) :=
  (W2_arr m ρ c w).symm
theorem hrest0 (c : Dev nD) : ∀ b, b ∉ Finset.univ.image (Pipeline.arrRef spec0) → Vin1 m ρ c b = Vin0 m ρ c b :=
  fun b hb => W2_of_ne m ρ c b fun w e => hb (Finset.mem_image.mpr ⟨w, Finset.mem_univ _, e⟩)

/-- After the second kernel. -/
def W3 (c : Dev nD) : Valuation τ sig (Elt F) :=
  Pipeline.withArrays spec1 c (W2 m ρ c) fun w => (dat1 (Vin1 m ρ) c).arrAt w cfg1.N
theorem W3_arr (c : Dev nD) (w : Fin cfg1.W) :
    W3 m ρ c (Proc.devRef .tc (Pipeline.arrRef spec1 w)) = (dat1 (Vin1 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev Vin2 : (c : Dev nD) → (b : Ref sig .tc) → Buf (Elt F) ((c : Thread nD τ).loc b) := fun c b => W3 m ρ c b
theorem hF1 (c : Dev nD) (w : Fin cfg1.W) : (dat1 (Vin1 m ρ) c).arrAt w cfg1.N = Vin2 m ρ c (Pipeline.arrRef spec1 w) :=
  (W3_arr m ρ c w).symm
theorem hrest1 (c : Dev nD) : ∀ b, b ∉ Finset.univ.image (Pipeline.arrRef spec1) → Vin2 m ρ c b = Vin1 m ρ c b :=
  fun b hb => W3_of_ne m ρ c b fun w e => hb (Finset.mem_image.mpr ⟨w, Finset.mem_univ _, e⟩)

/-- After the product kernel. -/
def W4 (c : Dev nD) : Valuation τ sig (Elt F) :=
  Pipeline.withArrays spec2 c (W3 m ρ c) fun w => (dat2 (Vin2 m ρ) c).arrAt w cfg2.N
theorem W4_arr (c : Dev nD) (w : Fin cfg2.W) :
    W4 m ρ c (Proc.devRef .tc (Pipeline.arrRef spec2 w)) = (dat2 (Vin2 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev Vin3 : (c : Dev nD) → (b : Ref sig .tc) → Buf (Elt F) ((c : Thread nD τ).loc b) := fun c b => W4 m ρ c b
theorem hF2 (c : Dev nD) (w : Fin cfg2.W) : (dat2 (Vin2 m ρ) c).arrAt w cfg2.N = Vin3 m ρ c (Pipeline.arrRef spec2 w) :=
  (W4_arr m ρ c w).symm
theorem hrest2 (c : Dev nD) : ∀ b, b ∉ Finset.univ.image (Pipeline.arrRef spec2) → Vin3 m ρ c b = Vin2 m ρ c b :=
  fun b hb => W4_of_ne m ρ c b fun w e => hb (Finset.mem_image.mpr ⟨w, Finset.mem_univ _, e⟩)

/-- After the last reshape: the end. -/
abbrev W5 : Dev nD → Valuation τ sig (Elt F) := fun c => StableHlo.after hostOps3 (W4 m ρ c)

/-! ## The arguments end as launched -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_forall_not_mem (b := Proc.devRef .tc main_arg0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          first | exact StableHlo.devRef_ne_of_ne (by decide) | (repeat' apply And.intro) <;> exact StableHlo.devRef_ne_of_ne (by decide)))
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          first | exact StableHlo.devRef_ne_of_ne (by decide) | (repeat' apply And.intro) <;> exact StableHlo.devRef_ne_of_ne (by decide)))
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_forall_not_mem (b := Proc.devRef .tc main_arg1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          first | exact StableHlo.devRef_ne_of_ne (by decide) | (repeat' apply And.intro) <;> exact StableHlo.devRef_ne_of_ne (by decide)))
    _ = W3 m ρ c (Proc.devRef .tc main_arg1) := W4_of_ne m ρ c main_arg1 (by decide)
    _ = W2 m ρ c (Proc.devRef .tc main_arg1) := (W3_arr m ρ c 0).trans (((dat1 (Vin1 m ρ) c).arrAt_in 0 rfl _).trans (A_eq1 (Vin1 m ρ) c 0))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          first | exact StableHlo.devRef_ne_of_ne (by decide) | (repeat' apply And.intro) <;> exact StableHlo.devRef_ne_of_ne (by decide)))
    _ = m ((c : Thread nD τ).loc main_arg1) := rfl

/-! ## The proof data family and the segments -/

abbrev adm : (p : Fin 3) → (pcfgs (F := F) p).Adm := fun p => (cfgs p).toPCfg_adm
/-- Every kernel's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (Vin0 m ρ) c
  | ⟨1, _⟩ => fun c => dat1 (Vin1 m ρ) c
  | ⟨2, _⟩ => fun c => dat2 (Vin2 m ρ) c
abbrev 𝒱₀ : Variants := Variants.none
abbrev L : GSem nD τ sig → Finset Unit := fun _ => ∅
abbrev lv : GSem nD τ sig → Unit → ℕ := fun _ _ => 0
/-- What rides beside the buffers through every segment. -/
abbrev R (c : Dev nD) : sProp 𝕄 := Pipeline.rideAlong (U := UR sig nD τ) (Val := Elt F) c

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W5 m ρ c) ∗ ∃ r, prngReg c r)

set_option backward.isDefEq.respectTransparency.types false in
/-- Region 0 as a segment: entered from every unscoped buffer at the contents before it, left at the contents after it. -/
def reg0 : Pipeline.RegionSeg (pcfgs (F := F)) adm (pdats m ρ) () defs₀ 𝒱₀ L lv 0 :=
  Pipeline.RegionSeg.ofTrack (pcfgs (F := F)) adm (pdats m ρ) defs₀ 𝒱₀ L lv 0
    launch0.win launch0.block_pos launch0.stage_whole launch0.arr_whole
    (fun c => (body_obligation0 (Vin0 m ρ) c).loose)
    (fun _ _ => rfl) (fun _ => rfl) (fun c => (pdats m ρ 0 c).share_full fun _ => rfl)
    (W1 m ρ) (W2 m ρ) (fun _ _ => rfl) (hF0 m ρ) (hrest0 m ρ)
    (fun _ => .rfl) (fun _ => .rfl)

set_option backward.isDefEq.respectTransparency.types false in
/-- Region 1 as a segment: entered from every unscoped buffer at the contents before it, left at the contents after it. -/
def reg1 : Pipeline.RegionSeg (pcfgs (F := F)) adm (pdats m ρ) () defs₀ 𝒱₀ L lv 1 :=
  Pipeline.RegionSeg.ofTrack (pcfgs (F := F)) adm (pdats m ρ) defs₀ 𝒱₀ L lv 1
    launch1.win launch1.block_pos launch1.stage_whole launch1.arr_whole
    (fun c => (body_obligation1 (Vin1 m ρ) c).loose)
    (fun _ _ => rfl) (fun _ => rfl) (fun c => (pdats m ρ 1 c).share_full fun _ => rfl)
    (W2 m ρ) (W3 m ρ) (fun _ _ => rfl) (hF1 m ρ) (hrest1 m ρ)
    (fun _ => .rfl) (fun _ => .rfl)

set_option backward.isDefEq.respectTransparency.types false in
/-- Region 2 as a segment: entered from every unscoped buffer at the contents before it, left at the contents after it. -/
def reg2 : Pipeline.RegionSeg (pcfgs (F := F)) adm (pdats m ρ) () defs₀ 𝒱₀ L lv 2 :=
  Pipeline.RegionSeg.ofTrack (pcfgs (F := F)) adm (pdats m ρ) defs₀ 𝒱₀ L lv 2
    launch2.win launch2.block_pos launch2.stage_whole launch2.arr_whole
    (fun c => (body_obligation2 (Vin2 m ρ) c).loose)
    (fun _ _ => rfl) (fun _ => rfl) (fun c => (pdats m ρ 2 c).share_full fun _ => rfl)
    (W3 m ρ) (W4 m ρ) (fun _ _ => rfl) (hF2 m ρ) (hrest2 m ρ)
    (fun c => hin2 (Vin2 m ρ) c) (fun c => hout2 (Vin2 m ρ) c)

/-- The program's five segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .host (hseg hostOps3 hostOps3_sub hostOps3_fresh (W4 m ρ)) ]
theorem main_run (c : Dev nD) : main (F := F) c = Pipeline.Seg.run (segs m ρ) := (main_chain c).trans (by chain_rfl)

/-! ## The run -/

set_option backward.isDefEq.respectTransparency.types false in
/-- From any memory with zero counters every weakly fair execution of the program terminates, nothing faulting,
    and every final state has every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ iprop((∃ r, prngReg c r) ∗ ∃ W, owes (c : Thread nD τ) (0 : CellTallies nD τ sig Unit) W))
        ⊢ (iprop(Tₙ m ρ c ∗ ∃ W, owes (c : Thread nD τ) (0 : CellTallies nD τ sig Unit) W) : sProp 𝕄)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- The frame: both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W5_main_arg0 m ρ c),
     (h c _ (mem_uc main_arg1 (by decide))).trans (W5_main_arg1 m ρ c)⟩) (run_all m ρ)

end Cert.KernelIdeal.Hand

end
-- ==== Proof.Spec.lean ====
/-
  The function both programs compute, on the extended reals.

  An array of rows of 4096 entries is quantised group by group: each row is cut into 32 groups of 128 consecutive
  entries; a group's scale is its largest absolute value divided by 127, replaced by 1 when that quotient is 0; an
  entry becomes (its quotient by its group's scale, rounded to the nearest integer, ties to even) times that scale.
  The result is the product of the quantised activations, 8192 rows, with the transpose of the quantised weights,
  4096 rows: entry (r, n) is the sum over the 4096 columns k of the two quantised entries (r, k) and (n, k).
  Everything is stated over plain functions of row and column numbers, so that no program is mentioned here.
-/
import Idealize.ShloMosaic.PureOps.Ideal
import Idealize.ShloMosaic.Lib.ValueIdx

noncomputable section

namespace Cert.Spec

open Idealize.ShloMosaic

/-- The largest absolute value of a group of 128 entries: the maximum, from minus infinity, of |g k|. -/
def gmax (g : Fin 128 → EReal) : EReal :=
  (Finset.univ : Finset (Fin 128)).fold max (FloatOps.ofBits (F := Ideal) .f32 0xFF800000#32)
    (fun k => FloatOps.absf (F := Ideal) (φ := .f32) (g k))

/-- A group's scale: its largest absolute value over 127, or 1 when that quotient is 0. -/
def scaleOf (g : Fin 128 → EReal) : EReal :=
  Scalar.select
    (FloatOps.cmpf (F := Ideal) (φ := .f32) .oeq
      (FloatOps.divf (F := Ideal) (φ := .f32) (gmax g) (FloatOps.ofBits (F := Ideal) .f32 0x42FE0000#32))
      (FloatOps.ofBits (F := Ideal) .f32 0x00000000#32))
    (FloatOps.ofBits (F := Ideal) .f32 0x3F800000#32)
    (FloatOps.divf (F := Ideal) (φ := .f32) (gmax g) (FloatOps.ofBits (F := Ideal) .f32 0x42FE0000#32))

/-- One entry x of a group g, quantised and rescaled: round (x / scale) · scale. -/
def qd1 (g : Fin 128 → EReal) (x : EReal) : EReal :=
  FloatOps.mulf (F := Ideal) (φ := .f32)
    (FloatOps.roundeven (F := Ideal) (φ := .f32) (FloatOps.divf (F := Ideal) (φ := .f32) x (scaleOf g))) (scaleOf g)

/-- Column k's group in a row of 4096 entries: the 128 consecutive columns starting at 128 · (k / 128). -/
def groupOf (row : Fin 4096 → EReal) (k : Fin 4096) : Fin 128 → EReal :=
  fun j => row ⟨128 * (k.val / 128) + j.val, by omega⟩

/-- The quantised array: entry (r, k) against the group of row r that column k lies in. -/
def qd {R : ℕ} (a : Fin R → Fin 4096 → EReal) (r : Fin R) (k : Fin 4096) : EReal :=
  qd1 (groupOf (a r) k) (a r k)

/-- The result: quantised activations times the transpose of the quantised weights. -/
def result (x : Fin 8192 → Fin 4096 → EReal) (w : Fin 4096 → Fin 4096 → EReal) (r : Fin 8192) (n : Fin 4096) : EReal :=
  ∑ k : Fin 4096, qd x r k * qd w n k

/-! ## Arrays as functions of a row number and a column number -/

/-- A [4, 2048, 4096] array as 8192 rows of 4096 columns: row r is entry (r / 2048, r % 2048). -/
def rows3 (x : (⟨3, ![4, 2048, 4096]⟩ : Shape).Idx → EReal) : Fin 8192 → Fin 4096 → EReal :=
  fun r k => x (ValueIdx.ix3 (⟨r.val / 2048, by omega⟩ : Fin 4) (⟨r.val % 2048, by omega⟩ : Fin 2048) k)

/-- An [R, 4096] array as R rows of 4096 columns. -/
def rows2 {R : ℕ} (x : (⟨2, ![R, 4096]⟩ : Shape).Idx → EReal) : Fin R → Fin 4096 → EReal :=
  fun r k => x (ValueIdx.ix2 r k)

/-- The row number of entry (b, s) of a [4, 2048, ·] array. -/
def rowOf (b : Fin 4) (s : Fin 2048) : Fin 8192 := ⟨2048 * b.val + s.val, by omega⟩

end Cert.Spec

end
-- ==== Proof.LibColumn.lean ====
/-
  A column kept beside an array: the two layout steps of a row-wise reduction with its axis kept.

  A vector of length a regarded as an a × 1 column reads, at (i, u), the vector at i; an a × 1 column broadcast
  across b columns reads, at (p, c), the column at p. Both hold for every a and b (a = 1 and b = 1 included:
  the unit coordinate is then the only one there is). Indices are written with the literal-extent constructors
  ix1, ix2, so that the statements apply by unification to a term written the same way.
-/
import Idealize.ShloMosaic.Lib.Pipeline.Value
import Idealize.ShloMosaic.Lib.ValueIdx

namespace Cert.LibColumn

open Idealize.ShloMosaic Idealize.ShloMosaic.ValueIdx

variable {α : Type}

/-- A vector of length `a` cast to an `a × 1` column reads, at `(i, u)`, the vector at `i`, whatever the unit
    coordinate `u`. Every `a`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(p, c)`, the column at `p`. Every `a` and `b`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KI.QuantSlice.lean ====
/-
  One slice of the two quantising kernels, as a function of the 512 × 128 block it loads.

  Each of a body's 32 slices computes the same thing from its load g: per row p the largest absolute value of the
  row's 128 entries, that over 127, replaced by 1 where the quotient is 0 (the row's scale, kept as a 512 × 1
  column); then, entry by entry, the entry over its row's scale, rounded to the nearest integer (ties to even),
  times the scale; the result changes format to bf16, which on the extended reals is the identity. Here that
  computation is written once, generic in the float instance — with and without the cast of the load to its own
  shape that one of the two kernels prints first, which changes nothing —, and at the extended reals it is read at
  an index: entry (p, j) is the specification's one-entry function of row p of g and of g (p, j).
-/
import proofs.«161446_j85761906967213_2_alg».proof.Proof.Gen.KernelIdeal
import proofs.«161446_j85761906967213_2_alg».proof.Proof.Spec
import proofs.«161446_j85761906967213_2_alg».proof.Proof.LibColumn
import Idealize.ShloMosaic.PureOps.Ideal.Laws
import Idealize.ShloMosaic.Lib.ValueIdx
import Idealize.ShloMosaic.Lib.Pipeline.Value

noncomputable section

namespace Cert.KernelIdeal.HandValue

open Cert.KernelIdeal Cert.KernelIdeal.Gen Idealize.ShloMosaic Idealize.ShloMosaic.ValueIdx

variable {F : FTy → Type} [FloatOps F]

/-- A slice's column of row scales: per row the largest absolute value over 127, or 1 where that quotient is 0. -/
def sliceScaleOf (v4 : FVec F S512x128 .f32) : FVec F S512x1 .f32 :=
  have v5 : FVec F S512x128 .f32 := absf v4
  have v6 : FVec F S512 .f32 := multiReduction .maximumf [1] S512 v5 0xFF800000#32 reduces_S512x128_S512 (.inl rfl) rfl
  have v7 : FVec F S512x1 .f32 := shapeCast S512x1 v6 shapeCasts_S512_S512x1
  have cst_0 : F .f32 := Scalar.ofBits .f32 0x42FE0000#32
  have v8 : FVec F S512x1 .f32 := broadcast S512x1 cst_0
  have v9 : FVec F S512x1 .f32 := divf v7 v8
  have cst_1 : F .f32 := Scalar.ofBits .f32 0x00000000#32
  have v10 : FVec F S512x1 .f32 := broadcast S512x1 cst_1
  have v11 : IVec S512x1 1 := cmpf .oeq v9 v10
  have cst_2 : F .f32 := Scalar.ofBits .f32 0x3F800000#32
  have v12 : FVec F S512x1 .f32 := broadcast S512x1 cst_2
  select v11 v12 v9

/-- A slice's stored value: each entry over its row's scale, rounded, times the scale, in bf16. -/
def sliceQOf (v4 : FVec F S512x128 .f32) : FVec F S512x128 .bf16 :=
  have v13 : FVec F S512x1 .f32 := sliceScaleOf v4
  have v14 : FVec F S512x128 .f32 := broadcastTo S512x128 v13 broadcasts_S512x1_S512x128
  have v15 : FVec F S512x128 .f32 := divf v4 v14
  have v16 : FVec F S512x128 .f32 := roundeven v15
  have v17 : FVec F S512x128 .f32 := broadcastTo S512x128 v13 broadcasts_S512x1_S512x128
  have v18 : FVec F S512x128 .f32 := mulf v16 v17
  truncf .bf16 v18 bitsLt_bf16_f32

/-- The same after a cast of the load to its own shape. -/
def sliceQ (g : Vec F S512x128 .f32) : FVec F S512x128 .bf16 :=
  sliceQOf (shapeCast S512x128 g shapeCasts_S512x128_S512x128)

/-- The cast changes nothing. -/
theorem sliceQ_eq (g : Vec F S512x128 .f32) : sliceQ g = sliceQOf g :=
  congrArg sliceQOf (shapeCast_self g shapeCasts_S512x128_S512x128)

/-! ## At the extended reals -/

/-- The maximum over a row's 128 columns of the absolute values, from minus infinity, is the specification's
    group maximum of that row. The reduction's two proof arguments are taken as they come. -/
theorem rowMax_apply (g : FVec Ideal S512x128 .f32) (h : S512x128.Reduces [1] S512) (hφ : FKind.Formats .f32)
    (hacc : (0xFF800000#32 : BitVec 32) = FKind.maximumf.neutral .f32 hφ) (p : Fin 512) :
    multiReduction .maximumf [1] S512 (absf g) 0xFF800000#32 h hφ hacc (ix1 p)
      = Cert.Spec.gmax (fun j' => g (ix2 p j')) := by
  refine (Ideal.multiReduction_maximumf_single (absf g) 0xFF800000#32 h hφ hacc (ix1 p)).trans ?_
  unfold Cert.Spec.gmax
  refine congrArg (fun f => (Finset.univ : Finset (Fin 128)).fold max (FloatOps.ofBits (F := Ideal) .f32 0xFF800000#32) f) ?_
  funext k
  show FloatOps.absf (F := Ideal) (φ := .f32) (g (h.lift (ix1 p) k)) = FloatOps.absf (F := Ideal) (φ := .f32) (g (ix2 p k))
  refine congrArg (fun i => FloatOps.absf (F := Ideal) (φ := .f32) (g i)) ?_
  funext c
  match c with
  | ⟨0, _⟩ => rfl
  | ⟨1, _⟩ => rfl

/-- Row p's scale in a slice is the specification's scale of that row. -/
theorem sliceScaleOf_apply (g : FVec Ideal S512x128 .f32) (p : Fin 512) :
    sliceScaleOf (F := Ideal) g (ix2 p (0 : Fin 1)) = Cert.Spec.scaleOf (fun j' => g (ix2 p j')) := by
  have hmax : shapeCast S512x1 (multiReduction (F := Ideal) .maximumf [1] S512 (absf (F := Ideal) g)
        0xFF800000#32 reduces_S512x128_S512 (.inl rfl) rfl) shapeCasts_S512_S512x1 (ix2 p (0 : Fin 1))
      = Cert.Spec.gmax (fun j' => g (ix2 p j')) :=
    (Cert.LibColumn.shapeCast_a_a1_apply _ shapeCasts_S512_S512x1 p 0).trans (rowMax_apply g _ _ _ p)
  exact congrArg (fun m : EReal => Scalar.select
    (FloatOps.cmpf (F := Ideal) (φ := .f32) .oeq
      (FloatOps.divf (F := Ideal) (φ := .f32) m (FloatOps.ofBits (F := Ideal) .f32 0x42FE0000#32))
      (FloatOps.ofBits (F := Ideal) .f32 0x00000000#32))
    (FloatOps.ofBits (F := Ideal) .f32 0x3F800000#32)
    (FloatOps.divf (F := Ideal) (φ := .f32) m (FloatOps.ofBits (F := Ideal) .f32 0x42FE0000#32))) hmax

/-- A slice's stored value at (p, j): the specification's one-entry function of row p and the entry. -/
theorem sliceQOf_apply (g : FVec Ideal S512x128 .f32) (p : Fin 512) (j : Fin 128) :
    sliceQOf (F := Ideal) g (ix2 p j) = Cert.Spec.qd1 (fun j' => g (ix2 p j')) (g (ix2 p j)) := by
  have hb : broadcastTo S512x128 (sliceScaleOf (F := Ideal) g) broadcasts_S512x1_S512x128 (ix2 p j)
      = Cert.Spec.scaleOf (fun j' => g (ix2 p j')) :=
    (Cert.LibColumn.broadcastTo_a1_ab_apply _ broadcasts_S512x1_S512x128 p j).trans (sliceScaleOf_apply g p)
  show FloatOps.mulf (F := Ideal) (φ := .f32)
      (FloatOps.roundeven (F := Ideal) (φ := .f32) (FloatOps.divf (F := Ideal) (φ := .f32)
        (g (ix2 p j))
        (broadcastTo S512x128 (sliceScaleOf (F := Ideal) g) broadcasts_S512x1_S512x128 (ix2 p j))))
      (broadcastTo S512x128 (sliceScaleOf (F := Ideal) g) broadcasts_S512x1_S512x128 (ix2 p j)) = _
  rw [hb]
  rfl

/-- The same for the cast form. -/
theorem sliceQ_apply (g : Vec Ideal S512x128 .f32) (p : Fin 512) (j : Fin 128) :
    sliceQ (F := Ideal) g (ix2 p j) = Cert.Spec.qd1 (fun j' => g (ix2 p j')) (g (ix2 p j)) :=
  (congrFun (sliceQ_eq g) (ix2 p j)).trans (sliceQOf_apply g p j)

end Cert.KernelIdeal.HandValue

end
-- ==== Proof.KI.QuantPiece.lean ====
/-
  One stored piece of a quantising kernel's body against the whole block.

  The body fills its 512 × 4096 output block by 32 stores; store s writes, at columns 128 s … 128 s + 127 of every
  row, the slice function of the 512 × 128 part of the input block at the same place. Such a piece is the block's
  quantised array restricted to its rectangle: row p of the part is group s of row p of the block, and column
  128 s + j lies in group s, since 128 · ((128 s + j) / 128) = 128 s for j < 128. Also here: the quantised array as
  a function of the array's index, and the fact that a row's quantised entries read that row only.
-/
import proofs.«161446_j85761906967213_2_alg».proof.Proof.KI.QuantSlice
import Idealize.ShloMosaic.Lib.Pipeline.Value

noncomputable section

namespace Cert.KernelIdeal.HandValue

open Cert.KernelIdeal Cert.KernelIdeal.Gen Idealize.ShloMosaic Idealize.ShloMosaic.ValueIdx

/-- The quantised array of an array of R rows of 4096 columns, as a function of the array's index. -/
def quantOf {R : ℕ} (x : (⟨2, ![R, 4096]⟩ : Shape).Idx → EReal) : (⟨2, ![R, 4096]⟩ : Shape).Idx → EReal :=
  fun y => Cert.Spec.qd (Cert.Spec.rows2 x) ⟨(y 0).val, idx2_lt0 y⟩ ⟨(y 1).val, idx2_lt1 y⟩

/-- At row r and column k it is the specification's entry (r, k). -/
theorem quantOf_ix2 {R : ℕ} (x : (⟨2, ![R, 4096]⟩ : Shape).Idx → EReal) (r : Fin R) (k : Fin 4096) :
    quantOf x (ix2 r k) = Cert.Spec.qd (Cert.Spec.rows2 x) r k := rfl

/-- A row's quantised entries only read that row: if row P of X is row R of A, their quantised entries agree. -/
theorem qd_rows_shift {m n : ℕ} (X : (⟨2, ![m, 4096]⟩ : Shape).Idx → EReal) (A : (⟨2, ![n, 4096]⟩ : Shape).Idx → EReal)
    (P : Fin m) (R : Fin n) (hX : ∀ k : Fin 4096, X (ix2 P k) = A (ix2 R k)) (Q : Fin 4096) :
    Cert.Spec.qd (Cert.Spec.rows2 X) P Q = Cert.Spec.qd (Cert.Spec.rows2 A) R Q := by
  unfold Cert.Spec.qd Cert.Spec.groupOf Cert.Spec.rows2
  simp only [hX]

/-- Column o + j of a row of 4096, for a group of 128 columns that starts at o. -/
def colAt (o : ℕ) (ho : o + 128 ≤ 4096) (j : Fin 128) : Fin 4096 := ⟨o + j.val, by omega⟩

/-- The specification's entry (P, K) of a block, for K = o + j in the group that starts at column o = 128 s: the
    one-entry function of the 128 entries of row P from column o on. -/
theorem qd_of_group (x0 : S512x4096.Idx → EReal) (o s : ℕ) (hs : o = 128 * s) (ho : o + 128 ≤ 4096) (p : Fin 512) (j : Fin 128)
    (P : Fin 512) (K : Fin 4096) (hP : P.val = p.val) (hK : K.val = o + j.val) :
    Cert.Spec.qd (Cert.Spec.rows2 x0) P K
      = Cert.Spec.qd1 (fun j' : Fin 128 => x0 (ix2 p (colAt o ho j'))) (x0 (ix2 p (colAt o ho j))) := by
  obtain rfl : P = p := Fin.ext hP
  obtain rfl : K = colAt o ho j := Fin.ext hK
  have hg : 128 * ((o + j.val) / 128) = o := by subst hs; omega
  unfold Cert.Spec.qd Cert.Spec.groupOf Cert.Spec.rows2
  refine congrArg (fun g : Fin 128 → EReal => Cert.Spec.qd1 g (x0 (ix2 P (colAt o ho j)))) ?_
  funext j'
  refine congrArg (fun k : Fin 4096 => x0 (ix2 P k)) (Fin.ext ?_)
  show 128 * ((o + j.val) / 128) + j'.val = o + j'.val
  rw [hg]

/-- A piece stored at columns o … o + 127 (o = 128 s) with the slice function of the input block's part there is the
    block's quantised array on its rectangle. -/
theorem piece_spec (x0 : Vec Ideal S512x4096 .f32) (o s : ℕ) (hs : o = 128 * s)
    (inb : ∀ a, (![0, o] : Fin 2 → ℕ) a + (![512, 128] : Fin 2 → ℕ) a ≤ S512x4096.size a)
    (w : FVec Ideal S512x128 .bf16)
    (hw : w = sliceQOf (F := Ideal) (View.ld (Val := Elt Ideal) (e' := .f32) x0 (Rect.unit (s := S512x4096) ![0, o] ![512, 128] inb)))
    (x : S512x128.Idx) :
    w x = quantOf (x0 : S512x4096.Idx → EReal) ((Rect.unit (s := S512x4096) ![0, o] ![512, 128] inb).emb x) := by
  subst hw
  obtain ⟨p, j, rfl⟩ : ∃ (p : Fin 512) (j : Fin 128), x = ix2 p j := ⟨x 0, x 1, eq_ix2 x⟩
  have ho : o + 128 ≤ 4096 := inb 1
  have hidx : ∀ j' : Fin 128, (Rect.unit (s := S512x4096) ![0, o] ![512, 128] inb).idx (ix2 p j') = ix2 p (colAt o ho j') :=
    fun j' => funext fun a => Fin.ext (by
      match a with
      | ⟨0, _⟩ => show 0 + 1 * p.val = p.val; omega
      | ⟨1, _⟩ => show o + 1 * j'.val = o + j'.val; omega)
  have hld : ∀ j' : Fin 128, View.ld (Val := Elt Ideal) (e' := .f32) x0 (Rect.unit (s := S512x4096) ![0, o] ![512, 128] inb) (ix2 p j')
      = x0 (ix2 p (colAt o ho j')) := fun j' => by exact congrArg x0 (hidx j')
  refine (sliceQOf_apply _ p j).trans ?_
  rw [hld j, funext hld]
  exact (qd_of_group x0 o s hs ho p j _ _ (by show 0 + 1 * p.val = p.val; omega) (by show o + 1 * j.val = o + j.val; omega)).symm

/-- The same for a piece stored with the cast form of the slice function. -/
theorem piece_spec0 (x0 : Vec Ideal S512x4096 .f32) (o s : ℕ) (hs : o = 128 * s)
    (inb : ∀ a, (![0, o] : Fin 2 → ℕ) a + (![512, 128] : Fin 2 → ℕ) a ≤ S512x4096.size a)
    (w : FVec Ideal S512x128 .bf16)
    (hw : w = sliceQ (F := Ideal) (View.ld (Val := Elt Ideal) (e' := .f32) x0 (Rect.unit (s := S512x4096) ![0, o] ![512, 128] inb)))
    (x : S512x128.Idx) :
    w x = quantOf (x0 : S512x4096.Idx → EReal) ((Rect.unit (s := S512x4096) ![0, o] ![512, 128] inb).emb x) :=
  piece_spec x0 o s hs inb w (hw.trans (sliceQ_eq _)) x

end Cert.KernelIdeal.HandValue

end
-- ==== Proof.KI.QuantValue0.lean ====
/-
  The first quantising kernel at the extended reals: what its body leaves in the output block, and what the output
  array holds after the region.

  The body's 32 stores are the pieces its symbolic run found; each is the slice function of the input block's part
  under the store's rectangle, hence the block's quantised array there, and the pieces cover the block: the block
  the body leaves is the quantised array of the input block. Point t of the grid writes that block back at rows
  512 t … 512 t + 511 of the output array, and the quantised array of a block of rows is the quantised array of the
  whole array on those rows, since an entry's group lies in its own row: the output array ends as the quantised
  input array.
-/
import proofs.«161446_j85761906967213_2_alg».proof.Proof.KI.Quant0
import proofs.«161446_j85761906967213_2_alg».proof.Proof.KI.QuantPiece
import Idealize.ShloMosaic.Lib.Pipeline.Value
import Idealize.ShloMosaic.Lib.Tactic

noncomputable section

namespace Cert.KernelIdeal.HandValue

open Cert.KernelIdeal Cert.KernelIdeal.Gen Cert.KernelIdeal.Hand Idealize.ShloMosaic Idealize.ShloMosaic.ValueIdx
open Idealize.ShloMosaic.TcCoe
open Idealize.ShloMosaic.Tactic
open Idealize.ShloMosaic.Pipeline (Dat)

/-! ## The block the body leaves -/

set_option maxRecDepth 65536 in
/-- Every piece of the run is the input block's quantised array on its rectangle. -/
theorem pieces0 (c : Dev nD) (i : grid0.Coords) (arg1 : Memref sig .tc .vmem S512x4096 .f32) (harg1 : arg1.IsWhole)
    (arg2 : Memref sig .tc .vmem S512x4096 .bf16) (harg2 : arg2.IsWhole) (x0 : Vec Ideal S512x4096 .f32) :
    ∀ pc ∈ (kernelRun0 (F := Ideal) c i arg1 harg1 arg2 harg2 x0).1, ∀ x : pc.1.shape.Idx,
      pc.2 x = quantOf (x0 : S512x4096.Idx → EReal) (pc.1.emb x) := by
  unfold kernelRun0
  dsimp only
  sl_unfold_words
  simp only [View.readAt_eq_ld, harg1.read_unread]
  refine List.forall_mem_cons.2 ⟨fun x => piece_spec0 x0 3968 31 rfl _ _ rfl x, ?_⟩
  refine List.forall_mem_cons.2 ⟨fun x => piece_spec0 x0 3840 30 rfl _ _ rfl x, ?_⟩
  refine List.forall_mem_cons.2 ⟨fun x => piece_spec0 x0 3712 29 rfl _ _ rfl x, ?_⟩
  refine List.forall_mem_cons.2 ⟨fun x => piece_spec0 x0 3584 28 rfl _ _ rfl x, ?_⟩
  refine List.forall_mem_cons.2 ⟨fun x => piece_spec0 x0 3456 27 rfl _ _ rfl x, ?_⟩
  refine List.forall_mem_cons.2 ⟨fun x => piece_spec0 x0 3328 26 rfl _ _ rfl x, ?_⟩
  refine List.forall_mem_cons.2 ⟨fun x => piece_spec0 x0 3200 25 rfl _ _ rfl x, ?_⟩
  refine List.forall_mem_cons.2 ⟨fun x => piece_spec0 x0 3072 24 rfl _ _ rfl x, ?_⟩
  refine List.forall_mem_cons.2 ⟨fun x => piece_spec0 x0 2944 23 rfl _ _ rfl x, ?_⟩
  refine List.forall_mem_cons.2 ⟨fun x => piece_spec0 x0 2816 22 rfl _ _ rfl x, ?_⟩
  refine List.forall_mem_cons.2 ⟨fun x => piece_spec0 x0 2688 21 rfl _ _ rfl x, ?_⟩
  refine List.forall_mem_cons.2 ⟨fun x => piece_spec0 x0 2560 20 rfl _ _ rfl x, ?_⟩
  refine List.forall_mem_cons.2 ⟨fun x => piece_spec0 x0 2432 19 rfl _ _ rfl x, ?_⟩
  refine List.forall_mem_cons.2 ⟨fun x => piece_spec0 x0 2304 18 rfl _ _ rfl x, ?_⟩
  refine List.forall_mem_cons.2 ⟨fun x => piece_spec0 x0 2176 17 rfl _ _ rfl x, ?_⟩
  refine List.forall_mem_cons.2 ⟨fun x => piece_spec0 x0 2048 16 rfl _ _ rfl x, ?_⟩
  refine List.forall_mem_cons.2 ⟨fun x => piece_spec0 x0 1920 15 rfl _ _ rfl x, ?_⟩
  refine List.forall_mem_cons.2 ⟨fun x => piece_spec0 x0 1792 14 rfl _ _ rfl x, ?_⟩
  refine List.forall_mem_cons.2 ⟨fun x => piece_spec0 x0 1664 13 rfl _ _ rfl x, ?_⟩
  refine List.forall_mem_cons.2 ⟨fun x => piece_spec0 x0 1536 12 rfl _ _ rfl x, ?_⟩
  refine List.forall_mem_cons.2 ⟨fun x => piece_spec0 x0 1408 11 rfl _ _ rfl x, ?_⟩
  refine List.forall_mem_cons.2 ⟨fun x => piece_spec0 x0 1280 10 rfl _ _ rfl x, ?_⟩
  refine List.forall_mem_cons.2 ⟨fun x => piece_spec0 x0 1152 9 rfl _ _ rfl x, ?_⟩
  refine List.forall_mem_cons.2 ⟨fun x => piece_spec0 x0 1024 8 rfl _ _ rfl x, ?_⟩
  refine List.forall_mem_cons.2 ⟨fun x => piece_spec0 x0 896 7 rfl _ _ rfl x, ?_⟩
  refine List.forall_mem_cons.2 ⟨fun x => piece_spec0 x0 768 6 rfl _ _ rfl x, ?_⟩
  refine List.forall_mem_cons.2 ⟨fun x => piece_spec0 x0 640 5 rfl _ _ rfl x, ?_⟩
  refine List.forall_mem_cons.2 ⟨fun x => piece_spec0 x0 512 4 rfl _ _ rfl x, ?_⟩
  refine List.forall_mem_cons.2 ⟨fun x => piece_spec0 x0 384 3 rfl _ _ rfl x, ?_⟩
  refine List.forall_mem_cons.2 ⟨fun x => piece_spec0 x0 256 2 rfl _ _ rfl x, ?_⟩
  refine List.forall_mem_cons.2 ⟨fun x => piece_spec0 x0 128 1 rfl _ _ rfl x, ?_⟩
  refine List.forall_mem_cons.2 ⟨fun x => piece_spec0 x0 0 0 rfl _ _ rfl x, ?_⟩
  exact fun _ h => absurd h List.not_mem_nil

/-- The block the body leaves, entry by entry: the specification's quantised entry of the input block. -/
theorem out0_1_apply (c : Dev nD) (i : grid0.Coords) (arg1 : Memref sig .tc .vmem S512x4096 .f32) (harg1 : arg1.IsWhole)
    (arg2 : Memref sig .tc .vmem S512x4096 .bf16) (harg2 : arg2.IsWhole) (x0 : Vec Ideal S512x4096 .f32)
    (p : Fin 512) (q : Fin 4096) :
    out0_1 (F := Ideal) c i arg1 harg1 arg2 harg2 x0 (ix2 p q) = Cert.Spec.qd (Cert.Spec.rows2 x0) p q := by
  unfold out0_1
  rw [View.read_writes_junk_eq_canon]
  exact (View.canon_apply_of_pieces (quantOf (x0 : S512x4096.Idx → EReal)) _ (pieces0 c i arg1 harg1 arg2 harg2 x0) (ix2 p q)
    (cover0_1 c i arg1 harg1 arg2 harg2 x0 (ix2 p q))).trans (quantOf_ix2 _ p q)

/-! ## From blocks to the array -/

variable (V : (c : Dev nD) → (b : Ref sig .tc) → Buf (Elt Ideal) ((c : Thread nD τ).loc b))

/-- The index maps over the grid: at point t both windows' block is row block t, column block 0. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- An entry of the input block at point t is the input array's entry 512 t rows further down. -/
theorem iblk0_apply (c : Dev nD) (t : Fin cfg0.N) (p : Fin 512) (k : Fin 4096) (r : Fin 8192) (hr : r.val = 512 * t.val + p.val) :
    (iblk0 V c 0 t : Vec Ideal S512x4096 .f32) (ix2 p k) = (V c main_v0 : S8192x4096.Idx → EReal) (ix2 r k) := by
  obtain ⟨e0, e1, -, -⟩ := idx_facts0 t
  unfold iblk0
  rw [View.read_apply]
  show V c main_v0 _ = V c main_v0 _
  refine congrArg (V c main_v0) (funext fun a => Fin.ext ?_)
  match a with
  | ⟨0, _⟩ => show win0_0.index t (0 : Fin 2) * 512 + 1 * p.val = r.val; rw [e0, hr]; omega
  | ⟨1, _⟩ => show win0_0.index t (1 : Fin 2) * 4096 + 1 * k.val = k.val; rw [e1]; omega

/-- What point t writes back is block t of the quantised input array. -/
theorem flushed0_eq (c : Dev nD) (t : Fin cfg0.N) :
    (dat0 (F := Ideal) V c).flushed 1 t
      = ((cfg0.win 1).blk t).view.read (Elt Ideal) (quantOf (V c main_v0 : S8192x4096.Idx → EReal)) := by
  show (cfg0.win 1).cut (grid0.coords t) ((dat0 (F := Ideal) V c).after 1 t) = _
  rw [after0_1]
  obtain ⟨-, -, e2, e3⟩ := idx_facts0 t
  have ht : t.val < 16 := t.isLt.trans_eq N_0
  funext y
  have hy0 : (y 0).val < 512 := (y 0).isLt
  have hy1 : (y 1).val < 4096 := (y 1).isLt
  have e1 : ((cfg0.win 1).xinj (grid0.coords t) y : S512x4096.Idx) = ix2 (⟨(y 0).val, hy0⟩ : Fin 512) (⟨(y 1).val, hy1⟩ : Fin 4096) :=
    funext fun a => Fin.ext (by
      match a with
      | ⟨0, _⟩ => rfl
      | ⟨1, _⟩ => rfl)
  have eb : (((cfg0.win 1).blk t).view.emb y : S8192x4096.Idx)
      = ix2 (⟨512 * t.val + (y 0).val, by omega⟩ : Fin 8192) (⟨(y 1).val, hy1⟩ : Fin 4096) :=
    funext fun a => Fin.ext (by
      match a with
      | ⟨0, _⟩ => show win0_1.index t (0 : Fin 2) * 512 + 1 * (y 0).val = 512 * t.val + (y 0).val; rw [e2]; omega
      | ⟨1, _⟩ => show win0_1.index t (1 : Fin 2) * 4096 + 1 * (y 1).val = (y 1).val; rw [e3]; omega)
  show out0_1 (F := Ideal) c (grid0.coords t) (ms0_0 t) (hs0_0 t) (ms0_1 t) (hs0_1 t) (iblk0 V c 0 t) ((cfg0.win 1).xinj (grid0.coords t) y)
      = quantOf (V c main_v0 : S8192x4096.Idx → EReal) (((cfg0.win 1).blk t).view.emb y)
  refine (congrArg (out0_1 (F := Ideal) c (grid0.coords t) (ms0_0 t) (hs0_0 t) (ms0_1 t) (hs0_1 t) (iblk0 V c 0 t)) e1).trans ?_
  refine Eq.trans ?_ (congrArg (quantOf (V c main_v0 : S8192x4096.Idx → EReal)) eb).symm
  refine (out0_1_apply c (grid0.coords t) (ms0_0 t) (hs0_0 t) (ms0_1 t) (hs0_1 t) (iblk0 V c 0 t) _ _).trans ?_
  refine Eq.trans ?_ (quantOf_ix2 _ _ _).symm
  exact qd_rows_shift _ _ _ _ (fun k => iblk0_apply V c t _ k _ rfl) _

/-- The output array after the region: the quantised input array. -/
theorem arr0_eq (c : Dev nD) :
    (dat0 (F := Ideal) V c).arrAt 1 cfg0.N = quantOf (V c main_v0 : S8192x4096.Idx → EReal) :=
  (dat0 (F := Ideal) V c).arrAt_eq_of_cover 1 (quantOf (V c main_v0 : S8192x4096.Idx → EReal)) (fun t _ => flushed0_eq V c t) fun i => by
    have hi0 : (i 0).val < 8192 := (i 0).isLt
    have hi1 : (i 1).val < 4096 := (i 1).isLt
    have hN : grid0.N = 16 := N_0
    have htlt : (i 0).val / 512 < grid0.N := by omega
    refine ⟨⟨(i 0).val / 512, htlt⟩, flush0_1 _, ?_⟩
    obtain ⟨-, -, e2, e3⟩ := idx_facts0 ⟨(i 0).val / 512, htlt⟩
    show i ∈ ((View.whole main_v1).slice (win0_1.rect ⟨(i 0).val / 512, htlt⟩)).set
    rw [View.set_slice_whole, Rect.mem_set_unit]
    intro a
    match a with
    | ⟨0, _⟩ =>
      show win0_1.index ⟨(i 0).val / 512, htlt⟩ (0 : Fin 2) * 512 ≤ (i 0).val ∧ (i 0).val < win0_1.index ⟨(i 0).val / 512, htlt⟩ (0 : Fin 2) * 512 + 512
      rw [e2]; show (i 0).val / 512 * 512 ≤ (i 0).val ∧ (i 0).val < (i 0).val / 512 * 512 + 512; omega
    | ⟨1, _⟩ =>
      show win0_1.index ⟨(i 0).val / 512, htlt⟩ (1 : Fin 2) * 4096 ≤ (i 1).val ∧ (i 1).val < win0_1.index ⟨(i 0).val / 512, htlt⟩ (1 : Fin 2) * 4096 + 4096
      rw [e3]; omega

/-- Entry (r, k) of the output array after the region: the specification's quantised entry of the input array. -/
theorem arr0_apply (c : Dev nD) (r : Fin 8192) (k : Fin 4096) :
    ((dat0 (F := Ideal) V c).arrAt 1 cfg0.N : S8192x4096.Idx → EReal) (ix2 r k)
      = Cert.Spec.qd (Cert.Spec.rows2 (V c main_v0 : S8192x4096.Idx → EReal)) r k :=
  (congrFun (arr0_eq V c) (ix2 r k)).trans (quantOf_ix2 _ r k)

end Cert.KernelIdeal.HandValue

end
-- ==== Proof.KI.QuantValue1.lean ====
/-
  The second quantising kernel at the extended reals: what its body leaves in the output block, and what the output
  array holds after the region.

  The body's 32 stores are the pieces its symbolic run found; each is the slice function of the input block's part
  under the store's rectangle, hence the block's quantised array there, and the pieces cover the block: the block
  the body leaves is the quantised array of the input block. Point t of the grid writes that block back at rows
  512 t … 512 t + 511 of the output array, and the quantised array of a block of rows is the quantised array of the
  whole array on those rows, since an entry's group lies in its own row: the output array ends as the quantised
  input array.
-/
import proofs.«161446_j85761906967213_2_alg».proof.Proof.KI.Quant1
import proofs.«161446_j85761906967213_2_alg».proof.Proof.KI.QuantPiece
import Idealize.ShloMosaic.Lib.Pipeline.Value
import Idealize.ShloMosaic.Lib.Tactic

noncomputable section

namespace Cert.KernelIdeal.HandValue

open Cert.KernelIdeal Cert.KernelIdeal.Gen Cert.KernelIdeal.Hand Idealize.ShloMosaic Idealize.ShloMosaic.ValueIdx
open Idealize.ShloMosaic.TcCoe
open Idealize.ShloMosaic.Tactic
open Idealize.ShloMosaic.Pipeline (Dat)

/-! ## The block the body leaves -/

set_option maxRecDepth 65536 in
/-- Every piece of the run is the input block's quantised array on its rectangle. -/
theorem pieces1 (c : Dev nD) (i : grid1.Coords) (arg1 : Memref sig .tc .vmem S512x4096 .f32) (harg1 : arg1.IsWhole)
    (arg2 : Memref sig .tc .vmem S512x4096 .bf16) (harg2 : arg2.IsWhole) (x0 : Vec Ideal S512x4096 .f32) :
    ∀ pc ∈ (kernelRun1 (F := Ideal) c i arg1 harg1 arg2 harg2 x0).1, ∀ x : pc.1.shape.Idx,
      pc.2 x = quantOf (x0 : S512x4096.Idx → EReal) (pc.1.emb x) := by
  unfold kernelRun1
  dsimp only
  sl_unfold_words
  simp only [View.readAt_eq_ld, harg1.read_unread]
  refine List.forall_mem_cons.2 ⟨fun x => piece_spec x0 3968 31 rfl _ _ rfl x, ?_⟩
  refine List.forall_mem_cons.2 ⟨fun x => piece_spec x0 3840 30 rfl _ _ rfl x, ?_⟩
  refine List.forall_mem_cons.2 ⟨fun x => piece_spec x0 3712 29 rfl _ _ rfl x, ?_⟩
  refine List.forall_mem_cons.2 ⟨fun x => piece_spec x0 3584 28 rfl _ _ rfl x, ?_⟩
  refine List.forall_mem_cons.2 ⟨fun x => piece_spec x0 3456 27 rfl _ _ rfl x, ?_⟩
  refine List.forall_mem_cons.2 ⟨fun x => piece_spec x0 3328 26 rfl _ _ rfl x, ?_⟩
  refine List.forall_mem_cons.2 ⟨fun x => piece_spec x0 3200 25 rfl _ _ rfl x, ?_⟩
  refine List.forall_mem_cons.2 ⟨fun x => piece_spec x0 3072 24 rfl _ _ rfl x, ?_⟩
  refine List.forall_mem_cons.2 ⟨fun x => piece_spec x0 2944 23 rfl _ _ rfl x, ?_⟩
  refine List.forall_mem_cons.2 ⟨fun x => piece_spec x0 2816 22 rfl _ _ rfl x, ?_⟩
  refine List.forall_mem_cons.2 ⟨fun x => piece_spec x0 2688 21 rfl _ _ rfl x, ?_⟩
  refine List.forall_mem_cons.2 ⟨fun x => piece_spec x0 2560 20 rfl _ _ rfl x, ?_⟩
  refine List.forall_mem_cons.2 ⟨fun x => piece_spec x0 2432 19 rfl _ _ rfl x, ?_⟩
  refine List.forall_mem_cons.2 ⟨fun x => piece_spec x0 2304 18 rfl _ _ rfl x, ?_⟩
  refine List.forall_mem_cons.2 ⟨fun x => piece_spec x0 2176 17 rfl _ _ rfl x, ?_⟩
  refine List.forall_mem_cons.2 ⟨fun x => piece_spec x0 2048 16 rfl _ _ rfl x, ?_⟩
  refine List.forall_mem_cons.2 ⟨fun x => piece_spec x0 1920 15 rfl _ _ rfl x, ?_⟩
  refine List.forall_mem_cons.2 ⟨fun x => piece_spec x0 1792 14 rfl _ _ rfl x, ?_⟩
  refine List.forall_mem_cons.2 ⟨fun x => piece_spec x0 1664 13 rfl _ _ rfl x, ?_⟩
  refine List.forall_mem_cons.2 ⟨fun x => piece_spec x0 1536 12 rfl _ _ rfl x, ?_⟩
  refine List.forall_mem_cons.2 ⟨fun x => piece_spec x0 1408 11 rfl _ _ rfl x, ?_⟩
  refine List.forall_mem_cons.2 ⟨fun x => piece_spec x0 1280 10 rfl _ _ rfl x, ?_⟩
  refine List.forall_mem_cons.2 ⟨fun x => piece_spec x0 1152 9 rfl _ _ rfl x, ?_⟩
  refine List.forall_mem_cons.2 ⟨fun x => piece_spec x0 1024 8 rfl _ _ rfl x, ?_⟩
  refine List.forall_mem_cons.2 ⟨fun x => piece_spec x0 896 7 rfl _ _ rfl x, ?_⟩
  refine List.forall_mem_cons.2 ⟨fun x => piece_spec x0 768 6 rfl _ _ rfl x, ?_⟩
  refine List.forall_mem_cons.2 ⟨fun x => piece_spec x0 640 5 rfl _ _ rfl x, ?_⟩
  refine List.forall_mem_cons.2 ⟨fun x => piece_spec x0 512 4 rfl _ _ rfl x, ?_⟩
  refine List.forall_mem_cons.2 ⟨fun x => piece_spec x0 384 3 rfl _ _ rfl x, ?_⟩
  refine List.forall_mem_cons.2 ⟨fun x => piece_spec x0 256 2 rfl _ _ rfl x, ?_⟩
  refine List.forall_mem_cons.2 ⟨fun x => piece_spec x0 128 1 rfl _ _ rfl x, ?_⟩
  refine List.forall_mem_cons.2 ⟨fun x => piece_spec x0 0 0 rfl _ _ rfl x, ?_⟩
  exact fun _ h => absurd h List.not_mem_nil

/-- The block the body leaves, entry by entry: the specification's quantised entry of the input block. -/
theorem out1_1_apply (c : Dev nD) (i : grid1.Coords) (arg1 : Memref sig .tc .vmem S512x4096 .f32) (harg1 : arg1.IsWhole)
    (arg2 : Memref sig .tc .vmem S512x4096 .bf16) (harg2 : arg2.IsWhole) (x0 : Vec Ideal S512x4096 .f32)
    (p : Fin 512) (q : Fin 4096) :
    out1_1 (F := Ideal) c i arg1 harg1 arg2 harg2 x0 (ix2 p q) = Cert.Spec.qd (Cert.Spec.rows2 x0) p q := by
  unfold out1_1
  rw [View.read_writes_junk_eq_canon]
  exact (View.canon_apply_of_pieces (quantOf (x0 : S512x4096.Idx → EReal)) _ (pieces1 c i arg1 harg1 arg2 harg2 x0) (ix2 p q)
    (cover1_1 c i arg1 harg1 arg2 harg2 x0 (ix2 p q))).trans (quantOf_ix2 _ p q)

/-! ## From blocks to the array -/

variable (V : (c : Dev nD) → (b : Ref sig .tc) → Buf (Elt Ideal) ((c : Thread nD τ).loc b))

/-- The index maps over the grid: at point t both windows' block is row block t, column block 0. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- An entry of the input block at point t is the input array's entry 512 t rows further down. -/
theorem iblk1_apply (c : Dev nD) (t : Fin cfg1.N) (p : Fin 512) (k : Fin 4096) (r : Fin 4096) (hr : r.val = 512 * t.val + p.val) :
    (iblk1 V c 0 t : Vec Ideal S512x4096 .f32) (ix2 p k) = (V c main_arg1 : S4096x4096.Idx → EReal) (ix2 r k) := by
  obtain ⟨e0, e1, -, -⟩ := idx_facts1 t
  unfold iblk1
  rw [View.read_apply]
  show V c main_arg1 _ = V c main_arg1 _
  refine congrArg (V c main_arg1) (funext fun a => Fin.ext ?_)
  match a with
  | ⟨0, _⟩ => show win1_0.index t (0 : Fin 2) * 512 + 1 * p.val = r.val; rw [e0, hr]; omega
  | ⟨1, _⟩ => show win1_0.index t (1 : Fin 2) * 4096 + 1 * k.val = k.val; rw [e1]; omega

/-- What point t writes back is block t of the quantised input array. -/
theorem flushed1_eq (c : Dev nD) (t : Fin cfg1.N) :
    (dat1 (F := Ideal) V c).flushed 1 t
      = ((cfg1.win 1).blk t).view.read (Elt Ideal) (quantOf (V c main_arg1 : S4096x4096.Idx → EReal)) := by
  show (cfg1.win 1).cut (grid1.coords t) ((dat1 (F := Ideal) V c).after 1 t) = _
  rw [after1_1]
  obtain ⟨-, -, e2, e3⟩ := idx_facts1 t
  have ht : t.val < 8 := t.isLt.trans_eq N_1
  funext y
  have hy0 : (y 0).val < 512 := (y 0).isLt
  have hy1 : (y 1).val < 4096 := (y 1).isLt
  have e1 : ((cfg1.win 1).xinj (grid1.coords t) y : S512x4096.Idx) = ix2 (⟨(y 0).val, hy0⟩ : Fin 512) (⟨(y 1).val, hy1⟩ : Fin 4096) :=
    funext fun a => Fin.ext (by
      match a with
      | ⟨0, _⟩ => rfl
      | ⟨1, _⟩ => rfl)
  have eb : (((cfg1.win 1).blk t).view.emb y : S4096x4096.Idx)
      = ix2 (⟨512 * t.val + (y 0).val, by omega⟩ : Fin 4096) (⟨(y 1).val, hy1⟩ : Fin 4096) :=
    funext fun a => Fin.ext (by
      match a with
      | ⟨0, _⟩ => show win1_1.index t (0 : Fin 2) * 512 + 1 * (y 0).val = 512 * t.val + (y 0).val; rw [e2]; omega
      | ⟨1, _⟩ => show win1_1.index t (1 : Fin 2) * 4096 + 1 * (y 1).val = (y 1).val; rw [e3]; omega)
  show out1_1 (F := Ideal) c (grid1.coords t) (ms1_0 t) (hs1_0 t) (ms1_1 t) (hs1_1 t) (iblk1 V c 0 t) ((cfg1.win 1).xinj (grid1.coords t) y)
      = quantOf (V c main_arg1 : S4096x4096.Idx → EReal) (((cfg1.win 1).blk t).view.emb y)
  refine (congrArg (out1_1 (F := Ideal) c (grid1.coords t) (ms1_0 t) (hs1_0 t) (ms1_1 t) (hs1_1 t) (iblk1 V c 0 t)) e1).trans ?_
  refine Eq.trans ?_ (congrArg (quantOf (V c main_arg1 : S4096x4096.Idx → EReal)) eb).symm
  refine (out1_1_apply c (grid1.coords t) (ms1_0 t) (hs1_0 t) (ms1_1 t) (hs1_1 t) (iblk1 V c 0 t) _ _).trans ?_
  refine Eq.trans ?_ (quantOf_ix2 _ _ _).symm
  exact qd_rows_shift _ _ _ _ (fun k => iblk1_apply V c t _ k _ rfl) _

/-- The output array after the region: the quantised input array. -/
theorem arr1_eq (c : Dev nD) :
    (dat1 (F := Ideal) V c).arrAt 1 cfg1.N = quantOf (V c main_arg1 : S4096x4096.Idx → EReal) :=
  (dat1 (F := Ideal) V c).arrAt_eq_of_cover 1 (quantOf (V c main_arg1 : S4096x4096.Idx → EReal)) (fun t _ => flushed1_eq V c t) fun i => by
    have hi0 : (i 0).val < 4096 := (i 0).isLt
    have hi1 : (i 1).val < 4096 := (i 1).isLt
    have hN : grid1.N = 8 := N_1
    have htlt : (i 0).val / 512 < grid1.N := by omega
    refine ⟨⟨(i 0).val / 512, htlt⟩, flush1_1 _, ?_⟩
    obtain ⟨-, -, e2, e3⟩ := idx_facts1 ⟨(i 0).val / 512, htlt⟩
    show i ∈ ((View.whole main_v2).slice (win1_1.rect ⟨(i 0).val / 512, htlt⟩)).set
    rw [View.set_slice_whole, Rect.mem_set_unit]
    intro a
    match a with
    | ⟨0, _⟩ =>
      show win1_1.index ⟨(i 0).val / 512, htlt⟩ (0 : Fin 2) * 512 ≤ (i 0).val ∧ (i 0).val < win1_1.index ⟨(i 0).val / 512, htlt⟩ (0 : Fin 2) * 512 + 512
      rw [e2]; show (i 0).val / 512 * 512 ≤ (i 0).val ∧ (i 0).val < (i 0).val / 512 * 512 + 512; omega
    | ⟨1, _⟩ =>
      show win1_1.index ⟨(i 0).val / 512, htlt⟩ (1 : Fin 2) * 4096 ≤ (i 1).val ∧ (i 1).val < win1_1.index ⟨(i 0).val / 512, htlt⟩ (1 : Fin 2) * 4096 + 4096
      rw [e3]; omega

/-- Entry (r, k) of the output array after the region: the specification's quantised entry of the input array. -/
theorem arr1_apply (c : Dev nD) (r : Fin 4096) (k : Fin 4096) :
    ((dat1 (F := Ideal) V c).arrAt 1 cfg1.N : S4096x4096.Idx → EReal) (ix2 r k)
      = Cert.Spec.qd (Cert.Spec.rows2 (V c main_arg1 : S4096x4096.Idx → EReal)) r k :=
  (congrFun (arr1_eq V c) (ix2 r k)).trans (quantOf_ix2 _ r k)

end Cert.KernelIdeal.HandValue

end
-- ==== Proof.KI.MatmulValuePieces.lean ====
/-
  The matrix-product kernel, case by case: what the body's stores leave, as values.

  At an even grid point the accumulator is cleared, read back, and the product of the two input blocks is added:
  it ends holding (cleared accumulator) + product. At an odd grid point the accumulator, holding xs, gets the
  product added, and the sum is also copied into the output block: both end holding xs + product. Here the
  product step is the kernel's own arithmetic term; it is read entry by entry elsewhere.
-/
import proofs.«161446_j85761906967213_2_alg».proof.Proof.KI.Matmul
import Idealize.ShloMosaic.Lib.Pipeline.Value

set_option maxRecDepth 16384

noncomputable section

namespace Cert.KernelIdeal.HandValue

open Idealize.ShloMosaic Idealize.ShloMosaic.TcCoe Idealize.ShloMosaic.Tactic
open Idealize.SL Idealize.SL.Sem
open Idealize.ShloMosaic.Pipeline (Dat)
open Cert.KernelIdeal Cert.KernelIdeal.Gen Cert.KernelIdeal.Hand

variable {F : FTy → Type} [FloatOps F]

theorem hz2 : (![0, 0] : Fin 2 → Nat) = fun _ => 0 := funext fun a => by fin_cases a <;> rfl

/-- After an even point the accumulator holds the product step applied to the cleared accumulator. -/
theorem sout_A (c : Dev nD) (i : grid2.Coords) (a3 : Memref sig .tc .vmem S512x2048 .bf16) (h3 : a3.IsWhole) (a4 : Memref sig .tc .vmem S1024x2048 .bf16) (h4 : a4.IsWhole) (a5 : Memref sig .tc .vmem S512x1024 .f32) (h5 : a5.IsWhole) (a6 : Memref sig .tc .vmem S512x1024 .f32) (h6 : a6.IsWhole) (hc0 : cond2_0 i) (hc1 : ¬cond2_1 i)
    (x0 : Vec F S512x2048 .bf16) (x1 : Vec F S1024x2048 .bf16) :
    sout2_A_0 c i a3 h3 a4 h4 a5 h5 a6 h6 hc0 hc1 x0 x1 = k2_pay2 x0 x1 k2_pay1 := by
  unfold sout2_A_0
  rw [View.read_writes_eq_canon _ _ _ (scover2_A_0 c i a3 h3 a4 h4 a5 h5 a6 h6 hc0 hc1 x0 x1)]
  unfold kernelRun2_A
  dsimp only
  sl_unfold_words
  rw [View.canon_cons_unit_zero (S := S512x1024) hz2, View.readCov_unit_zero (S := S512x1024) _ hz2]
  simp only [View.readAt_eq_ld, h3.read_unread, h4.read_unread, View.ld_unit_zero (S := S512x2048) hz2,
    View.ld_unit_zero (S := S1024x2048) hz2]

/-- After an odd point the output block holds the product step applied to what the accumulator held. -/
theorem out_C (c : Dev nD) (i : grid2.Coords) (a3 : Memref sig .tc .vmem S512x2048 .bf16) (h3 : a3.IsWhole) (a4 : Memref sig .tc .vmem S1024x2048 .bf16) (h4 : a4.IsWhole) (a5 : Memref sig .tc .vmem S512x1024 .f32) (h5 : a5.IsWhole) (a6 : Memref sig .tc .vmem S512x1024 .f32) (h6 : a6.IsWhole) (hc0 : ¬cond2_0 i) (hc1 : cond2_1 i)
    (x0 : Vec F S512x2048 .bf16) (x1 : Vec F S1024x2048 .bf16) (xs0 : Vec F S512x1024 .f32) :
    out2_C_2 c i a3 h3 a4 h4 a5 h5 a6 h6 hc0 hc1 x0 x1 xs0 = k2_pay2 x0 x1 xs0 := by
  unfold out2_C_2
  rw [View.read_writes_eq_canon _ _ _ (cover2_C_2 c i a3 h3 a4 h4 a5 h5 a6 h6 hc0 hc1 x0 x1 xs0)]
  unfold kernelRun2_C
  dsimp only
  sl_unfold_words
  rw [View.canon_unit_zero (S := S512x1024) hz2, View.readCov_unit_zero (S := S512x1024) _ hz2]
  simp only [View.readAt_eq_ld, h3.read_unread, h4.read_unread, h6.read_unread, View.ld_unit_zero (S := S512x2048) hz2,
    View.ld_unit_zero (S := S1024x2048) hz2, View.ld_unit_zero (S := S512x1024) hz2]

/-- And so does the accumulator. -/
theorem sout_C (c : Dev nD) (i : grid2.Coords) (a3 : Memref sig .tc .vmem S512x2048 .bf16) (h3 : a3.IsWhole) (a4 : Memref sig .tc .vmem S1024x2048 .bf16) (h4 : a4.IsWhole) (a5 : Memref sig .tc .vmem S512x1024 .f32) (h5 : a5.IsWhole) (a6 : Memref sig .tc .vmem S512x1024 .f32) (h6 : a6.IsWhole) (hc0 : ¬cond2_0 i) (hc1 : cond2_1 i)
    (x0 : Vec F S512x2048 .bf16) (x1 : Vec F S1024x2048 .bf16) (xs0 : Vec F S512x1024 .f32) :
    sout2_C_0 c i a3 h3 a4 h4 a5 h5 a6 h6 hc0 hc1 x0 x1 xs0 = k2_pay2 x0 x1 xs0 := by
  unfold sout2_C_0
  rw [View.read_writes_eq_canon _ _ _ (scover2_C_0 c i a3 h3 a4 h4 a5 h5 a6 h6 hc0 hc1 x0 x1 xs0)]
  unfold kernelRun2_C
  dsimp only
  sl_unfold_words
  rw [View.canon_unit_zero (S := S512x1024) hz2]
  simp only [View.readAt_eq_ld, h3.read_unread, h4.read_unread, h6.read_unread, View.ld_unit_zero (S := S512x2048) hz2,
    View.ld_unit_zero (S := S1024x2048) hz2, View.ld_unit_zero (S := S512x1024) hz2]

end Cert.KernelIdeal.HandValue

end
-- ==== Proof.KI.MatmulValuePay.lean ====
/-
  The matrix-product kernel's arithmetic, read one entry at a time on the extended reals.

  The kernel's product step takes a block x0 of 512 rows by 2048 columns, a block x1 of 1024 rows by 2048 columns and
  an accumulator xs of 512 by 1024 entries, and returns xs + x0 · x1ᵀ: its entry (p, q) is xs (p, q) plus the sum over
  the 2048 columns k of x0 (p, k) · x1 (q, k). The cleared accumulator is 0 everywhere.
-/
import proofs.«161446_j85761906967213_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.HandValue

open Idealize.ShloMosaic Idealize.ShloMosaic.ValueIdx
open Cert.KernelIdeal Cert.KernelIdeal.Gen

/-- The product's dimension numbers: both operands contract their second axis; the first axes are the result's. -/
abbrev D2 : DotDims S512x2048 S1024x2048 S512x1024 := dot_S512x2048_S1024x2048_S512x1024_1_1_0_0_n_n

/-- The left operand is read at the result's row … -/
theorem lhs2_0 (j : S512x1024.Idx) (q : D2.contr.Idx) : (D2.lhsIdx j q 0).val = (j 0).val := by
  unfold DotDims.lhsIdx
  rw [dif_neg (show ¬(0 : Fin S512x2048.rank) ∈ D2.lhsBatch by decide), dif_pos (show (0 : Fin S512x2048.rank) ∈ D2.lhsNonContracting by decide)]
  rfl
/-- … and the contracted column; -/
theorem lhs2_1 (j : S512x1024.Idx) (q : D2.contr.Idx) : (D2.lhsIdx j q 1).val = (q ⟨0, by decide⟩).val :=
  D2.lhsIdx_val_of_single rfl j q
/-- the right operand at the result's column, as a row, … -/
theorem rhs2_0 (j : S512x1024.Idx) (q : D2.contr.Idx) : (D2.rhsIdx j q 0).val = (j 1).val := by
  unfold DotDims.rhsIdx
  rw [dif_neg (show ¬(0 : Fin S1024x2048.rank) ∈ D2.rhsBatch by decide), dif_pos (show (0 : Fin S1024x2048.rank) ∈ D2.rhsNonContracting by decide)]
  rfl
/-- … and the contracted column. -/
theorem rhs2_1 (j : S512x1024.Idx) (q : D2.contr.Idx) : (D2.rhsIdx j q 1).val = (q ⟨0, by decide⟩).val :=
  D2.rhsIdx_val_of_single rfl j q

/-- The product into a zero accumulator, at entry (p, q): the sum over the 2048 columns. -/
theorem matmul2_apply (y0 : FVec Ideal S512x2048 .bf16) (y1 : FVec Ideal S1024x2048 .bf16) (p : Fin 512) (q : Fin 1024) :
    FloatOps.matmul D2 none y0 y1 (constant S512x1024 .f32 0x00000000#32) (ix2 p q)
      = ∑ k : Fin 2048, y0 (ix2 p k) * y1 (ix2 q k) := by
  rw [Ideal.matmul_constant_zero_apply, ← Equiv.sum_comp (contrEquiv1 D2 2048 rfl rfl).symm]
  refine Finset.sum_congr rfl fun k _ => ?_
  have hk := contrEquiv1_symm_val D2 2048 rfl rfl k
  have el : D2.lhsIdx (ix2 p q) ((contrEquiv1 D2 2048 rfl rfl).symm k) = ix2 p k := funext fun a => Fin.ext (by
    match a with
    | ⟨0, _⟩ => exact lhs2_0 _ _
    | ⟨1, _⟩ => exact (lhs2_1 _ _).trans hk)
  have er : D2.rhsIdx (ix2 p q) ((contrEquiv1 D2 2048 rfl rfl).symm k) = ix2 q k := funext fun a => Fin.ext (by
    match a with
    | ⟨0, _⟩ => exact rhs2_0 _ _
    | ⟨1, _⟩ => exact (rhs2_1 _ _).trans hk)
  rw [el, er]

/-- The product step at entry (p, q): the accumulator's entry plus the sum over the block's 2048 columns. -/
theorem pay2_apply (x0 : Vec Ideal S512x2048 .bf16) (x1 : Vec Ideal S1024x2048 .bf16) (xs : Vec Ideal S512x1024 .f32)
    (p : Fin 512) (q : Fin 1024) :
    (k2_pay2 (F := Ideal) x0 x1 xs : S512x1024.Idx → EReal) (ix2 p q)
      = (xs : S512x1024.Idx → EReal) (ix2 p q) + ∑ k : Fin 2048, (x0 : S512x2048.Idx → EReal) (ix2 p k) * (x1 : S1024x2048.Idx → EReal) (ix2 q k) := by
  unfold k2_pay2
  simp only [shapeCast_self]
  show xs (ix2 p q) + FloatOps.matmul (F := Ideal) D2 none x0 x1 (constant (F := Ideal) S512x1024 .f32 0x00000000#32) (ix2 p q) = _
  rw [matmul2_apply]

/-- The cleared accumulator is 0 at every entry. -/
theorem pay1_apply (j : S512x1024.Idx) : (k2_pay1 (F := Ideal) : S512x1024.Idx → EReal) j = 0 := by
  unfold k2_pay1
  simp only [shapeCast_self]
  show Ideal.ofBits .f32 0x00000000#32 = 0
  exact Ideal.ofBits_zero_f32

end Cert.KernelIdeal.HandValue

end
-- ==== Proof.KI.MatmulValuePoint.lean ====
/-
  The matrix-product kernel at a grid point, entry by entry.

  The 128 grid points come in pairs: point t = 2 s visits the first 2048 columns of the contracted axis and
  point t = 2 s + 1 the last 2048, both for the same block of 512 rows of the activations (block row t / 8) and
  the same block of 1024 rows of the weights (block row (t / 2) mod 4). After the odd point the output block's entry
  (p, q) is (0 + first half's sum) + second half's sum, and that is the sum over all 4096 columns k of the product
  of the activations' entry (512 (t / 8) + p, k) and the weights' entry (1024 ((t / 2) mod 4) + q, k).
-/
import proofs.«161446_j85761906967213_2_alg».proof.Proof.KI.MatmulValuePieces
import proofs.«161446_j85761906967213_2_alg».proof.Proof.KI.MatmulValuePay

set_option maxRecDepth 16384

noncomputable section

namespace Cert.KernelIdeal.HandValue

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Hand

/-- Where each window's block sits at point t: block row t / 8 and column half t mod 2 of the activations, block
    row (t / 2) mod 4 and column half t mod 2 of the weights, block (t / 8, (t / 2) mod 4) of the result. Decided
    over the 128 points. -/
theorem idx_facts2 : ∀ t : Fin cfg2.N,
    win2_0.index t (0 : Fin 2) = t.val / 8 ∧ win2_0.index t (1 : Fin 2) = t.val % 2
    ∧ win2_1.index t (0 : Fin 2) = t.val / 2 % 4 ∧ win2_1.index t (1 : Fin 2) = t.val % 2
    ∧ win2_2.index t (0 : Fin 2) = t.val / 8 ∧ win2_2.index t (1 : Fin 2) = t.val / 2 % 4 :=
  (by decide +kernel : ∀ t : Fin grid2.N,
    win2_0.index t (0 : Fin 2) = t.val / 8 ∧ win2_0.index t (1 : Fin 2) = t.val % 2
    ∧ win2_1.index t (0 : Fin 2) = t.val / 2 % 4 ∧ win2_1.index t (1 : Fin 2) = t.val % 2
    ∧ win2_2.index t (0 : Fin 2) = t.val / 8 ∧ win2_2.index t (1 : Fin 2) = t.val / 2 % 4)

section Blocks

variable {F : FTy → Type} [FloatOps F]
variable (V : (c : Dev nD) → (b : Ref sig .tc) → Buf (Elt F) ((c : Thread nD τ).loc b))

/-- The activations' block at point t, entry (p, k): the array's entry (512 (t / 8) + p, 2048 (t mod 2) + k). -/
theorem iblk2_0_apply (c : Dev nD) (t : Fin cfg2.N) (p : Fin 512) (k : Fin 2048) (r : Fin 8192) (kc : Fin 4096)
    (hr : r.val = 512 * (t.val / 8) + p.val) (hk : kc.val = 2048 * (t.val % 2) + k.val) :
    (iblk2 V c 0 t : S512x2048.Idx → Elt F .bf16) (ix2 p k) = (V c main_v1 : S8192x4096.Idx → Elt F .bf16) (ix2 r kc) := by
  obtain ⟨e0, e1, -⟩ := idx_facts2 t
  unfold iblk2
  rw [View.read_apply]
  show (V c main_v1 : S8192x4096.Idx → Elt F .bf16) _ = (V c main_v1 : S8192x4096.Idx → Elt F .bf16) _
  refine congrArg (V c main_v1 : S8192x4096.Idx → Elt F .bf16) ?_
  funext a
  apply Fin.ext
  match a with
  | ⟨0, _⟩ => show win2_0.index t (0 : Fin 2) * 512 + 1 * p.val = r.val; rw [e0, hr]; omega
  | ⟨1, _⟩ => show win2_0.index t (1 : Fin 2) * 2048 + 1 * k.val = kc.val; rw [e1, hk]; omega

/-- The weights' block at point t, entry (q, k): the array's entry (1024 ((t / 2) mod 4) + q, 2048 (t mod 2) + k). -/
theorem iblk2_1_apply (c : Dev nD) (t : Fin cfg2.N) (q : Fin 1024) (k : Fin 2048) (n : Fin 4096) (kc : Fin 4096)
    (hn : n.val = 1024 * (t.val / 2 % 4) + q.val) (hk : kc.val = 2048 * (t.val % 2) + k.val) :
    (iblk2 V c 1 t : S1024x2048.Idx → Elt F .bf16) (ix2 q k) = (V c main_v2 : S4096x4096.Idx → Elt F .bf16) (ix2 n kc) := by
  obtain ⟨-, -, e2, e3, -⟩ := idx_facts2 t
  unfold iblk2
  rw [View.read_apply]
  show (V c main_v2 : S4096x4096.Idx → Elt F .bf16) _ = (V c main_v2 : S4096x4096.Idx → Elt F .bf16) _
  refine congrArg (V c main_v2 : S4096x4096.Idx → Elt F .bf16) ?_
  funext a
  apply Fin.ext
  match a with
  | ⟨0, _⟩ => show win2_1.index t (0 : Fin 2) * 1024 + 1 * q.val = n.val; rw [e2, hn]; omega
  | ⟨1, _⟩ => show win2_1.index t (1 : Fin 2) * 2048 + 1 * k.val = kc.val; rw [e3, hk]; omega

/-- After an odd point t the output block holds the product step of point t applied to the product step of point
    t - 1 applied to the cleared accumulator. -/
theorem out_odd (c : Dev nD) (t : Fin cfg2.N) (h1 : t.val % 2 = 1) (t' : Fin cfg2.N) (ht' : t'.val = t.val - 1) :
    (outsAt2 V c t.val t.isLt).1
      = k2_pay2 (iblk2 V c 0 t) (iblk2 V c 1 t) (k2_pay2 (iblk2 V c 0 t') (iblk2 V c 1 t') (k2_pay1 (F := F))) := by
  have h0 : ¬t.val % 2 = 0 := by omega
  have h0' : t'.val % 2 = 0 := by omega
  have h1' : ¬t'.val % 2 = 1 := by omega
  have eA : (outsAt2 V c t'.val t'.isLt).2 = k2_pay2 (iblk2 V c 0 t') (iblk2 V c 1 t') (k2_pay1 (F := F)) := by
    rw [outsAt2_A V c t' h0' h1']
    dsimp only
    exact sout_A c (grid2.coords t') (ms2_0 t') (hs2_0 t') (ms2_1 t') (hs2_1 t') (ms2_2 t') (hs2_2 t') scM2_0 (Memref.isWhole_whole _)
      ((hcond2_0 t').mpr h0') (fun h => h1' ((hcond2_1 t').mp h)) (iblk2 V c 0 t') (iblk2 V c 1 t')
  have eT : (outsAt2 V c (t.val - 1) (Nat.lt_of_le_of_lt (Nat.sub_le _ _) t.isLt)).2 = (outsAt2 V c t'.val t'.isLt).2 := by
    obtain ⟨n', hn'⟩ := t'
    dsimp only at ht'
    subst ht'
    rfl
  rw [outsAt2_C V c t h0 h1]
  dsimp only
  rw [eT, eA]
  exact out_C c (grid2.coords t) (ms2_0 t) (hs2_0 t) (ms2_1 t) (hs2_1 t) (ms2_2 t) (hs2_2 t) scM2_0 (Memref.isWhole_whole _)
    (fun h => h0 ((hcond2_0 t).mp h)) ((hcond2_1 t).mpr h1) (iblk2 V c 0 t) (iblk2 V c 1 t)
    (k2_pay2 (iblk2 V c 0 t') (iblk2 V c 1 t') (k2_pay1 (F := F)))

end Blocks

/-- A sum over 4096 columns is the sum over the first 2048 plus the sum over the last 2048. -/
theorem sum_halves (f : Fin 4096 → EReal) :
    ∑ k : Fin 4096, f k = ∑ k : Fin 2048, f ⟨k.val, by have := k.isLt; omega⟩ + ∑ k : Fin 2048, f ⟨2048 + k.val, by have := k.isLt; omega⟩ := by
  have h := Fin.sum_univ_add (a := 2048) (b := 2048) (fun k : Fin (2048 + 2048) => f k)
  exact h

variable (V : (c : Dev nD) → (b : Ref sig .tc) → Buf (Elt Ideal) ((c : Thread nD τ).loc b))

/-- The quantised activations, 8192 rows of 4096 entries, as the region finds them: a function to the extended reals. -/
abbrev act (c : Dev nD) : S8192x4096.Idx → EReal := V c main_v1
/-- The quantised weights, 4096 rows of 4096 entries, as the region finds them. -/
abbrev wgt (c : Dev nD) : S4096x4096.Idx → EReal := V c main_v2

/-- AFTER AN ODD POINT t the output block's entry (p, q) is the full product's entry (r, n), r = 512 (t / 8) + p,
    n = 1024 ((t / 2) mod 4) + q: the sum over all 4096 columns. On the extended reals 0 + a = a and the two half
    sums add up to the whole with no finiteness needed. -/
theorem out_odd_apply (c : Dev nD) (t : Fin cfg2.N) (h1 : t.val % 2 = 1) (p : Fin 512) (q : Fin 1024) (r : Fin 8192) (n : Fin 4096)
    (hr : r.val = 512 * (t.val / 8) + p.val) (hn : n.val = 1024 * (t.val / 2 % 4) + q.val) :
    ((outsAt2 (F := Ideal) V c t.val t.isLt).1 : S512x1024.Idx → EReal) (ix2 p q)
      = ∑ k : Fin 4096, act V c (ix2 r k) * wgt V c (ix2 n k) := by
  have hN : t.val < 128 := lt_of_lt_of_eq t.isLt (show cfg2.N = 128 from N_2)
  let t' : Fin cfg2.N := ⟨t.val - 1, lt_of_le_of_lt (Nat.sub_le _ _) t.isLt⟩
  have ht' : t'.val = t.val - 1 := rfl
  rw [out_odd V c t h1 t' ht']
  refine (pay2_apply (iblk2 V c 0 t) (iblk2 V c 1 t) (k2_pay2 (iblk2 V c 0 t') (iblk2 V c 1 t') (k2_pay1 (F := Ideal))) p q).trans ?_
  rw [pay2_apply (iblk2 V c 0 t') (iblk2 V c 1 t') (k2_pay1 (F := Ideal)) p q, pay1_apply, zero_add, sum_halves]
  refine congrArg₂ (· + ·) (Finset.sum_congr rfl fun k _ => ?_) (Finset.sum_congr rfl fun k _ => ?_)
  · rw [iblk2_0_apply V c t' p k r ⟨k.val, by have := k.isLt; omega⟩ (by rw [ht', hr]; omega) (by rw [ht']; show k.val = _; omega),
      iblk2_1_apply V c t' q k n ⟨k.val, by have := k.isLt; omega⟩ (by rw [ht', hn]; omega) (by rw [ht']; show k.val = _; omega)]
  · rw [iblk2_0_apply V c t p k r ⟨2048 + k.val, by have := k.isLt; omega⟩ hr (by show 2048 + k.val = _; omega),
      iblk2_1_apply V c t q k n ⟨2048 + k.val, by have := k.isLt; omega⟩ hn (by show 2048 + k.val = _; omega)]

end Cert.KernelIdeal.HandValue

end
-- ==== Proof.KI.MatmulValue.lean ====
/-
  The matrix-product region's result array, entry by entry.

  The result array has 16 × 4 blocks of 512 × 1024 entries; block (a, b) is written back once, after the odd grid
  point t = (4 a + b) · 2 + 1, and what is written there is, at entry (p, q), the sum over all 4096 columns k of the
  activations' entry (512 a + p, k) times the weights' entry (1024 b + q, k). Every entry (r, n) of the array lies in
  exactly the block (r / 512, n / 1024), so after the region the array's entry (r, n) is the sum over k of the
  activations' entry (r, k) times the weights' entry (n, k): the product with the transposed weights.
-/
import proofs.«161446_j85761906967213_2_alg».proof.Proof.KI.MatmulValuePoint
import proofs.«161446_j85761906967213_2_alg».proof.Proof.Spec

set_option maxRecDepth 16384

noncomputable section

namespace Cert.KernelIdeal.HandValue

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

/-- The product with the transposed weights, as one function of the result array's index. -/
def prod2 (c : Dev nD) : S8192x4096.Idx → EReal := fun i =>
  ∑ k : Fin 4096, act V c (ix2 (⟨(i 0).val, (i 0).isLt⟩ : Fin 8192) k) * wgt V c (ix2 (⟨(i 1).val, (i 1).isLt⟩ : Fin 4096) k)

/-- WHAT AN ODD POINT t WRITES BACK is block t of the product: the block's entry (p, q) sits at row
    512 (t / 8) + p and column 1024 ((t / 2) mod 4) + q of the array. -/
theorem flushed2_eq (c : Dev nD) (t : Fin cfg2.N) (hf : (cfg2.win 2).flush t = true) :
    (dat2 V c).flushed 2 t = ((cfg2.win 2).blk t).view.read (Elt Ideal) (prod2 V c) := by
  have h1 : t.val % 2 = 1 := (flush2_2 t).mp hf
  obtain ⟨-, -, -, -, e4, e5⟩ := idx_facts2 t
  show (cfg2.win 2).cut (grid2.coords t) ((dat2 V c).after 2 t) = _
  rw [after2_2]
  funext y
  have hy0 : (y 0).val < 512 := (y 0).isLt
  have hy1 : (y 1).val < 1024 := (y 1).isLt
  have e : (cfg2.win 2).xinj (grid2.coords t) y = ix2 (⟨(y 0).val, hy0⟩ : Fin 512) (⟨(y 1).val, hy1⟩ : Fin 1024) :=
    funext fun a => by match a with | ⟨0, _⟩ => rfl | ⟨1, _⟩ => rfl
  show ((outsAt2 V c t.val t.isLt).1 : S512x1024.Idx → EReal) ((cfg2.win 2).xinj (grid2.coords t) y)
    = prod2 V c (((cfg2.win 2).blk t).view.emb y)
  rw [e]
  exact out_odd_apply V c t h1 ⟨(y 0).val, hy0⟩ ⟨(y 1).val, hy1⟩
    ⟨((((cfg2.win 2).blk t).view.emb y) 0).val, ((((cfg2.win 2).blk t).view.emb y) 0).isLt⟩
    ⟨((((cfg2.win 2).blk t).view.emb y) 1).val, ((((cfg2.win 2).blk t).view.emb y) 1).isLt⟩
    (show win2_2.index t (0 : Fin 2) * 512 + 1 * (y 0).val = 512 * (t.val / 8) + (y 0).val by rw [e4]; omega)
    (show win2_2.index t (1 : Fin 2) * 1024 + 1 * (y 1).val = 1024 * (t.val / 2 % 4) + (y 1).val by rw [e5]; omega)

/-- An index of the array is in point t's block iff each coordinate is in the block's range on its axis. -/
theorem mem_blk2 (t : Fin cfg2.N) (i : S8192x4096.Idx) :
    i ∈ ((cfg2.win 2).blk t).view.set ↔ ∀ a : Fin 2, win2_2.index t a * S512x1024.size a ≤ (i a).val ∧ (i a).val < win2_2.index t a * S512x1024.size a + S512x1024.size a := by
  show i ∈ ((View.whole main_v3).slice (win2_2.rect t)).set ↔ _
  rw [View.set_slice_whole, Rect.mem_set_unit]
  exact Iff.rfl

/-- Every entry (r, n) of the array lies in the block written back after the odd point ((r / 512) · 4 + n / 1024) · 2 + 1. -/
theorem cover2 (i : S8192x4096.Idx) : ∃ t : Fin cfg2.N, (cfg2.win 2).flush t = true ∧ i ∈ ((cfg2.win 2).blk t).view.set := by
  have hi0 : (i 0).val < 8192 := (i 0).isLt
  have hi1 : (i 1).val < 4096 := (i 1).isLt
  have hN : cfg2.N = 128 := N_2
  obtain ⟨t, htv⟩ : ∃ t : Fin cfg2.N, t.val = ((i 0).val / 512 * 4 + (i 1).val / 1024) * 2 + 1 :=
    ⟨⟨((i 0).val / 512 * 4 + (i 1).val / 1024) * 2 + 1, by rw [hN]; omega⟩, rfl⟩
  obtain ⟨-, -, -, -, e4, e5⟩ := idx_facts2 t
  refine ⟨t, (flush2_2 t).mpr (by rw [htv]; omega), ?_⟩
  rw [mem_blk2]
  intro a
  match a with
  | ⟨0, _⟩ =>
    show win2_2.index t (0 : Fin 2) * 512 ≤ (i 0).val ∧ (i 0).val < win2_2.index t (0 : Fin 2) * 512 + 512
    rw [e4, htv]; omega
  | ⟨1, _⟩ =>
    show win2_2.index t (1 : Fin 2) * 1024 ≤ (i 1).val ∧ (i 1).val < win2_2.index t (1 : Fin 2) * 1024 + 1024
    rw [e5, htv]; omega

/-- THE ARRAY after the region: the product, everywhere. -/
theorem final2 (c : Dev nD) : (dat2 V c).arrAt 2 cfg2.N = prod2 V c :=
  (dat2 V c).arrAt_eq_of_cover 2 (prod2 V c) (fun t hf => flushed2_eq V c t hf) cover2

/-- Entry (r, n) of the result array after the region: the sum over the 4096 columns k of the activations' entry
    (r, k) times the weights' entry (n, k). -/
theorem arr2_apply (V : (c : Dev nD) → (b : Ref sig .tc) → Buf (Elt Ideal) ((c : Thread nD τ).loc b)) (c : Dev nD) (r : Fin 8192) (n : Fin 4096) :
    ((dat2 (F := Ideal) V c).arrAt 2 cfg2.N : S8192x4096.Idx → EReal) (ix2 r n)
      = ∑ k : Fin 4096, Cert.Spec.rows2 (V c main_v1 : S8192x4096.Idx → EReal) r k * Cert.Spec.rows2 (V c main_v2 : S4096x4096.Idx → EReal) n k := by
  rw [final2 V c]
  rfl

end Cert.KernelIdeal.HandValue

end
-- ==== Proof.KI.KernelValue.lean ====
/-
  The kernel program's result, read index by index, is the specification's function of the two argument arrays,
  given what each of its three kernels leaves in its output array.

  The program reshapes the activations [4, 2048, 4096] to 8192 rows, quantises them, quantises the weights,
  multiplies the quantised activations by the transpose of the quantised weights, and reshapes the product back
  to [4, 2048, 4096]. The buffers' contents are followed from the end backwards: the result is the last reshape of
  the product kernel's output; the product's operands are the two quantising kernels' outputs, untouched in between;
  the first quantising kernel read the reshaped activations, whose row 2048 b + s is row (b, s) of the argument; the
  second read the weights as launched.
-/
import proofs.«161446_j85761906967213_2_alg».proof.Proof.KI.Run
import proofs.«161446_j85761906967213_2_alg».proof.Proof.Spec
import Idealize.ShloMosaic.Lib.ValueIdx
import Idealize.ShloMosaic.Lib.Pipeline.Value
import Idealize.ShloMosaic.Lib.StableHlo.Run

noncomputable section

namespace Cert.KernelIdeal.HandValue

open Idealize.ShloMosaic Idealize.ShloMosaic.TcCoe Idealize.SL.Sem Idealize.ShloMosaic.StableHlo
open Idealize.ShloMosaic.ValueIdx (ix2 ix3)
open Cert.KernelIdeal Cert.KernelIdeal.Gen Cert.KernelIdeal.Hand

variable (m : (ℓ : Loc nD τ sig) → Buf (Elt Ideal) ℓ) (ρ : Dev nD → PrngReg)

/-! ## The two reshapes -/

/-- At the end the result buffer holds the reshape of what the product kernel left in its output. -/
theorem W5_v4 (c : Dev nD) :
    (W5 (F := Ideal) m ρ c (Proc.devRef .tc main_v4) : S4x2048x4096.Idx → EReal)
      = shapeCast _ (W4 (F := Ideal) m ρ c (Proc.devRef .tc main_v3) : S8192x4096.Idx → EReal)
          shapeCasts_S8192x4096_S4x2048x4096 := by
  dsimp only [W5, hostOps3]; after_results; rfl

/-- The first kernel's input is the reshape of the activations as launched. -/
theorem W1_v0 (c : Dev nD) :
    (W1 (F := Ideal) m ρ c (Proc.devRef .tc main_v0) : S8192x4096.Idx → EReal)
      = shapeCast _ (m ((c : Thread nD τ).loc main_arg0) : S4x2048x4096.Idx → EReal)
          shapeCasts_S4x2048x4096_S8192x4096 := by
  dsimp only [W1, hostOps0]; after_results; rfl

/-- The first reshape leaves the weights as launched. -/
theorem W1_arg1 (c : Dev nD) :
    W1 (F := Ideal) m ρ c (Proc.devRef .tc main_arg1) = m ((c : Thread nD τ).loc main_arg1) := by
  dsimp only [W1, hostOps0]; after_results

/-! ## What each kernel reads and leaves -/

/-- The product kernel's output array. -/
theorem W4_v3 (c : Dev nD) :
    W4 (F := Ideal) m ρ c (Proc.devRef .tc main_v3) = (dat2 (F := Ideal) (Vin2 m ρ) c).arrAt 2 cfg2.N :=
  W4_arr m ρ c 2

/-- The product's left operand is the first quantising kernel's output: the second kernel does not write it. -/
theorem Vin2_v1 (c : Dev nD) :
    Vin2 (F := Ideal) m ρ c main_v1 = (dat0 (F := Ideal) (Vin0 m ρ) c).arrAt 1 cfg0.N :=
  (W3_of_ne m ρ c main_v1 (by decide)).trans (W2_arr m ρ c 1)

/-- The product's right operand is the second quantising kernel's output. -/
theorem Vin2_v2 (c : Dev nD) :
    Vin2 (F := Ideal) m ρ c main_v2 = (dat1 (F := Ideal) (Vin1 m ρ) c).arrAt 1 cfg1.N :=
  W3_arr m ρ c 1

/-- The second quantising kernel reads the weights as launched: the first kernel does not write them. -/
theorem Vin1_arg1 (c : Dev nD) :
    Vin1 (F := Ideal) m ρ c main_arg1 = m ((c : Thread nD τ).loc main_arg1) :=
  (W2_of_ne m ρ c main_arg1 (by decide)).trans (W1_arg1 m ρ c)

/-- The rows the first quantising kernel reads are the rows of the activations: row r of the [8192, 4096] array is
    entry (r / 2048, r % 2048) of the [4, 2048, 4096] one. -/
theorem rows2_Vin0 (c : Dev nD) :
    Cert.Spec.rows2 (Vin0 (F := Ideal) m ρ c main_v0 : S8192x4096.Idx → EReal)
      = Cert.Spec.rows3 (m ((c : Thread nD τ).loc main_arg0) : S4x2048x4096.Idx → EReal) := by
  funext r k
  show (W1 (F := Ideal) m ρ c (Proc.devRef .tc main_v0) : S8192x4096.Idx → EReal) (ix2 r k) = _
  rw [W1_v0]
  exact shapeCast_apply _ shapeCasts_S4x2048x4096_S8192x4096 (ix2 r k)
    (ix3 (⟨r.val / 2048, by omega⟩ : Fin 4) (⟨r.val % 2048, by omega⟩ : Fin 2048) k)
    (by rw [Shape.rowMajor_val_three, Shape.rowMajor_val_two]
        show (r.val / 2048 * 2048 + r.val % 2048) * 4096 + k.val = r.val * 4096 + k.val; omega)

/-! ## The result -/

/-- Entry (b, s, n) of the program's result is the sum over the 4096 columns k of the quantised activation
    (2048 b + s, k) times the quantised weight (n, k) — given that each quantising kernel leaves the quantised array
    of the rows it read (h0, h1) and that the product kernel leaves the product of its first operand with the
    transpose of its second (h2). -/
theorem result_apply
    (h0 : ∀ (V : (c : Dev nD) → (b : Ref sig .tc) → Buf (Elt Ideal) ((c : Thread nD τ).loc b)) (c : Dev nD)
        (r : Fin 8192) (k : Fin 4096),
        ((dat0 (F := Ideal) V c).arrAt 1 cfg0.N : S8192x4096.Idx → EReal) (ix2 r k)
          = Cert.Spec.qd (Cert.Spec.rows2 (V c main_v0 : S8192x4096.Idx → EReal)) r k)
    (h1 : ∀ (V : (c : Dev nD) → (b : Ref sig .tc) → Buf (Elt Ideal) ((c : Thread nD τ).loc b)) (c : Dev nD)
        (r : Fin 4096) (k : Fin 4096),
        ((dat1 (F := Ideal) V c).arrAt 1 cfg1.N : S4096x4096.Idx → EReal) (ix2 r k)
          = Cert.Spec.qd (Cert.Spec.rows2 (V c main_arg1 : S4096x4096.Idx → EReal)) r k)
    (h2 : ∀ (V : (c : Dev nD) → (b : Ref sig .tc) → Buf (Elt Ideal) ((c : Thread nD τ).loc b)) (c : Dev nD)
        (r : Fin 8192) (n : Fin 4096),
        ((dat2 (F := Ideal) V c).arrAt 2 cfg2.N : S8192x4096.Idx → EReal) (ix2 r n)
          = ∑ k : Fin 4096, Cert.Spec.rows2 (V c main_v1 : S8192x4096.Idx → EReal) r k
              * Cert.Spec.rows2 (V c main_v2 : S4096x4096.Idx → EReal) n k)
    (m : (ℓ : Loc nD τ sig) → Buf (Elt Ideal) ℓ) (ρ : Dev nD → PrngReg) (c : Dev nD) (b : Fin 4) (s : Fin 2048)
    (n : Fin 4096) :
    (W5 (F := Ideal) m ρ c (Proc.devRef .tc main_v4) : S4x2048x4096.Idx → EReal) (ix3 b s n)
      = Cert.Spec.result (Cert.Spec.rows3 (m ((c : Thread nD τ).loc main_arg0) : S4x2048x4096.Idx → EReal))
          (Cert.Spec.rows2 (m ((c : Thread nD τ).loc main_arg1) : S4096x4096.Idx → EReal)) (Cert.Spec.rowOf b s) n := by
  rw [W5_v4]
  refine (shapeCast_apply _ shapeCasts_S8192x4096_S4x2048x4096 (ix3 b s n) (ix2 (Cert.Spec.rowOf b s) n)
    (by rw [Shape.rowMajor_val_two, Shape.rowMajor_val_three]
        show (2048 * b.val + s.val) * 4096 + n.val = (b.val * 2048 + s.val) * 4096 + n.val; omega)).trans ?_
  rw [W4_v3, h2 (Vin2 m ρ) c (Cert.Spec.rowOf b s) n]
  unfold Cert.Spec.result
  show @Eq EReal _ _
  refine Finset.sum_congr rfl fun k _ => congrArg₂ (· * ·) ?_ ?_
  · show (Vin2 (F := Ideal) m ρ c main_v1 : S8192x4096.Idx → EReal) (ix2 (Cert.Spec.rowOf b s) k) = _
    rw [Vin2_v1, h0 (Vin0 m ρ) c (Cert.Spec.rowOf b s) k, rows2_Vin0]
  · show (Vin2 (F := Ideal) m ρ c main_v2 : S4096x4096.Idx → EReal) (ix2 n k) = _
    rw [Vin2_v2, h1 (Vin1 m ρ) c n k, Vin1_arg1]

end Cert.KernelIdeal.HandValue

end
-- ==== Proof.RefValue.lean ====
/-
  The reference's result, read index by index, is the specification's function of the two argument arrays.

  Both operands of the final product are built the same way: the array is cut into groups of 128 consecutive columns,
  each group's largest absolute value is divided by 127 and replaced by 1 where the quotient is 0, and every entry is
  divided by its group's scale, rounded to the nearest integer (ties to even) and multiplied by the scale again. The
  weights carry a row number, a group number and a position in the group (rank 3), the activations a batch number, a
  row number, a group number and a position (rank 4). Each stage is read at an index built from literal coordinates;
  the two maxima are folds over the 128 positions of a group.
-/
import proofs.«161446_j85761906967213_2_alg».proof.Proof.Gen.ReferenceIdeal.Read
import proofs.«161446_j85761906967213_2_alg».proof.Proof.Spec
import Idealize.ShloMosaic.Lib.ValueIdx
import Idealize.ShloMosaic.Lib.Pipeline.Value
import Idealize.ShloMosaic.PureOps.Ideal.Laws

noncomputable section

namespace Cert.RefValue

open Idealize.ShloMosaic Cert.ReferenceIdeal Cert.ReferenceIdeal.Gen Cert.ReferenceIdeal.Read

/-- Column 128 g + j of a row of 4096 entries: position j of group g. -/
def col (g : Fin 32) (j : Fin 128) : Fin 4096 := ⟨128 * g.val + j.val, by omega⟩

/-- Every column k is position k % 128 of group k / 128. -/
theorem col_div_mod (k : Fin 4096) :
    col (⟨k.val / 128, by omega⟩ : Fin 32) (⟨k.val % 128, by omega⟩ : Fin 128) = k :=
  Fin.ext (by show 128 * (k.val / 128) + k.val % 128 = k.val; omega)

/-! ## The weight side: rank 3 -/

/-- Entry (n, g, j) of the grouped weights is entry (n, 128 g + j) of the weights. -/
theorem idx_v1_ix3 (n : Fin 4096) (g : Fin 32) (j : Fin 128) :
    idx_main_v1 (ValueIdx.ix3 n g j) = ValueIdx.ix2 n (col g j) :=
  funext fun a => Fin.ext (by
    match a with
    | ⟨0, _⟩ => show ((n.val * 32 + g.val) * 128 + j.val) / 4096 = n.val; omega
    | ⟨1, _⟩ => show ((n.val * 32 + g.val) * 128 + j.val) % 4096 = 128 * g.val + j.val; omega)

/-- The maximum over the last axis of a [4096, 32, 128] array is a [4096, 32] array. -/
theorem reduces_w : S4096x32x128.Reduces [2] S4096x32 := by decide

/-- The index over (n, g) with position j inserted on the reduced axis is (n, g, j). -/
theorem lift_w (n : Fin 4096) (g : Fin 32) (j : Fin 128) :
    reduces_w.lift (ValueIdx.ix2 n g) j = ValueIdx.ix3 n g j :=
  funext fun c => Fin.ext (by
    match c with
    | ⟨0, _⟩ => rfl
    | ⟨1, _⟩ => rfl
    | ⟨2, _⟩ => rfl)

/-- The maximum of group g of row n: the fold of max, from minus infinity, over the group's 128 absolute values. -/
theorem v10_apply (x1 : (⟨S4096x4096, .f32⟩ : BufTy).Contents (Elt Ideal)) (n : Fin 4096) (g : Fin 32) :
    val_main_v10 (F := Ideal) x1 (ValueIdx.ix2 n g) = Cert.Spec.gmax (fun j => x1 (ValueIdx.ix2 n (col g j))) := by
  unfold val_main_v10
  rw [Host.reduce_eq_fold_single _ _ _ _ reduces_w]
  have hf : (val_main_v9 (F := Ideal) x1 ∘ reduces_w.lift (ValueIdx.ix2 n g))
      = fun j : Fin 128 => FloatOps.absf (F := Ideal) (φ := .f32) (x1 (ValueIdx.ix2 n (col g j))) :=
    funext fun (j : Fin 128) => by
      show val_main_v9 (F := Ideal) x1 (reduces_w.lift (ValueIdx.ix2 n g) j) = _
      rw [lift_w n g j, val_main_v9_apply, val_main_v1_apply, idx_v1_ix3]; rfl
  rw [hf]; rfl

/-- The scale of group g of row n: its maximum over 127, or 1 where that quotient is 0. -/
theorem v15_apply (x1 : (⟨S4096x4096, .f32⟩ : BufTy).Contents (Elt Ideal)) (n : Fin 4096) (g : Fin 32) :
    val_main_v15 (F := Ideal) x1 (ValueIdx.ix2 n g) = Cert.Spec.scaleOf (fun j => x1 (ValueIdx.ix2 n (col g j))) := by
  rw [val_main_v15_apply, val_main_v14_apply, val_main_v12_apply, v10_apply, val_main_v11_apply, val_main_cst_4_apply,
    val_main_v13_apply, val_main_cst_5_apply, val_main_call1_v1_apply, val_main_call1_v0_apply, val_main_cst_6_apply]
  rfl

/-- The scale that divides entry (n, g, j) is the scale of (n, g). -/
theorem idx_v20_v21 (n : Fin 4096) (g : Fin 32) (j : Fin 128) :
    idx_main_v20 (idx_main_v21 (ValueIdx.ix3 n g j)) = ValueIdx.ix2 n g :=
  funext fun a => Fin.ext (by
    match a with
    | ⟨0, _⟩ => rfl
    | ⟨1, _⟩ => rfl)

/-- The scale that multiplies entry (n, g, j) is the scale of (n, g). -/
theorem idx_v28_v29 (n : Fin 4096) (g : Fin 32) (j : Fin 128) :
    idx_main_v28 (idx_main_v29 (ValueIdx.ix3 n g j)) = ValueIdx.ix2 n g :=
  funext fun a => Fin.ext (by
    match a with
    | ⟨0, _⟩ => rfl
    | ⟨1, _⟩ => rfl)

/-- Entry (n, g, j) of the quantised grouped weights: the entry quantised against its group. -/
theorem v30_apply (x1 : (⟨S4096x4096, .f32⟩ : BufTy).Contents (Elt Ideal)) (n : Fin 4096) (g : Fin 32) (j : Fin 128) :
    val_main_v30 (F := Ideal) x1 (ValueIdx.ix3 n g j)
      = Cert.Spec.qd1 (fun j' => x1 (ValueIdx.ix2 n (col g j'))) (x1 (ValueIdx.ix2 n (col g j))) := by
  rw [val_main_v30_apply, val_main_v23_apply, val_main_v22_apply, val_main_v1_apply, idx_v1_ix3, val_main_v21_apply,
    val_main_v20_apply, idx_v20_v21, val_main_v29_apply, val_main_v28_apply, idx_v28_v29, v15_apply]
  rfl

/-- Entry (n, k) of the quantised weights is entry (n, k / 128, k % 128) of the grouped ones. -/
theorem idx_v31_ix2 (n k : Fin 4096) :
    idx_main_v31 (ValueIdx.ix2 n k)
      = ValueIdx.ix3 n (⟨k.val / 128, by omega⟩ : Fin 32) (⟨k.val % 128, by omega⟩ : Fin 128) :=
  funext fun a => Fin.ext (by
    match a with
    | ⟨0, _⟩ => show (n.val * 4096 + k.val) / 4096 = n.val; omega
    | ⟨1, _⟩ => show (n.val * 4096 + k.val) / 128 % 32 = k.val / 128; omega
    | ⟨2, _⟩ => show (n.val * 4096 + k.val) % 128 = k.val % 128; omega)

/-- The right operand of the product: the quantised weights. -/
theorem v31_apply (x1 : (⟨S4096x4096, .f32⟩ : BufTy).Contents (Elt Ideal)) (n k : Fin 4096) :
    val_main_v31 (F := Ideal) x1 (ValueIdx.ix2 n k) = Cert.Spec.qd (Cert.Spec.rows2 x1) n k := by
  rw [val_main_v31_apply, idx_v31_ix2, v30_apply, col_div_mod]
  rfl

/-- Term k of entry (b, s, n) of the product reads the right operand at (n, k). -/
theorem ridx_v32_ix3 (b : Fin 4) (s : Fin 2048) (n k : Fin 4096) :
    ridx_main_v32 (ValueIdx.ix3 b s n) k = ValueIdx.ix2 n k :=
  funext fun a => Fin.ext (by
    match a with
    | ⟨0, _⟩ => rfl
    | ⟨1, _⟩ => rfl)

/-! ## The activation side: rank 4 -/

/-- Entry (b, s, g, j) of the grouped activations is entry (b, s, 128 g + j) of the activations. -/
theorem idx_v0_ix4 (b : Fin 4) (s : Fin 2048) (g : Fin 32) (j : Fin 128) :
    idx_main_v0 (ValueIdx.ix4 b s g j) = ValueIdx.ix3 b s (col g j) :=
  funext fun a => Fin.ext (by
    match a with
    | ⟨0, _⟩ => show (((b.val * 2048 + s.val) * 32 + g.val) * 128 + j.val) / 8388608 = b.val; omega
    | ⟨1, _⟩ => show (((b.val * 2048 + s.val) * 32 + g.val) * 128 + j.val) / 4096 % 2048 = s.val; omega
    | ⟨2, _⟩ => show (((b.val * 2048 + s.val) * 32 + g.val) * 128 + j.val) % 4096 = 128 * g.val + j.val; omega)

/-- The maximum over the last axis of a [4, 2048, 32, 128] array is a [4, 2048, 32] array. -/
theorem reduces_x : S4x2048x32x128.Reduces [3] S4x2048x32 := by decide

/-- The index over (b, s, g) with position j inserted on the reduced axis is (b, s, g, j). -/
theorem lift_x (b : Fin 4) (s : Fin 2048) (g : Fin 32) (j : Fin 128) :
    reduces_x.lift (ValueIdx.ix3 b s g) j = ValueIdx.ix4 b s g j :=
  funext fun c => Fin.ext (by
    match c with
    | ⟨0, _⟩ => rfl
    | ⟨1, _⟩ => rfl
    | ⟨2, _⟩ => rfl
    | ⟨3, _⟩ => rfl)

/-- The maximum of group g of row (b, s): the fold of max, from minus infinity, over the group's 128 absolute values. -/
theorem v3_apply (x0 : (⟨S4x2048x4096, .f32⟩ : BufTy).Contents (Elt Ideal)) (b : Fin 4) (s : Fin 2048) (g : Fin 32) :
    val_main_v3 (F := Ideal) x0 (ValueIdx.ix3 b s g) = Cert.Spec.gmax (fun j => x0 (ValueIdx.ix3 b s (col g j))) := by
  unfold val_main_v3
  rw [Host.reduce_eq_fold_single _ _ _ _ reduces_x]
  have hf : (val_main_v2 (F := Ideal) x0 ∘ reduces_x.lift (ValueIdx.ix3 b s g))
      = fun j : Fin 128 => FloatOps.absf (F := Ideal) (φ := .f32) (x0 (ValueIdx.ix3 b s (col g j))) :=
    funext fun (j : Fin 128) => by
      show val_main_v2 (F := Ideal) x0 (reduces_x.lift (ValueIdx.ix3 b s g) j) = _
      rw [lift_x b s g j, val_main_v2_apply, val_main_v0_apply, idx_v0_ix4]; rfl
  rw [hf]; rfl

/-- The scale of group g of row (b, s): its maximum over 127, or 1 where that quotient is 0. -/
theorem v8_apply (x0 : (⟨S4x2048x4096, .f32⟩ : BufTy).Contents (Elt Ideal)) (b : Fin 4) (s : Fin 2048) (g : Fin 32) :
    val_main_v8 (F := Ideal) x0 (ValueIdx.ix3 b s g) = Cert.Spec.scaleOf (fun j => x0 (ValueIdx.ix3 b s (col g j))) := by
  rw [val_main_v8_apply, val_main_v7_apply, val_main_v5_apply, v3_apply, val_main_v4_apply, val_main_cst_0_apply,
    val_main_v6_apply, val_main_cst_1_apply, val_main_call0_v1_apply, val_main_call0_v0_apply, val_main_cst_2_apply]
  rfl

/-- The scale that divides entry (b, s, g, j) is the scale of (b, s, g). -/
theorem idx_v16_v17 (b : Fin 4) (s : Fin 2048) (g : Fin 32) (j : Fin 128) :
    idx_main_v16 (idx_main_v17 (ValueIdx.ix4 b s g j)) = ValueIdx.ix3 b s g :=
  funext fun a => Fin.ext (by
    match a with
    | ⟨0, _⟩ => rfl
    | ⟨1, _⟩ => rfl
    | ⟨2, _⟩ => rfl)

/-- The scale that multiplies entry (b, s, g, j) is the scale of (b, s, g). -/
theorem idx_v24_v25 (b : Fin 4) (s : Fin 2048) (g : Fin 32) (j : Fin 128) :
    idx_main_v24 (idx_main_v25 (ValueIdx.ix4 b s g j)) = ValueIdx.ix3 b s g :=
  funext fun a => Fin.ext (by
    match a with
    | ⟨0, _⟩ => rfl
    | ⟨1, _⟩ => rfl
    | ⟨2, _⟩ => rfl)

/-- Entry (b, s, g, j) of the quantised grouped activations: the entry quantised against its group. -/
theorem v26_apply (x0 : (⟨S4x2048x4096, .f32⟩ : BufTy).Contents (Elt Ideal)) (b : Fin 4) (s : Fin 2048) (g : Fin 32)
    (j : Fin 128) :
    val_main_v26 (F := Ideal) x0 (ValueIdx.ix4 b s g j)
      = Cert.Spec.qd1 (fun j' => x0 (ValueIdx.ix3 b s (col g j'))) (x0 (ValueIdx.ix3 b s (col g j))) := by
  rw [val_main_v26_apply, val_main_v19_apply, val_main_v18_apply, val_main_v0_apply, idx_v0_ix4, val_main_v17_apply,
    val_main_v16_apply, idx_v16_v17, val_main_v25_apply, val_main_v24_apply, idx_v24_v25, v8_apply]
  rfl

/-- Entry (b, s, k) of the quantised activations is entry (b, s, k / 128, k % 128) of the grouped ones. -/
theorem idx_v27_ix3 (b : Fin 4) (s : Fin 2048) (k : Fin 4096) :
    idx_main_v27 (ValueIdx.ix3 b s k)
      = ValueIdx.ix4 b s (⟨k.val / 128, by omega⟩ : Fin 32) (⟨k.val % 128, by omega⟩ : Fin 128) :=
  funext fun a => Fin.ext (by
    match a with
    | ⟨0, _⟩ => show ((b.val * 2048 + s.val) * 4096 + k.val) / 8388608 = b.val; omega
    | ⟨1, _⟩ => show ((b.val * 2048 + s.val) * 4096 + k.val) / 4096 % 2048 = s.val; omega
    | ⟨2, _⟩ => show ((b.val * 2048 + s.val) * 4096 + k.val) / 128 % 32 = k.val / 128; omega
    | ⟨3, _⟩ => show ((b.val * 2048 + s.val) * 4096 + k.val) % 128 = k.val % 128; omega)

/-- Row 2048 b + s of the array of 8192 rows is row (b, s) of the rank-3 array. -/
theorem rows3_rowOf (x0 : (⟨S4x2048x4096, .f32⟩ : BufTy).Contents (Elt Ideal)) (b : Fin 4) (s : Fin 2048) :
    Cert.Spec.rows3 x0 (Cert.Spec.rowOf b s) = fun k => x0 (ValueIdx.ix3 b s k) :=
  funext fun k => congrArg x0 (funext fun a => Fin.ext (by
    match a with
    | ⟨0, _⟩ => show (2048 * b.val + s.val) / 2048 = b.val; omega
    | ⟨1, _⟩ => show (2048 * b.val + s.val) % 2048 = s.val; omega
    | ⟨2, _⟩ => rfl))

/-- The left operand of the product: the quantised activations, row 2048 b + s. -/
theorem v27_apply (x0 : (⟨S4x2048x4096, .f32⟩ : BufTy).Contents (Elt Ideal)) (b : Fin 4) (s : Fin 2048) (k : Fin 4096) :
    val_main_v27 (F := Ideal) x0 (ValueIdx.ix3 b s k)
      = Cert.Spec.qd (Cert.Spec.rows3 x0) (Cert.Spec.rowOf b s) k := by
  rw [val_main_v27_apply, idx_v27_ix3, v26_apply, col_div_mod]
  unfold Cert.Spec.qd
  rw [rows3_rowOf]
  rfl

/-- Term k of entry (b, s, n) of the product reads the left operand at (b, s, k). -/
theorem lidx_v32_ix3 (b : Fin 4) (s : Fin 2048) (n k : Fin 4096) :
    lidx_main_v32 (ValueIdx.ix3 b s n) k = ValueIdx.ix3 b s k :=
  funext fun a => Fin.ext (by
    match a with
    | ⟨0, _⟩ => rfl
    | ⟨1, _⟩ => rfl
    | ⟨2, _⟩ => rfl)

/-! ## The result -/

/-- Entry (b, s, n) of the reference's result: the sum over the 4096 columns k of the quantised activation
    (2048 b + s, k) times the quantised weight (n, k). -/
theorem ref_apply (x0 : (⟨Cert.ReferenceIdeal.S4x2048x4096, .f32⟩ : BufTy).Contents (Elt Ideal))
    (x1 : (⟨Cert.ReferenceIdeal.S4096x4096, .f32⟩ : BufTy).Contents (Elt Ideal)) (b : Fin 4) (s : Fin 2048)
    (n : Fin 4096) :
    Cert.ReferenceIdeal.Read.val_main_v32 (F := Ideal) x0 x1 (ValueIdx.ix3 b s n)
      = Cert.Spec.result (Cert.Spec.rows3 x0) (Cert.Spec.rows2 x1) (Cert.Spec.rowOf b s) n := by
  rw [val_main_v32_apply]
  unfold Cert.Spec.result
  refine Finset.sum_congr rfl fun k _ => ?_
  rw [lidx_v32_ix3, ridx_v32_ix3, v27_apply, v31_apply]

end Cert.RefValue

end
-- ==== Proof.lean ====
/-
  Two ways of computing a block-quantised linear layer are the same function on the extended reals.

  The kernel reshapes the activations x : [4, 2048, 4096] to 8192 rows, quantises them and the weights
  w : [4096, 4096] group by group — a row is cut into 32 groups of 128 consecutive columns; a group's scale is its
  largest absolute value over 127, or 1 when that quotient is 0; an entry becomes round-to-nearest-even of
  (entry / scale), times the scale — and multiplies the quantised activations by the transpose of the quantised
  weights, accumulating the two halves of the 4096 contracted columns one after the other; the product is
  reshaped back to [4, 2048, 4096]. The reference does the same with whole-array operations and one contraction.

  Read with exact arithmetic on the extended reals, a change of float format is the identity, so the two
  quantisations are the same function entry by entry, and the kernel's 0 + (first half) + (second half) is the
  reference's one sum over 4096 columns: addition of extended reals is associative and commutative, and no
  finiteness of the inputs is needed. Entry (b, s, n) of either result is the sum over k of the quantised
  activation (2048 b + s, k) times the quantised weight (n, k).

  The three programs' frames: the reference is host operations only; the kernel's two programs (as printed, and
  read with exact arithmetic) are run segment by segment — reshape, three kernel launches, reshape — each launch
  point by point, the product kernel's accumulator carried from the first half's point to the second's by the
  launch's invariant. Nothing writes an argument array. The idealization rewrote no operation, so the claim that it
  is the kernel's sanctioned idealization has nothing to state.
-/
import proofs.«161446_j85761906967213_2_alg».proof.Defs
import proofs.«161446_j85761906967213_2_alg».proof.Proof.Gen.Kernel
import proofs.«161446_j85761906967213_2_alg».proof.Proof.Gen.KernelIdeal
import proofs.«161446_j85761906967213_2_alg».proof.Proof.Gen.ReferenceIdeal
import proofs.«161446_j85761906967213_2_alg».proof.Proof.Gen.Pre_finite_inputs
import proofs.«161446_j85761906967213_2_alg».proof.Proof.K.Run
import proofs.«161446_j85761906967213_2_alg».proof.Proof.KI.Run
import proofs.«161446_j85761906967213_2_alg».proof.Proof.KI.QuantValue0
import proofs.«161446_j85761906967213_2_alg».proof.Proof.KI.QuantValue1
import proofs.«161446_j85761906967213_2_alg».proof.Proof.KI.MatmulValue
import proofs.«161446_j85761906967213_2_alg».proof.Proof.KI.KernelValue
import proofs.«161446_j85761906967213_2_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel's result, entry by entry, is the specification's function of the two arguments. -/
theorem result_apply_k (m : (ℓ : Loc Cert.KernelIdeal.nD Cert.KernelIdeal.τ Cert.KernelIdeal.sig) → Buf (Elt Ideal) ℓ) (ρ : Dev Cert.KernelIdeal.nD → PrngReg) (c : Dev Cert.KernelIdeal.nD) (b : Fin 4) (s : Fin 2048) (n : Fin 4096) :
    (Cert.KernelIdeal.Hand.W5 (F := Ideal) m ρ c (Proc.devRef .tc Cert.KernelIdeal.main_v4) : Cert.KernelIdeal.S4x2048x4096.Idx → EReal) (ix3 b s n)
      = Cert.Spec.result (Cert.Spec.rows3 (m ((c : Thread Cert.KernelIdeal.nD Cert.KernelIdeal.τ).loc Cert.KernelIdeal.main_arg0))) (Cert.Spec.rows2 (m ((c : Thread Cert.KernelIdeal.nD Cert.KernelIdeal.τ).loc Cert.KernelIdeal.main_arg1))) (Cert.Spec.rowOf b s) n :=
  Cert.KernelIdeal.HandValue.result_apply Cert.KernelIdeal.HandValue.arr0_apply Cert.KernelIdeal.HandValue.arr1_apply Cert.KernelIdeal.HandValue.arr2_apply m ρ c b s n

/-- The kernel as printed runs to the end, faults nowhere and leaves both arguments as launched. -/
theorem frame_k [Cert.Kernel.Facts] [Cert.Pre_finite_inputs.Facts] : Cert.frame_Kernel := fun m ρ _ => Cert.Kernel.Hand.frame (F := Bits) m ρ
/-- So does its idealization. -/
theorem frame_ki [Cert.KernelIdeal.Facts] [Cert.Pre_finite_inputs.Facts] : Cert.frame_KernelIdeal := fun m ρ _ => Cert.KernelIdeal.Hand.frame (F := Ideal) m ρ
/-- The reference is host operations only: its run with the result dropped. -/
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- The two idealized programs, run from memories agreeing on the arguments, end with the same result: entry
    (b, s, n) of either is the sum over the 4096 columns k of the quantised activation (2048 b + s, k) times the
    quantised weight (n, k). -/
theorem algebraic [Cert.KernelIdeal.Facts] [Cert.ReferenceIdeal.Facts] [Cert.Pre_finite_inputs.Facts] : Cert.algebraic_KernelIdeal_ReferenceIdeal := by
  intro m ρ m' ρ' _ hagree
  refine ⟨fun c => Cert.KernelIdeal.Hand.W5 (F := Ideal) m ρ c (Proc.devRef .tc Cert.KernelIdeal.main_v4), ?_, ?_⟩
  · exact (θ_run Cert.KernelIdeal.defs _ _).mono (fun _ h c =>
      ⟨h c _ (Cert.KernelIdeal.Hand.mem_uc Cert.KernelIdeal.main_v4 (by decide)),
       (h c _ (Cert.KernelIdeal.Hand.mem_uc Cert.KernelIdeal.main_arg0 (by decide))).trans (Cert.KernelIdeal.Hand.W5_main_arg0 m ρ c),
       (h c _ (Cert.KernelIdeal.Hand.mem_uc Cert.KernelIdeal.main_arg1 (by decide))).trans (Cert.KernelIdeal.Hand.W5_main_arg1 m ρ c)⟩)
      (Cert.KernelIdeal.Hand.run_all (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v32_eq, (hagree c).1, (hagree c).2]
    funext i
    obtain ⟨b, s, n, rfl⟩ : ∃ (b : Fin 4) (s : Fin 2048) (n : Fin 4096), i = ix3 b s n := ⟨i 0, i 1, i 2, eq_ix3 i⟩
    exact (Cert.RefValue.ref_apply _ _ b s n).trans (result_apply_k m ρ c b s n).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
